-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1000 : Shape := ⟨2, ![50000, 1000]⟩
abbrev S50000x800 : Shape := ⟨2, ![50000, 800]⟩
abbrev S50000x600 : Shape := ⟨2, ![50000, 600]⟩
abbrev S1000x256 : Shape := ⟨2, ![1000, 256]⟩
abbrev S256x256 : Shape := ⟨2, ![256, 256]⟩
abbrev S800x256 : Shape := ⟨2, ![800, 256]⟩
abbrev S600x256 : Shape := ⟨2, ![600, 256]⟩
abbrev S800000 : Shape := ⟨1, ![800000]⟩
abbrev S3x1 : Shape := ⟨2, ![3, 1]⟩
abbrev S1x3 : Shape := ⟨2, ![1, 3]⟩
abbrev S256x16 : Shape := ⟨2, ![256, 16]⟩
abbrev S16x256 : Shape := ⟨2, ![16, 256]⟩
abbrev S259x128 : Shape := ⟨2, ![259, 128]⟩
abbrev S128x259 : Shape := ⟨2, ![128, 259]⟩
abbrev S259x259 : Shape := ⟨2, ![259, 259]⟩
abbrev S259x10 : Shape := ⟨2, ![259, 10]⟩
abbrev S_ : Shape := ⟨0, ![]⟩

class Facts : Prop where
  bcast_S_S50000x1000 : S_.BroadcastsInDim S50000x1000 (![] : Fin 0 → Fin S50000x1000.rank)
  reducesTo_S50000x1000_S_d0_1 : S50000x1000.ReducesTo [0, 1] S_
  h_S_ : 0 < S_.numel
  bcast_S_S50000x800 : S_.BroadcastsInDim S50000x800 (![] : Fin 0 → Fin S50000x800.rank)
  reducesTo_S50000x800_S_d0_1 : S50000x800.ReducesTo [0, 1] S_
  bcast_S_S50000x600 : S_.BroadcastsInDim S50000x600 (![] : Fin 0 → Fin S50000x600.rank)
  reducesTo_S50000x600_S_d0_1 : S50000x600.ReducesTo [0, 1] S_
  bcast_S_S1000x256 : S_.BroadcastsInDim S1000x256 (![] : Fin 0 → Fin S1000x256.rank)
  reducesTo_S1000x256_S_d0_1 : S1000x256.ReducesTo [0, 1] S_
  bcast_S_S256x256 : S_.BroadcastsInDim S256x256 (![] : Fin 0 → Fin S256x256.rank)
  reducesTo_S256x256_S_d0_1 : S256x256.ReducesTo [0, 1] S_
  bcast_S_S800x256 : S_.BroadcastsInDim S800x256 (![] : Fin 0 → Fin S800x256.rank)
  reducesTo_S800x256_S_d0_1 : S800x256.ReducesTo [0, 1] S_
  bcast_S_S600x256 : S_.BroadcastsInDim S600x256 (![] : Fin 0 → Fin S600x256.rank)
  reducesTo_S600x256_S_d0_1 : S600x256.ReducesTo [0, 1] S_
  bcast_S_S800000 : S_.BroadcastsInDim S800000 (![] : Fin 0 → Fin S800000.rank)
  reducesTo_S800000_S_d0 : S800000.ReducesTo [0] S_
  bcast_S_S3x1 : S_.BroadcastsInDim S3x1 (![] : Fin 0 → Fin S3x1.rank)
  reducesTo_S3x1_S_d0_1 : S3x1.ReducesTo [0, 1] S_
  bcast_S_S1x3 : S_.BroadcastsInDim S1x3 (![] : Fin 0 → Fin S1x3.rank)
  reducesTo_S1x3_S_d0_1 : S1x3.ReducesTo [0, 1] S_
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_
  bcast_S_S259x128 : S_.BroadcastsInDim S259x128 (![] : Fin 0 → Fin S259x128.rank)
  reducesTo_S259x128_S_d0_1 : S259x128.ReducesTo [0, 1] S_
  bcast_S_S128x259 : S_.BroadcastsInDim S128x259 (![] : Fin 0 → Fin S128x259.rank)
  reducesTo_S128x259_S_d0_1 : S128x259.ReducesTo [0, 1] S_
  bcast_S_S259x259 : S_.BroadcastsInDim S259x259 (![] : Fin 0 → Fin S259x259.rank)
  reducesTo_S259x259_S_d0_1 : S259x259.ReducesTo [0, 1] S_
  bcast_S_S259x10 : S_.BroadcastsInDim S259x10 (![] : Fin 0 → Fin S259x10.rank)
  reducesTo_S259x10_S_d0_1 : S259x10.ReducesTo [0, 1] S_

variable [Facts]

def fn_part5 {F : FTy → Type} [FloatOps F] (main_arg20 : FVec F S259x10 .f32) (main_v83 : IVec S_ 1) (main_v84 : FVec F S259x259 .f32) (main_cst_32 : FVec F S_ .f32) : IVec S_ 1 :=
  let main_v85 : FVec F S259x259 .f32 := broadcastInDim S259x259 ![] bcast_S_S259x259 main_cst_32
  let main_v86 : IVec S259x259 1 := cmpf .olt main_v84 main_v85
  let main_c_33 : IVec S_ 1 := constantI S_ 1 1#1
  let main_v87 : IVec S_ 1 := (fun x v => Host.reduce IntOp.andi x v reducesTo_S259x259_S_d0_1 h_S_) main_v86 main_c_33
  let main_v88 : IVec S_ 1 := andi main_v83 main_v87
  let main_v89 : FVec F S259x10 .f32 := Host.absf main_arg20
  let main_cst_34 : FVec F S_ .f32 := constant S_ .f32 0x7F800000#32
  let main_v90 : FVec F S259x10 .f32 := broadcastInDim S259x10 ![] bcast_S_S259x10 main_cst_34
  let main_v91 : IVec S259x10 1 := cmpf .olt main_v89 main_v90
  let main_c_35 : IVec S_ 1 := constantI S_ 1 1#1
  let main_v92 : IVec S_ 1 := (fun x v => Host.reduce IntOp.andi x v reducesTo_S259x10_S_d0_1 h_S_) main_v91 main_c_35
  let main_v93 : IVec S_ 1 := andi main_v88 main_v92
  main_v93

def fn_part4 {F : FTy → Type} [FloatOps F] (main_arg16 : FVec F S259x128 .f32) (main_arg17 : FVec F S128x259 .f32) (main_arg18 : FVec F S259x259 .f32) (main_arg19 : FVec F S259x259 .f32) (main_arg20 : FVec F S259x10 .f32) (main_v63 : IVec S_ 1) (main_v67 : IVec S_ 1) : IVec S_ 1 :=
  let main_v68 : IVec S_ 1 := andi main_v63 main_v67
  let main_v69 : FVec F S259x128 .f32 := Host.absf main_arg16
  let main_cst_26 : FVec F S_ .f32 := constant S_ .f32 0x7F800000#32
  let main_v70 : FVec F S259x128 .f32 := broadcastInDim S259x128 ![] bcast_S_S259x128 main_cst_26
  let main_v71 : IVec S259x128 1 := cmpf .olt main_v69 main_v70
  let main_c_27 : IVec S_ 1 := constantI S_ 1 1#1
  let main_v72 : IVec S_ 1 := (fun x v => Host.reduce IntOp.andi x v reducesTo_S259x128_S_d0_1 h_S_) main_v71 main_c_27
  let main_v73 : IVec S_ 1 := andi main_v68 main_v72
  let main_v74 : FVec F S128x259 .f32 := Host.absf main_arg17
  let main_cst_28 : FVec F S_ .f32 := constant S_ .f32 0x7F800000#32
  let main_v75 : FVec F S128x259 .f32 := broadcastInDim S128x259 ![] bcast_S_S128x259 main_cst_28
  let main_v76 : IVec S128x259 1 := cmpf .olt main_v74 main_v75
  let main_c_29 : IVec S_ 1 := constantI S_ 1 1#1
  let main_v77 : IVec S_ 1 := (fun x v => Host.reduce IntOp.andi x v reducesTo_S128x259_S_d0_1 h_S_) main_v76 main_c_29
  let main_v78 : IVec S_ 1 := andi main_v73 main_v77
  let main_v79 : FVec F S259x259 .f32 := Host.absf main_arg18
  let main_cst_30 : FVec F S_ .f32 := constant S_ .f32 0x7F800000#32
  let main_v80 : FVec F S259x259 .f32 := broadcastInDim S259x259 ![] bcast_S_S259x259 main_cst_30
  let main_v81 : IVec S259x259 1 := cmpf .olt main_v79 main_v80
  let main_c_31 : IVec S_ 1 := constantI S_ 1 1#1
  let main_v82 : IVec S_ 1 := (fun x v => Host.reduce IntOp.andi x v reducesTo_S259x259_S_d0_1 h_S_) main_v81 main_c_31
  let main_v83 : IVec S_ 1 := andi main_v78 main_v82
  let main_v84 : FVec F S259x259 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S1x3 .f32) (main_arg14 : FVec F S256x16 .f32) (main_arg15 : FVec F S16x256 .f32) (main_arg16 : FVec F S259x128 .f32) (main_arg17 : FVec F S128x259 .f32) (main_arg18 : FVec F S259x259 .f32) (main_arg19 : FVec F S259x259 .f32) (main_arg20 : FVec F S259x10 .f32) (main_v48 : IVec S_ 1) (main_v49 : FVec F S3x1 .f32) (main_v50 : FVec F S3x1 .f32) : IVec S_ 1 :=
  let main_v51 : IVec S3x1 1 := cmpf .olt main_v49 main_v50
  let main_c_19 : IVec S_ 1 := constantI S_ 1 1#1
  let main_v52 : IVec S_ 1 := (fun x v => Host.reduce IntOp.andi x v reducesTo_S3x1_S_d0_1 h_S_) main_v51 main_c_19
  let main_v53 : IVec S_ 1 := andi main_v48 main_v52
  let main_v54 : FVec F S1x3 .f32 := Host.absf main_arg13
  let main_cst_20 : FVec F S_ .f32 := constant S_ .f32 0x7F800000#32
  let main_v55 : FVec F S1x3 .f32 := broadcastInDim S1x3 ![] bcast_S_S1x3 main_cst_20
  let main_v56 : IVec S1x3 1 := cmpf .olt main_v54 main_v55
  let main_c_21 : IVec S_ 1 := constantI S_ 1 1#1
  let main_v57 : IVec S_ 1 := (fun x v => Host.reduce IntOp.andi x v reducesTo_S1x3_S_d0_1 h_S_) main_v56 main_c_21
  let main_v58 : IVec S_ 1 := andi main_v53 main_v57
  let main_v59 : FVec F S256x16 .f32 := Host.absf main_arg14
  let main_cst_22 : FVec F S_ .f32 := constant S_ .f32 0x7F800000#32
  let main_v60 : FVec F S256x16 .f32 := broadcastInDim S256x16 ![] bcast_S_S256x16 main_cst_22
  let main_v61 : IVec S256x16 1 := cmpf .olt main_v59 main_v60
  let main_c_23 : IVec S_ 1 := constantI S_ 1 1#1
  let main_v62 : IVec S_ 1 := (fun x v => Host.reduce IntOp.andi x v reducesTo_S256x16_S_d0_1 h_S_) main_v61 main_c_23
  let main_v63 : IVec S_ 1 := andi main_v58 main_v62
  let main_v64 : FVec F S16x256 .f32 := Host.absf main_arg15
  let main_cst_24 : FVec F S_ .f32 := constant S_ .f32 0x7F800000#32
  let main_v65 : FVec F S16x256 .f32 := broadcastInDim S16x256 ![] bcast_S_S16x256 main_cst_24
  let main_v66 : IVec S16x256 1 := cmpf .olt main_v64 main_v65
  let main_c_25 : IVec S_ 1 := constantI S_ 1 1#1
  let main_v67 : IVec S_ 1 := (fun x v => Host.reduce IntOp.andi x v reducesTo_S16x256_S_d0_1 h_S_) main_v66 main_c_25
  fn_part4 (F := F) main_arg16 main_arg17 main_arg18 main_arg19 main_arg20 main_v63 main_v67

def fn_part2 {F : FTy → Type} [FloatOps F] (main_arg7 : FVec F S600x256 .f32) (main_arg8 : FVec F S256x256 .f32) (main_arg11 : FVec F S800000 .f32) (main_arg12 : FVec F S3x1 .f32) (main_arg13 : FVec F S1x3 .f32) (main_arg14 : FVec F S256x16 .f32) (main_arg15 : FVec F S16x256 .f32) (main_arg16 : FVec F S259x128 .f32) (main_arg17 : FVec F S128x259 .f32) (main_arg18 : FVec F S259x259 .f32) (main_arg19 : FVec F S259x259 .f32) (main_arg20 : FVec F S259x10 .f32) (main_v33 : IVec S_ 1) : IVec S_ 1 :=
  let main_v34 : FVec F S600x256 .f32 := Host.absf main_arg7
  let main_cst_12 : FVec F S_ .f32 := constant S_ .f32 0x7F800000#32
  let main_v35 : FVec F S600x256 .f32 := broadcastInDim S600x256 ![] bcast_S_S600x256 main_cst_12
  let main_v36 : IVec S600x256 1 := cmpf .olt main_v34 main_v35
  let main_c_13 : IVec S_ 1 := constantI S_ 1 1#1
  let main_v37 : IVec S_ 1 := (fun x v => Host.reduce IntOp.andi x v reducesTo_S600x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S800000 .f32 := Host.absf main_arg11
  let main_cst_16 : FVec F S_ .f32 := constant S_ .f32 0x7F800000#32
  let main_v45 : FVec F S800000 .f32 := broadcastInDim S800000 ![] bcast_S_S800000 main_cst_16
  let main_v46 : IVec S800000 1 := cmpf .olt main_v44 main_v45
  let main_c_17 : IVec S_ 1 := constantI S_ 1 1#1
  let main_v47 : IVec S_ 1 := (fun x v => Host.reduce IntOp.andi x v reducesTo_S800000_S_d0 h_S_) main_v46 main_c_17
  let main_v48 : IVec S_ 1 := andi main_v43 main_v47
  let main_v49 : FVec F S3x1 .f32 := Host.absf main_arg12
  let main_cst_18 : FVec F S_ .f32 := constant S_ .f32 0x7F800000#32
  let main_v50 : FVec F S3x1 .f32 := broadcastInDim S3x1 ![] bcast_S_S3x1 main_cst_18
  fn_part3 (F := F) main_arg13 main_arg14 main_arg15 main_arg16 main_arg17 main_arg18 main_arg19 main_arg20 main_v48 main_v49 main_v50

def fn_part1 {F : FTy → Type} [FloatOps F] (main_arg4 : FVec F S256x256 .f32) (main_arg5 : FVec F S800x256 .f32) (main_arg6 : FVec F S256x256 .f32) (main_arg7 : FVec F S600x256 .f32) (main_arg8 : FVec F S256x256 .f32) (main_arg11 : FVec F S800000 .f32) (main_arg12 : FVec F S3x1 .f32) (main_arg13 : FVec F S1x3 .f32) (main_arg14 : FVec F S256x16 .f32) (main_arg15 : FVec F S16x256 .f32) (main_arg16 : FVec F S259x128 .f32) (main_arg17 : FVec F S128x259 .f32) (main_arg18 : FVec F S259x259 .f32) (main_arg19 : FVec F S259x259 .f32) (main_arg20 : FVec F S259x10 .f32) (main_v13 : IVec S_ 1) (main_v16 : IVec S1000x256 1) : IVec S_ 1 :=
  let main_c_5 : IVec S_ 1 := constantI S_ 1 1#1
  let main_v17 : IVec S_ 1 := (fun x v => Host.reduce IntOp.andi x v reducesTo_S1000x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S800x256 .f32 := Host.absf main_arg5
  let main_cst_8 : FVec F S_ .f32 := constant S_ .f32 0x7F800000#32
  let main_v25 : FVec F S800x256 .f32 := broadcastInDim S800x256 ![] bcast_S_S800x256 main_cst_8
  let main_v26 : IVec S800x256 1 := cmpf .olt main_v24 main_v25
  let main_c_9 : IVec S_ 1 := constantI S_ 1 1#1
  let main_v27 : IVec S_ 1 := (fun x v => Host.reduce IntOp.andi x v reducesTo_S800x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg11 main_arg12 main_arg13 main_arg14 main_arg15 main_arg16 main_arg17 main_arg18 main_arg19 main_arg20 main_v33

def fn {F : FTy → Type} [FloatOps F] (main_arg0 : FVec F S50000x1000 .f32) (main_arg1 : FVec F S50000x800 .f32) (main_arg2 : FVec F S50000x600 .f32) (main_arg3 : FVec F S1000x256 .f32) (main_arg4 : FVec F S256x256 .f32) (main_arg5 : FVec F S800x256 .f32) (main_arg6 : FVec F S256x256 .f32) (main_arg7 : FVec F S600x256 .f32) (main_arg8 : FVec F S256x256 .f32) (main_arg9 : IVec S800000 32) (main_arg10 : IVec S800000 32) (main_arg11 : FVec F S800000 .f32) (main_arg12 : FVec F S3x1 .f32) (main_arg13 : FVec F S1x3 .f32) (main_arg14 : FVec F S256x16 .f32) (main_arg15 : FVec F S16x256 .f32) (main_arg16 : FVec F S259x128 .f32) (main_arg17 : FVec F S128x259 .f32) (main_arg18 : FVec F S259x259 .f32) (main_arg19 : FVec F S259x259 .f32) (main_arg20 : FVec F S259x10 .f32) : IVec S_ 1 :=
  let main_v0 : FVec F S50000x1000 .f32 := Host.absf main_arg0
  let main_cst : FVec F S_ .f32 := constant S_ .f32 0x7F800000#32
  let main_v1 : FVec F S50000x1000 .f32 := broadcastInDim S50000x1000 ![] bcast_S_S50000x1000 main_cst
  let main_v2 : IVec S50000x1000 1 := cmpf .olt main_v0 main_v1
  let main_c : IVec S_ 1 := constantI S_ 1 1#1
  let main_v3 : IVec S_ 1 := (fun x v => Host.reduce IntOp.andi x v reducesTo_S50000x1000_S_d0_1 h_S_) main_v2 main_c
  let main_v4 : FVec F S50000x800 .f32 := Host.absf main_arg1
  let main_cst_0 : FVec F S_ .f32 := constant S_ .f32 0x7F800000#32
  let main_v5 : FVec F S50000x800 .f32 := broadcastInDim S50000x800 ![] bcast_S_S50000x800 main_cst_0
  let main_v6 : IVec S50000x800 1 := cmpf .olt main_v4 main_v5
  let main_c_1 : IVec S_ 1 := constantI S_ 1 1#1
  let main_v7 : IVec S_ 1 := (fun x v => Host.reduce IntOp.andi x v reducesTo_S50000x800_S_d0_1 h_S_) main_v6 main_c_1
  let main_v8 : IVec S_ 1 := andi main_v3 main_v7
  let main_v9 : FVec F S50000x600 .f32 := Host.absf main_arg2
  let main_cst_2 : FVec F S_ .f32 := constant S_ .f32 0x7F800000#32
  let main_v10 : FVec F S50000x600 .f32 := broadcastInDim S50000x600 ![] bcast_S_S50000x600 main_cst_2
  let main_v11 : IVec S50000x600 1 := cmpf .olt main_v9 main_v10
  let main_c_3 : IVec S_ 1 := constantI S_ 1 1#1
  let main_v12 : IVec S_ 1 := (fun x v => Host.reduce IntOp.andi x v reducesTo_S50000x600_S_d0_1 h_S_) main_v11 main_c_3
  let main_v13 : IVec S_ 1 := andi main_v8 main_v12
  let main_v14 : FVec F S1000x256 .f32 := Host.absf main_arg3
  let main_cst_4 : FVec F S_ .f32 := constant S_ .f32 0x7F800000#32
  let main_v15 : FVec F S1000x256 .f32 := broadcastInDim S1000x256 ![] bcast_S_S1000x256 main_cst_4
  let main_v16 : IVec S1000x256 1 := cmpf .olt main_v14 main_v15
  fn_part1 (F := F) main_arg4 main_arg5 main_arg6 main_arg7 main_arg8 main_arg11 main_arg12 main_arg13 main_arg14 main_arg15 main_arg16 main_arg17 main_arg18 main_arg19 main_arg20 main_v13 main_v16
-- ==== Kernel.lean ====
abbrev S50000x1000 : Shape := ⟨2, ![50000, 1000]⟩
abbrev S50000x800 : Shape := ⟨2, ![50000, 800]⟩
abbrev S50000x600 : Shape := ⟨2, ![50000, 600]⟩
abbrev S1000x256 : Shape := ⟨2, ![1000, 256]⟩
abbrev S256x256 : Shape := ⟨2, ![256, 256]⟩
abbrev S800x256 : Shape := ⟨2, ![800, 256]⟩
abbrev S600x256 : Shape := ⟨2, ![600, 256]⟩
abbrev S800000 : Shape := ⟨1, ![800000]⟩
abbrev S3x1 : Shape := ⟨2, ![3, 1]⟩
abbrev S1x3 : Shape := ⟨2, ![1, 3]⟩
abbrev S256x16 : Shape := ⟨2, ![256, 16]⟩
abbrev S16x256 : Shape := ⟨2, ![16, 256]⟩
abbrev S259x128 : Shape := ⟨2, ![259, 128]⟩
abbrev S128x259 : Shape := ⟨2, ![128, 259]⟩
abbrev S259x259 : Shape := ⟨2, ![259, 259]⟩
abbrev S259x10 : Shape := ⟨2, ![259, 10]⟩
abbrev S50000x259 : Shape := ⟨2, ![50000, 259]⟩
abbrev S1000x1000 : Shape := ⟨2, ![1000, 1000]⟩
abbrev S1000x800 : Shape := ⟨2, ![1000, 800]⟩
abbrev S1000x600 : Shape := ⟨2, ![1000, 600]⟩
abbrev S1000x259 : Shape := ⟨2, ![1000, 259]⟩
abbrev S1000 : Shape := ⟨1, ![1000]⟩
abbrev S1000x1 : Shape := ⟨2, ![1000, 1]⟩
abbrev S1000x3 : Shape := ⟨2, ![1000, 3]⟩
abbrev S1000x16 : Shape := ⟨2, ![1000, 16]⟩
abbrev S1000x128 : Shape := ⟨2, ![1000, 128]⟩
abbrev S800000x1 : Shape := ⟨2, ![800000, 1]⟩
abbrev S_ : Shape := ⟨0, ![]⟩
abbrev S800000x259 : Shape := ⟨2, ![800000, 259]⟩
abbrev S50000x10 : Shape := ⟨2, ![50000, 10]⟩
abbrev S1000x10 : Shape := ⟨2, ![1000, 10]⟩

abbrev nBuf : Space → Nat
  | .hbm => 73
  | .vmem => 35
  | .smem => 0
  | _ => 0

abbrev bufTy : (tb : Table) → Fin (tcTables nBuf tb) → BufTy
  | .hbm, ⟨0, _⟩ => ⟨S50000x1000, .f32⟩
  | .hbm, ⟨1, _⟩ => ⟨S50000x800, .f32⟩
  | .hbm, ⟨2, _⟩ => ⟨S50000x600, .f32⟩
  | .hbm, ⟨3, _⟩ => ⟨S1000x256, .f32⟩
  | .hbm, ⟨4, _⟩ => ⟨S256x256, .f32⟩
  | .hbm, ⟨5, _⟩ => ⟨S800x256, .f32⟩
  | .hbm, ⟨6, _⟩ => ⟨S256x256, .f32⟩
  | .hbm, ⟨7, _⟩ => ⟨S600x256, .f32⟩
  | .hbm, ⟨8, _⟩ => ⟨S256x256, .f32⟩
  | .hbm, ⟨9, _⟩ => ⟨S800000, .i32⟩
  | .hbm, ⟨10, _⟩ => ⟨S800000, .i32⟩
  | .hbm, ⟨11, _⟩ => ⟨S800000, .f32⟩
  | .hbm, ⟨12, _⟩ => ⟨S3x1, .f32⟩
  | .hbm, ⟨13, _⟩ => ⟨S1x3, .f32⟩
  | .hbm, ⟨14, _⟩ => ⟨S256x16, .f32⟩
  | .hbm, ⟨15, _⟩ => ⟨S16x256, .f32⟩
  | .hbm, ⟨16, _⟩ => ⟨S259x128, .f32⟩
  | .hbm, ⟨17, _⟩ => ⟨S128x259, .f32⟩
  | .hbm, ⟨18, _⟩ => ⟨S259x259, .f32⟩
  | .hbm, ⟨19, _⟩ => ⟨S259x259, .f32⟩
  | .hbm, ⟨20, _⟩ => ⟨S259x10, .f32⟩
  | .hbm, ⟨21, _⟩ => ⟨S50000x259, .f32⟩
  | .hbm, ⟨22, _⟩ => ⟨S800000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x259, .f32⟩
  | .hbm, ⟨32, _⟩ => ⟨S800000x259, .f32⟩
  | .hbm, ⟨33, _⟩ => ⟨S800000x259, .f32⟩
  | .hbm, ⟨34, _⟩ => ⟨S_, .f32⟩
  | .hbm, ⟨35, _⟩ => ⟨S50000x259, .f32⟩
  | .hbm, ⟨36, _⟩ => ⟨S800000x1, .i32⟩
  | .hbm, ⟨37, _⟩ => ⟨S50000x259, .f32⟩
  | .hbm, ⟨38, _⟩ => ⟨S50000x259, .f32⟩
  | .hbm, ⟨39, _⟩ => ⟨S800000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x259, .f32⟩
  | .hbm, ⟨49, _⟩ => ⟨S800000x259, .f32⟩
  | .hbm, ⟨50, _⟩ => ⟨S800000x259, .f32⟩
  | .hbm, ⟨51, _⟩ => ⟨S_, .f32⟩
  | .hbm, ⟨52, _⟩ => ⟨S50000x259, .f32⟩
  | .hbm, ⟨53, _⟩ => ⟨S800000x1, .i32⟩
  | .hbm, ⟨54, _⟩ => ⟨S50000x259, .f32⟩
  | .hbm, ⟨55, _⟩ => ⟨S50000x259, .f32⟩
  | .hbm, ⟨56, _⟩ => ⟨S800000x1, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x259, .f32⟩
  | .hbm, ⟨66, _⟩ => ⟨S800000x259, .f32⟩
  | .hbm, ⟨67, _⟩ => ⟨S800000x259, .f32⟩
  | .hbm, ⟨68, _⟩ => ⟨S_, .f32⟩
  | .hbm, ⟨69, _⟩ => ⟨S50000x259, .f32⟩
  | .hbm, ⟨70, _⟩ => ⟨S800000x1, .i32⟩
  | .hbm, ⟨71, _⟩ => ⟨S50000x259, .f32⟩
  | .hbm, ⟨72, _⟩ => ⟨S50000x10, .f32⟩
  | .local _ .vmem, ⟨0, _⟩ => ⟨S1000x1000, .f32⟩
  | .local _ .vmem, ⟨1, _⟩ => ⟨S1000x1000, .f32⟩
  | .local _ .vmem, ⟨2, _⟩ => ⟨S1000x800, .f32⟩
  | .local _ .vmem, ⟨3, _⟩ => ⟨S1000x800, .f32⟩
  | .local _ .vmem, ⟨4, _⟩ => ⟨S1000x600, .f32⟩
  | .local _ .vmem, ⟨5, _⟩ => ⟨S1000x600, .f32⟩
  | .local _ .vmem, ⟨6, _⟩ => ⟨S1000x256, .f32⟩
  | .local _ .vmem, ⟨7, _⟩ => ⟨S256x256, .f32⟩
  | .local _ .vmem, ⟨8, _⟩ => ⟨S800x256, .f32⟩
  | .local _ .vmem, ⟨9, _⟩ => ⟨S256x256, .f32⟩
  | .local _ .vmem, ⟨10, _⟩ => ⟨S600x256, .f32⟩
  | .local _ .vmem, ⟨11, _⟩ => ⟨S256x256, .f32⟩
  | .local _ .vmem, ⟨12, _⟩ => ⟨S3x1, .f32⟩
  | .local _ .vmem, ⟨13, _⟩ => ⟨S1x3, .f32⟩
  | .local _ .vmem, ⟨14, _⟩ => ⟨S256x16, .f32⟩
  | .local _ .vmem, ⟨15, _⟩ => ⟨S16x256, .f32⟩
  | .local _ .vmem, ⟨16, _⟩ => ⟨S259x128, .f32⟩
  | .local _ .vmem, ⟨17, _⟩ => ⟨S128x259, .f32⟩
  | .local _ .vmem, ⟨18, _⟩ => ⟨S1000x259, .f32⟩
  | .local _ .vmem, ⟨19, _⟩ => ⟨S1000x259, .f32⟩
  | .local _ .vmem, ⟨20, _⟩ => ⟨S1000x259, .f32⟩
  | .local _ .vmem, ⟨21, _⟩ => ⟨S1000x259, .f32⟩
  | .local _ .vmem, ⟨22, _⟩ => ⟨S259x259, .f32⟩
  | .local _ .vmem, ⟨23, _⟩ => ⟨S1000x259, .f32⟩
  | .local _ .vmem, ⟨24, _⟩ => ⟨S1000x259, .f32⟩
  | .local _ .vmem, ⟨25, _⟩ => ⟨S1000x259, .f32⟩
  | .local _ .vmem, ⟨26, _⟩ => ⟨S1000x259, .f32⟩
  | .local _ .vmem, ⟨27, _⟩ => ⟨S259x259, .f32⟩
  | .local _ .vmem, ⟨28, _⟩ => ⟨S1000x259, .f32⟩
  | .local _ .vmem, ⟨29, _⟩ => ⟨S1000x259, .f32⟩
  | .local _ .vmem, ⟨30, _⟩ => ⟨S1000x259, .f32⟩
  | .local _ .vmem, ⟨31, _⟩ => ⟨S1000x259, .f32⟩
  | .local _ .vmem, ⟨32, _⟩ => ⟨S259x10, .f32⟩
  | .local _ .vmem, ⟨33, _⟩ => ⟨S1000x10, .f32⟩
  | .local _ .vmem, ⟨34, _⟩ => ⟨S1000x10, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_1 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_4 : Ref sig .tc := ⟨.hbm, 57, rfl⟩
abbrev main_v30 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S800x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S600x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S259x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x259 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x259 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x259 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S259x259 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x259 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x259 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S259x259 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x259 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x259 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S259x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S1000x1000_S1000x1000_0_0 : ∀ a, (![0, 0] : Fin 2 → Nat) a + S1000x1000.size a ≤ S1000x1000.size a
  h_S1000x1000 : 0 < S1000x1000.numel
  bitsLt_bf16_f32 : FTy.bits .bf16 < FTy.bits .f32
  inb_S1000x800_S1000x800_0_0 : ∀ a, (![0, 0] : Fin 2 → Nat) a + S1000x800.size a ≤ S1000x800.size a
  h_S1000x800 : 0 < S1000x800.numel
  inb_S1000x600_S1000x600_0_0 : ∀ a, (![0, 0] : Fin 2 → Nat) a + S1000x600.size a ≤ S1000x600.size a
  h_S1000x600 : 0 < S1000x600.numel
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  inb_S800x256_S800x256_0_0 : ∀ a, (![0, 0] : Fin 2 → Nat) a + S800x256.size a ≤ S800x256.size a
  h_S800x256 : 0 < S800x256.numel
  inb_S600x256_S600x256_0_0 : ∀ a, (![0, 0] : Fin 2 → Nat) a + S600x256.size a ≤ S600x256.size a
  h_S600x256 : 0 < S600x256.numel
  reduces_S1000x256_S1000 : S1000x256.Reduces [1] S1000
  shapeCasts_S1000_S1000x1 : S1000.ShapeCasts S1000x1
  concatenates_S1000x1_S1000x1_S1000x1_S1000x3_d1 : Shape.Concatenates [S1000x1, S1000x1, S1000x1] S1000x3 1
  inb_S3x1_S3x1_0_0 : ∀ a, (![0, 0] : Fin 2 → Nat) a + S3x1.size a ≤ S3x1.size a
  h_S3x1 : 0 < S3x1.numel
  inb_S1x3_S1x3_0_0 : ∀ a, (![0, 0] : Fin 2 → Nat) a + S1x3.size a ≤ S1x3.size a
  h_S1x3 : 0 < S1x3.numel
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  concatenates_S1000x3_S1000x256_S1000x259_d1 : Shape.Concatenates [S1000x3, S1000x256] S1000x259 1
  inb_S259x128_S259x128_0_0 : ∀ a, (![0, 0] : Fin 2 → Nat) a + S259x128.size a ≤ S259x128.size a
  h_S259x128 : 0 < S259x128.numel
  inb_S128x259_S128x259_0_0 : ∀ a, (![0, 0] : Fin 2 → Nat) a + S128x259.size a ≤ S128x259.size a
  h_S128x259 : 0 < S128x259.numel
  slices_S1000x259_o0_0_S1000x3 : S1000x259.Slices ![0, 0] S1000x3
  slices_S1000x259_o0_3_S1000x256 : S1000x259.Slices ![0, 3] S1000x256
  inb_S1000x259_S1000x259_0_0 : ∀ a, (![0, 0] : Fin 2 → Nat) a + S1000x259.size a ≤ S1000x259.size a
  h_S1000x259 : 0 < S1000x259.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x259_0_1 : S800000x1.BroadcastsInDim S800000x259 (![0, 1] : Fin 2 → Fin S800000x259.rank)
  bcast_S_S50000x259 : S_.BroadcastsInDim S50000x259 (![] : Fin 0 → Fin S50000x259.rank)
  shapeCasts_S1000x259_S1000x259 : S1000x259.ShapeCasts S1000x259
  inb_S259x259_S259x259_0_0 : ∀ a, (![0, 0] : Fin 2 → Nat) a + S259x259.size a ≤ S259x259.size a
  h_S259x259 : 0 < S259x259.numel
  inb_S259x10_S259x10_0_0 : ∀ a, (![0, 0] : Fin 2 → Nat) a + S259x10.size a ≤ S259x10.size a
  h_S259x10 : 0 < S259x10.numel
  inb_S1000x10_S1000x10_0_0 : ∀ a, (![0, 0] : Fin 2 → Nat) a + S1000x10.size a ≤ S1000x10.size a
  h_S1000x10 : 0 < S1000x10.numel
  dot_S1000x1000_S1000x256_S1000x256_1_0_0_1_n_n_wf : DotDims.WF S1000x1000 S1000x256 S1000x256 [1] [0] [0] [1] [] []
  dot_S1000x256_S256x256_S1000x256_1_0_0_1_n_n_wf : DotDims.WF S1000x256 S256x256 S1000x256 [1] [0] [0] [1] [] []
  dot_S1000x800_S800x256_S1000x256_1_0_0_1_n_n_wf : DotDims.WF S1000x800 S800x256 S1000x256 [1] [0] [0] [1] [] []
  dot_S1000x600_S600x256_S1000x256_1_0_0_1_n_n_wf : DotDims.WF S1000x600 S600x256 S1000x256 [1] [0] [0] [1] [] []
  dot_S1000x3_S3x1_S1000x1_1_0_0_1_n_n_wf : DotDims.WF S1000x3 S3x1 S1000x1 [1] [0] [0] [1] [] []
  dot_S1000x1_S1x3_S1000x3_1_0_0_1_n_n_wf : DotDims.WF S1000x1 S1x3 S1000x3 [1] [0] [0] [1] [] []
  dot_S1000x256_S256x16_S1000x16_1_0_0_1_n_n_wf : DotDims.WF S1000x256 S256x16 S1000x16 [1] [0] [0] [1] [] []
  dot_S1000x16_S16x256_S1000x256_1_0_0_1_n_n_wf : DotDims.WF S1000x16 S16x256 S1000x256 [1] [0] [0] [1] [] []
  dot_S1000x259_S259x128_S1000x128_1_0_0_1_n_n_wf : DotDims.WF S1000x259 S259x128 S1000x128 [1] [0] [0] [1] [] []
  dot_S1000x128_S128x259_S1000x259_1_0_0_1_n_n_wf : DotDims.WF S1000x128 S128x259 S1000x259 [1] [0] [0] [1] [] []
  gather_S50000x259_S800000x1_S800000x259_1_0_n_n_0_1_1259_wf : GatherDims.WF S50000x259 S800000x1 S800000x259 [1] [0] [] [0] [] 1 ![1, 259]
  scatter_S50000x259_S800000x1_S800000x259_1_0_0_1_wf : ScatterDims.WF S50000x259 S800000x1 S800000x259 [1] [0] [0] 1
  dot_S1000x259_S259x259_S1000x259_1_0_0_1_n_n_wf : DotDims.WF S1000x259 S259x259 S1000x259 [1] [0] [0] [1] [] []
  dot_S1000x259_S259x10_S1000x10_1_0_0_1_n_n_wf : DotDims.WF S1000x259 S259x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S50000x1000.size a
  hwx0_0 : ∀ i : grid0.Coords, EltTy.bits .f32 = 32 ∨ (Rect.block (s := S50000x1000) S1000x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x800.size a ≤ S50000x800.size a
  hwx0_1 : ∀ i : grid0.Coords, EltTy.bits .f32 = 32 ∨ (Rect.block (s := S50000x800) S1000x800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x600.size a ≤ S50000x600.size a
  hwx0_2 : ∀ i : grid0.Coords, EltTy.bits .f32 = 32 ∨ (Rect.block (s := S50000x600) S1000x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S1000x256.size a
  hwx0_3 : ∀ i : grid0.Coords, EltTy.bits .f32 = 32 ∨ (Rect.block (s := S1000x256) S1000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S800x256.size a ≤ S800x256.size a
  hwx0_5 : ∀ i : grid0.Coords, EltTy.bits .f32 = 32 ∨ (Rect.block (s := S800x256) S800x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S600x256.size a ≤ S600x256.size a
  hwx0_7 : ∀ i : grid0.Coords, EltTy.bits .f32 = 32 ∨ (Rect.block (s := S600x256) S600x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x1.size a ≤ S3x1.size a
  hwx0_9 : ∀ i : grid0.Coords, EltTy.bits .f32 = 32 ∨ (Rect.block (s := S3x1) S3x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x16.size a ≤ S256x16.size a
  hwx0_11 : ∀ i : grid0.Coords, EltTy.bits .f32 = 32 ∨ (Rect.block (s := S256x16) S256x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16x256.size a ≤ S16x256.size a
  hwx0_12 : ∀ i : grid0.Coords, EltTy.bits .f32 = 32 ∨ (Rect.block (s := S16x256) S16x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S259x128.size a ≤ S259x128.size a
  hwx0_13 : ∀ i : grid0.Coords, EltTy.bits .f32 = 32 ∨ (Rect.block (s := S259x128) S259x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x259.size a ≤ S128x259.size a
  hwx0_14 : ∀ i : grid0.Coords, EltTy.bits .f32 = 32 ∨ (Rect.block (s := S128x259) S128x259.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x259.size a ≤ S50000x259.size a
  hwx0_15 : ∀ i : grid0.Coords, EltTy.bits .f32 = 32 ∨ (Rect.block (s := S50000x259) S1000x259.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x259.size a ≤ S50000x259.size a
  hwx1_0 : ∀ i : grid1.Coords, EltTy.bits .f32 = 32 ∨ (Rect.block (s := S50000x259) S1000x259.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S259x259.size a ≤ S259x259.size a
  hwx1_1 : ∀ i : grid1.Coords, EltTy.bits .f32 = 32 ∨ (Rect.block (s := S259x259) S259x259.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x259.size a ≤ S50000x259.size a
  hwx1_2 : ∀ i : grid1.Coords, EltTy.bits .f32 = 32 ∨ (Rect.block (s := S50000x259) S1000x259.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x259.size a ≤ S50000x259.size a
  hwx2_0 : ∀ i : grid2.Coords, EltTy.bits .f32 = 32 ∨ (Rect.block (s := S50000x259) S1000x259.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S259x259.size a ≤ S259x259.size a
  hwx2_1 : ∀ i : grid2.Coords, EltTy.bits .f32 = 32 ∨ (Rect.block (s := S259x259) S259x259.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x259.size a ≤ S50000x259.size a
  hwx2_2 : ∀ i : grid2.Coords, EltTy.bits .f32 = 32 ∨ (Rect.block (s := S50000x259) S1000x259.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x259.size a ≤ S50000x259.size a
  hwx3_0 : ∀ i : grid3.Coords, EltTy.bits .f32 = 32 ∨ (Rect.block (s := S50000x259) S1000x259.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S259x10.size a ≤ S259x10.size a
  hwx3_1 : ∀ i : grid3.Coords, EltTy.bits .f32 = 32 ∨ (Rect.block (s := S259x10) S259x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x10.size a ≤ S50000x10.size a
  hwx3_2 : ∀ i : grid3.Coords, EltTy.bits .f32 = 32 ∨ (Rect.block (s := S50000x10) S1000x10.size (cc3_transform_2 i) (hinb3_2 i)).WholeWords (EltTy.packing .f32)

variable [Facts₀]

def dot_S1000x1000_S1000x256_S1000x256_1_0_0_1_n_n : DotDims S1000x1000 S1000x256 S1000x256 where
  lhsContracting := [1]
  rhsContracting := [0]
  lhsNonContracting := [0]
  rhsNonContracting := [1]
  lhsBatch := []
  rhsBatch := []
  wf := dot_S1000x1000_S1000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x800_S800x256_S1000x256_1_0_0_1_n_n : DotDims S1000x800 S800x256 S1000x256 where
  lhsContracting := [1]
  rhsContracting := [0]
  lhsNonContracting := [0]
  rhsNonContracting := [1]
  lhsBatch := []
  rhsBatch := []
  wf := dot_S1000x800_S800x256_S1000x256_1_0_0_1_n_n_wf
def dot_S1000x600_S600x256_S1000x256_1_0_0_1_n_n : DotDims S1000x600 S600x256 S1000x256 where
  lhsContracting := [1]
  rhsContracting := [0]
  lhsNonContracting := [0]
  rhsNonContracting := [1]
  lhsBatch := []
  rhsBatch := []
  wf := dot_S1000x600_S600x256_S1000x256_1_0_0_1_n_n_wf
def dot_S1000x3_S3x1_S1000x1_1_0_0_1_n_n : DotDims S1000x3 S3x1 S1000x1 where
  lhsContracting := [1]
  rhsContracting := [0]
  lhsNonContracting := [0]
  rhsNonContracting := [1]
  lhsBatch := []
  rhsBatch := []
  wf := dot_S1000x3_S3x1_S1000x1_1_0_0_1_n_n_wf
def dot_S1000x1_S1x3_S1000x3_1_0_0_1_n_n : DotDims S1000x1 S1x3 S1000x3 where
  lhsContracting := [1]
  rhsContracting := [0]
  lhsNonContracting := [0]
  rhsNonContracting := [1]
  lhsBatch := []
  rhsBatch := []
  wf := dot_S1000x1_S1x3_S1000x3_1_0_0_1_n_n_wf
def dot_S1000x256_S256x16_S1000x16_1_0_0_1_n_n : DotDims S1000x256 S256x16 S1000x16 where
  lhsContracting := [1]
  rhsContracting := [0]
  lhsNonContracting := [0]
  rhsNonContracting := [1]
  lhsBatch := []
  rhsBatch := []
  wf := dot_S1000x256_S256x16_S1000x16_1_0_0_1_n_n_wf
def dot_S1000x16_S16x256_S1000x256_1_0_0_1_n_n : DotDims S1000x16 S16x256 S1000x256 where
  lhsContracting := [1]
  rhsContracting := [0]
  lhsNonContracting := [0]
  rhsNonContracting := [1]
  lhsBatch := []
  rhsBatch := []
  wf := dot_S1000x16_S16x256_S1000x256_1_0_0_1_n_n_wf
def dot_S1000x259_S259x128_S1000x128_1_0_0_1_n_n : DotDims S1000x259 S259x128 S1000x128 where
  lhsContracting := [1]
  rhsContracting := [0]
  lhsNonContracting := [0]
  rhsNonContracting := [1]
  lhsBatch := []
  rhsBatch := []
  wf := dot_S1000x259_S259x128_S1000x128_1_0_0_1_n_n_wf
def dot_S1000x128_S128x259_S1000x259_1_0_0_1_n_n : DotDims S1000x128 S128x259 S1000x259 where
  lhsContracting := [1]
  rhsContracting := [0]
  lhsNonContracting := [0]
  rhsNonContracting := [1]
  lhsBatch := []
  rhsBatch := []
  wf := dot_S1000x128_S128x259_S1000x259_1_0_0_1_n_n_wf
def gather_S50000x259_S800000x1_S800000x259_1_0_n_n_0_1_1259 : GatherDims S50000x259 S800000x1 S800000x259 where
  offsetDims := [1]
  collapsedSliceDims := [0]
  operandBatchingDims := []
  startIndicesBatchingDims := []
  startIndexMap := [0]
  indexVectorDim := 1
  sliceSizes := ![1, 259]
  wf := gather_S50000x259_S800000x1_S800000x259_1_0_n_n_0_1_1259_wf
def scatter_S50000x259_S800000x1_S800000x259_1_0_0_1 : ScatterDims S50000x259 S800000x1 S800000x259 where
  updateWindowDims := [1]
  insertedWindowDims := [0]
  scatterDimsToOperandDims := [0]
  indexVectorDim := 1
  wf := scatter_S50000x259_S800000x1_S800000x259_1_0_0_1_wf
def dot_S1000x259_S259x259_S1000x259_1_0_0_1_n_n : DotDims S1000x259 S259x259 S1000x259 where
  lhsContracting := [1]
  rhsContracting := [0]
  lhsNonContracting := [0]
  rhsNonContracting := [1]
  lhsBatch := []
  rhsBatch := []
  wf := dot_S1000x259_S259x259_S1000x259_1_0_0_1_n_n_wf
def dot_S1000x259_S259x10_S1000x10_1_0_0_1_n_n : DotDims S1000x259 S259x10 S1000x10 where
  lhsContracting := [1]
  rhsContracting := [0]
  lhsNonContracting := [0]
  rhsNonContracting := [1]
  lhsBatch := []
  rhsBatch := []
  wf := dot_S1000x259_S259x10_S1000x10_1_0_0_1_n_n_wf

abbrev win0_0 : Pipeline.Window sig grid0 :=
  Pipeline.Window.ofSpec (Memref.whole main_arg0) S1000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S800x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S600x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S3x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S256x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S16x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S259x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S128x259.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S1000x259.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v13) S1000x259.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg18) S259x259.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1000x259.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S1000x259.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg19) S259x259.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1000x259.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S1000x259.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg20) S259x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x1000 : Shape := ⟨2, ![50000, 1000]⟩
abbrev S50000x800 : Shape := ⟨2, ![50000, 800]⟩
abbrev S50000x600 : Shape := ⟨2, ![50000, 600]⟩
abbrev S1000x256 : Shape := ⟨2, ![1000, 256]⟩
abbrev S256x256 : Shape := ⟨2, ![256, 256]⟩
abbrev S800x256 : Shape := ⟨2, ![800, 256]⟩
abbrev S600x256 : Shape := ⟨2, ![600, 256]⟩
abbrev S800000 : Shape := ⟨1, ![800000]⟩
abbrev S3x1 : Shape := ⟨2, ![3, 1]⟩
abbrev S1x3 : Shape := ⟨2, ![1, 3]⟩
abbrev S256x16 : Shape := ⟨2, ![256, 16]⟩
abbrev S16x256 : Shape := ⟨2, ![16, 256]⟩
abbrev S259x128 : Shape := ⟨2, ![259, 128]⟩
abbrev S128x259 : Shape := ⟨2, ![128, 259]⟩
abbrev S259x259 : Shape := ⟨2, ![259, 259]⟩
abbrev S259x10 : Shape := ⟨2, ![259, 10]⟩
abbrev S50000x256 : Shape := ⟨2, ![50000, 256]⟩
abbrev S_ : Shape := ⟨0, ![]⟩
abbrev S50000x256x1 : Shape := ⟨3, ![50000, 256, 1]⟩
abbrev S50000x256x3 : Shape := ⟨3, ![50000, 256, 3]⟩
abbrev S50000x3 : Shape := ⟨2, ![50000, 3]⟩
abbrev S50000x1 : Shape := ⟨2, ![50000, 1]⟩
abbrev S50000x16 : Shape := ⟨2, ![50000, 16]⟩
abbrev S50000x259 : Shape := ⟨2, ![50000, 259]⟩
abbrev S50000x128 : Shape := ⟨2, ![50000, 128]⟩
abbrev S50000x1x3 : Shape := ⟨3, ![50000, 1, 3]⟩
abbrev S800000x1 : Shape := ⟨2, ![800000, 1]⟩
abbrev S800000x259 : Shape := ⟨2, ![800000, 259]⟩
abbrev S50000x10 : Shape := ⟨2, ![50000, 10]⟩

abbrev nBuf : Space → Nat
  | .hbm => 171
  | .vmem => 0
  | .smem => 0
  | _ => 0

abbrev hbmTy0_0 (i : Nat) : BufTy := match i % 128 with
  | 0 => ⟨S50000x1000, .f32⟩
  | 1 => ⟨S50000x800, .f32⟩
  | 2 => ⟨S50000x600, .f32⟩
  | 3 => ⟨S1000x256, .f32⟩
  | 4 => ⟨S256x256, .f32⟩
  | 5 => ⟨S800x256, .f32⟩
  | 6 => ⟨S256x256, .f32⟩
  | 7 => ⟨S600x256, .f32⟩
  | 8 => ⟨S256x256, .f32⟩
  | 9 => ⟨S800000, .i32⟩
  | 10 => ⟨S800000, .i32⟩
  | 11 => ⟨S800000, .f32⟩
  | 12 => ⟨S3x1, .f32⟩
  | 13 => ⟨S1x3, .f32⟩
  | 14 => ⟨S256x16, .f32⟩
  | 15 => ⟨S16x256, .f32⟩
  | 16 => ⟨S259x128, .f32⟩
  | 17 => ⟨S128x259, .f32⟩
  | 18 => ⟨S259x259, .f32⟩
  | 19 => ⟨S259x259, .f32⟩
  | 20 => ⟨S259x10, .f32⟩
  | 21 => ⟨S50000x256, .f32⟩
  | 22 => ⟨S_, .f32⟩
  | 23 => ⟨S50000x256, .f32⟩
  | 24 => ⟨S50000x256, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S50000x256, .f32⟩
  | 36 => ⟨S50000x256x1, .f32⟩
  | 37 => ⟨S50000x256x1, .f32⟩
  | 38 => ⟨S50000x256x1, .f32⟩
  | 39 => ⟨S50000x256x3, .f32⟩
  | 40 => ⟨S_, .f32⟩
  | 41 => ⟨S50000x3, .f32⟩
  | 42 => ⟨S_, .f32⟩
  | 43 => ⟨S50000x3, .f32⟩
  | 44 => ⟨S50000x3, .f32⟩
  | 45 => ⟨S_, .f32⟩
  | 46 => ⟨S50000x256, .f32⟩
  | 47 => ⟨S_, .f32⟩
  | 48 => ⟨S50000x256, .f32⟩
  | 49 => ⟨S50000x256, .f32⟩
  | 50 => ⟨S50000x1, .f32⟩
  | 51 => ⟨S_, .f32⟩
  | 52 => ⟨S50000x1, .f32⟩
  | 53 => ⟨S50000x1, .f32⟩
  | 54 => ⟨S50000x3, .f32⟩
  | 55 => ⟨S50000x3, .f32⟩
  | 56 => ⟨S50000x3, .f32⟩
  | 57 => ⟨S_, .f32⟩
  | 58 => ⟨S50000x3, .f32⟩
  | 59 => ⟨S50000x3, .f32⟩
  | 60 => ⟨S_, .f32⟩
  | 61 => ⟨S50000x3, .f32⟩
  | 62 => ⟨S50000x3, .f32⟩
  | 63 => ⟨S50000x16, .f32⟩
  | 64 => ⟨S_, .f32⟩
  | 65 => ⟨S50000x16, .f32⟩
  | 66 => ⟨S50000x16, .f32⟩
  | 67 => ⟨S50000x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x259, .f32⟩
  | 77 => ⟨S50000x128, .f32⟩
  | 78 => ⟨S_, .f32⟩
  | 79 => ⟨S50000x128, .f32⟩
  | 80 => ⟨S50000x128, .f32⟩
  | 81 => ⟨S50000x259, .f32⟩
  | 82 => ⟨S50000x3, .f32⟩
  | 83 => ⟨S50000x3, .f32⟩
  | 84 => ⟨S50000x3, .f32⟩
  | 85 => ⟨S_, .f32⟩
  | 86 => ⟨S50000x3, .f32⟩
  | 87 => ⟨S50000x3, .f32⟩
  | 88 => ⟨S_, .f32⟩
  | 89 => ⟨S50000x3, .f32⟩
  | 90 => ⟨S50000x3, .f32⟩
  | 91 => ⟨S50000x1x3, .f32⟩
  | 92 => ⟨S50000x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256x1, .f32⟩
  | 102 => ⟨S50000x256x3, .f32⟩
  | 103 => ⟨S50000x256x3, .f32⟩
  | 104 => ⟨S50000x256x3, .f32⟩
  | 105 => ⟨S50000x256x3, .f32⟩
  | 106 => ⟨S_, .f32⟩
  | 107 => ⟨S50000x3, .f32⟩
  | 108 => ⟨S_, .f32⟩
  | 109 => ⟨S50000x3, .f32⟩
  | 110 => ⟨S50000x3, .f32⟩
  | 111 => ⟨S_, .f32⟩
  | 112 => ⟨S50000x256, .f32⟩
  | 113 => ⟨S_, .f32⟩
  | 114 => ⟨S50000x256, .f32⟩
  | 115 => ⟨S50000x256, .f32⟩
  | 116 => ⟨S50000x259, .f32⟩
  | 117 => ⟨S800000x1, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x259, .f32⟩
  | 127 => ⟨S800000x259, .f32⟩
  | _ => ⟨S50000x1000, .f32⟩

abbrev hbmTy0_1 (i : Nat) : BufTy := match i % 128 with
  | 0 => ⟨S800000x259, .f32⟩
  | 1 => ⟨S_, .f32⟩
  | 2 => ⟨S50000x259, .f32⟩
  | 3 => ⟨S800000x1, .i32⟩
  | 4 => ⟨S50000x259, .f32⟩
  | 5 => ⟨S50000x259, .f32⟩
  | 6 => ⟨S50000x259, .f32⟩
  | 7 => ⟨S800000x1, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x259, .f32⟩
  | 17 => ⟨S800000x259, .f32⟩
  | 18 => ⟨S800000x259, .f32⟩
  | 19 => ⟨S_, .f32⟩
  | 20 => ⟨S50000x259, .f32⟩
  | 21 => ⟨S800000x1, .i32⟩
  | 22 => ⟨S50000x259, .f32⟩
  | 23 => ⟨S50000x259, .f32⟩
  | 24 => ⟨S50000x259, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x259, .f32⟩
  | 35 => ⟨S800000x259, .f32⟩
  | 36 => ⟨S800000x259, .f32⟩
  | 37 => ⟨S_, .f32⟩
  | 38 => ⟨S50000x259, .f32⟩
  | 39 => ⟨S800000x1, .i32⟩
  | 40 => ⟨S50000x259, .f32⟩
  | 41 => ⟨S50000x10, .f32⟩
  | 42 => ⟨S50000x10, .f32⟩
  | _ => ⟨S50000x1000, .f32⟩

abbrev hbmTy (i : Nat) : BufTy := match i / 128 with
  | 0 => hbmTy0_0 i
  | 1 => hbmTy0_1 i
  | _ => ⟨S50000x1000, .f32⟩

abbrev bufTy : (tb : Table) → Fin (tcTables nBuf tb) → BufTy
  | .hbm, ⟨i, _⟩ => hbmTy i
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_call0_cst : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call1_cst : Ref sig .tc := ⟨.hbm, 27, rfl⟩
abbrev main_call1_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call2_cst : Ref sig .tc := ⟨.hbm, 32, rfl⟩
abbrev main_call2_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_cst_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call3_cst : Ref sig .tc := ⟨.hbm, 51, rfl⟩
abbrev main_call3_v0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_cst_4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call4_cst : Ref sig .tc := ⟨.hbm, 64, rfl⟩
abbrev main_call4_v0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call5_cst : Ref sig .tc := ⟨.hbm, 78, rfl⟩
abbrev main_call5_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_v45 : Ref sig .tc := ⟨.hbm, 87, rfl⟩
abbrev main_cst_8 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_v53 : Ref sig .tc := ⟨.hbm, 97, rfl⟩
abbrev main_cst_10 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_11 : Ref sig .tc := ⟨.hbm, 106, rfl⟩
abbrev main_v61 : Ref sig .tc := ⟨.hbm, 107, rfl⟩
abbrev main_cst_12 : Ref sig .tc := ⟨.hbm, 108, rfl⟩
abbrev main_v62 : Ref sig .tc := ⟨.hbm, 109, rfl⟩
abbrev main_v63 : Ref sig .tc := ⟨.hbm, 110, rfl⟩
abbrev main_cst_13 : Ref sig .tc := ⟨.hbm, 111, rfl⟩
abbrev main_v64 : Ref sig .tc := ⟨.hbm, 112, rfl⟩
abbrev main_cst_14 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c : Ref sig .tc := ⟨.hbm, 118, rfl⟩
abbrev main_v69 : Ref sig .tc := ⟨.hbm, 119, rfl⟩
abbrev main_v70 : Ref sig .tc := ⟨.hbm, 120, rfl⟩
abbrev main_c_15 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_16 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_17 : Ref sig .tc := ⟨.hbm, 136, rfl⟩
abbrev main_v84 : Ref sig .tc := ⟨.hbm, 137, rfl⟩
abbrev main_v85 : Ref sig .tc := ⟨.hbm, 138, rfl⟩
abbrev main_c_18 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_19 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_20 : Ref sig .tc := ⟨.hbm, 154, rfl⟩
abbrev main_v99 : Ref sig .tc := ⟨.hbm, 155, rfl⟩
abbrev main_v100 : Ref sig .tc := ⟨.hbm, 156, rfl⟩
abbrev main_c_21 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_22 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩

abbrev nD : Nat := 1
abbrev τ : Topo := Topo.v7x

variable {F : FTy → Type} [FloatOps F]

class Facts₀ : Prop where
  bcast_S_S50000x256 : S_.BroadcastsInDim S50000x256 (![] : Fin 0 → Fin S50000x256.rank)
  bcast_S50000x256_S50000x256x1_0_1 : S50000x256.BroadcastsInDim S50000x256x1 (![0, 1] : Fin 2 → Fin S50000x256x1.rank)
  concatenates_S50000x256x1_S50000x256x1_S50000x256x1_S50000x256x3_d2 : Shape.Concatenates [S50000x256x1, S50000x256x1, S50000x256x1] S50000x256x3 2
  reducesTo_S50000x256x3_S50000x3_d1 : S50000x256x3.ReducesTo [1] S50000x3
  h_S_ : 0 < S_.numel
  bcast_S_S50000x3 : S_.BroadcastsInDim S50000x3 (![] : Fin 0 → Fin S50000x3.rank)
  reducesTo_S50000x256x3_S50000x256_d2 : S50000x256x3.ReducesTo [2] S50000x256
  bcast_S_S50000x1 : S_.BroadcastsInDim S50000x1 (![] : Fin 0 → Fin S50000x1.rank)
  bcast_S_S50000x16 : S_.BroadcastsInDim S50000x16 (![] : Fin 0 → Fin S50000x16.rank)
  concatenates_S50000x3_S50000x256_S50000x259_d1 : Shape.Concatenates [S50000x3, S50000x256] S50000x259 1
  bcast_S_S50000x128 : S_.BroadcastsInDim S50000x128 (![] : Fin 0 → Fin S50000x128.rank)
  slices_S50000x259_S50000x3_0_0 : S50000x259.Slices ![0, 0] S50000x3
  bcast_S50000x3_S50000x1x3_0_2 : S50000x3.BroadcastsInDim S50000x1x3 (![0, 2] : Fin 2 → Fin S50000x1x3.rank)
  slices_S50000x259_S50000x256_0_3 : S50000x259.Slices ![0, 3] S50000x256
  bcast_S50000x1x3_S50000x256x3_0_1_2 : S50000x1x3.BroadcastsInDim S50000x256x3 (![0, 1, 2] : Fin 3 → Fin S50000x256x3.rank)
  bcast_S50000x256x1_S50000x256x3_0_1_2 : S50000x256x1.BroadcastsInDim S50000x256x3 (![0, 1, 2] : Fin 3 → Fin S50000x256x3.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x259_0_1 : S800000x1.BroadcastsInDim S800000x259 (![0, 1] : Fin 2 → Fin S800000x259.rank)
  bcast_S_S50000x259 : S_.BroadcastsInDim S50000x259 (![] : Fin 0 → Fin S50000x259.rank)
  dot_S50000x1000_S1000x256_S50000x256_1_0_0_1_n_n_wf : DotDims.WF S50000x1000 S1000x256 S50000x256 [1] [0] [0] [1] [] []
  dot_S50000x256_S256x256_S50000x256_1_0_0_1_n_n_wf : DotDims.WF S50000x256 S256x256 S50000x256 [1] [0] [0] [1] [] []
  dot_S50000x800_S800x256_S50000x256_1_0_0_1_n_n_wf : DotDims.WF S50000x800 S800x256 S50000x256 [1] [0] [0] [1] [] []
  dot_S50000x600_S600x256_S50000x256_1_0_0_1_n_n_wf : DotDims.WF S50000x600 S600x256 S50000x256 [1] [0] [0] [1] [] []
  dot_S50000x3_S3x1_S50000x1_1_0_0_1_n_n_wf : DotDims.WF S50000x3 S3x1 S50000x1 [1] [0] [0] [1] [] []
  dot_S50000x1_S1x3_S50000x3_1_0_0_1_n_n_wf : DotDims.WF S50000x1 S1x3 S50000x3 [1] [0] [0] [1] [] []
  dot_S50000x256_S256x16_S50000x16_1_0_0_1_n_n_wf : DotDims.WF S50000x256 S256x16 S50000x16 [1] [0] [0] [1] [] []
  dot_S50000x16_S16x256_S50000x256_1_0_0_1_n_n_wf : DotDims.WF S50000x16 S16x256 S50000x256 [1] [0] [0] [1] [] []
  dot_S50000x259_S259x128_S50000x128_1_0_0_1_n_n_wf : DotDims.WF S50000x259 S259x128 S50000x128 [1] [0] [0] [1] [] []
  dot_S50000x128_S128x259_S50000x259_1_0_0_1_n_n_wf : DotDims.WF S50000x128 S128x259 S50000x259 [1] [0] [0] [1] [] []
  gather_S50000x259_S800000x1_S800000x259_1_0_n_n_0_1_1259_wf : GatherDims.WF S50000x259 S800000x1 S800000x259 [1] [0] [] [0] [] 1 ![1, 259]
  scatter_S50000x259_S800000x1_S800000x259_1_0_0_1_wf : ScatterDims.WF S50000x259 S800000x1 S800000x259 [1] [0] [0] 1
  dot_S50000x259_S259x259_S50000x259_1_0_0_1_n_n_wf : DotDims.WF S50000x259 S259x259 S50000x259 [1] [0] [0] [1] [] []
  dot_S50000x259_S259x10_S50000x10_1_0_0_1_n_n_wf : DotDims.WF S50000x259 S259x10 S50000x10 [1] [0] [0] [1] [] []

variable [Facts₀]

def dot_S50000x1000_S1000x256_S50000x256_1_0_0_1_n_n : DotDims S50000x1000 S1000x256 S50000x256 where
  lhsContracting := [1]
  rhsContracting := [0]
  lhsNonContracting := [0]
  rhsNonContracting := [1]
  lhsBatch := []
  rhsBatch := []
  wf := dot_S50000x1000_S1000x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x800_S800x256_S50000x256_1_0_0_1_n_n : DotDims S50000x800 S800x256 S50000x256 where
  lhsContracting := [1]
  rhsContracting := [0]
  lhsNonContracting := [0]
  rhsNonContracting := [1]
  lhsBatch := []
  rhsBatch := []
  wf := dot_S50000x800_S800x256_S50000x256_1_0_0_1_n_n_wf
def dot_S50000x600_S600x256_S50000x256_1_0_0_1_n_n : DotDims S50000x600 S600x256 S50000x256 where
  lhsContracting := [1]
  rhsContracting := [0]
  lhsNonContracting := [0]
  rhsNonContracting := [1]
  lhsBatch := []
  rhsBatch := []
  wf := dot_S50000x600_S600x256_S50000x256_1_0_0_1_n_n_wf
def dot_S50000x3_S3x1_S50000x1_1_0_0_1_n_n : DotDims S50000x3 S3x1 S50000x1 where
  lhsContracting := [1]
  rhsContracting := [0]
  lhsNonContracting := [0]
  rhsNonContracting := [1]
  lhsBatch := []
  rhsBatch := []
  wf := dot_S50000x3_S3x1_S50000x1_1_0_0_1_n_n_wf
def dot_S50000x1_S1x3_S50000x3_1_0_0_1_n_n : DotDims S50000x1 S1x3 S50000x3 where
  lhsContracting := [1]
  rhsContracting := [0]
  lhsNonContracting := [0]
  rhsNonContracting := [1]
  lhsBatch := []
  rhsBatch := []
  wf := dot_S50000x1_S1x3_S50000x3_1_0_0_1_n_n_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf
def dot_S50000x16_S16x256_S50000x256_1_0_0_1_n_n : DotDims S50000x16 S16x256 S50000x256 where
  lhsContracting := [1]
  rhsContracting := [0]
  lhsNonContracting := [0]
  rhsNonContracting := [1]
  lhsBatch := []
  rhsBatch := []
  wf := dot_S50000x16_S16x256_S50000x256_1_0_0_1_n_n_wf
def dot_S50000x259_S259x128_S50000x128_1_0_0_1_n_n : DotDims S50000x259 S259x128 S50000x128 where
  lhsContracting := [1]
  rhsContracting := [0]
  lhsNonContracting := [0]
  rhsNonContracting := [1]
  lhsBatch := []
  rhsBatch := []
  wf := dot_S50000x259_S259x128_S50000x128_1_0_0_1_n_n_wf
def dot_S50000x128_S128x259_S50000x259_1_0_0_1_n_n : DotDims S50000x128 S128x259 S50000x259 where
  lhsContracting := [1]
  rhsContracting := [0]
  lhsNonContracting := [0]
  rhsNonContracting := [1]
  lhsBatch := []
  rhsBatch := []
  wf := dot_S50000x128_S128x259_S50000x259_1_0_0_1_n_n_wf
def gather_S50000x259_S800000x1_S800000x259_1_0_n_n_0_1_1259 : GatherDims S50000x259 S800000x1 S800000x259 where
  offsetDims := [1]
  collapsedSliceDims := [0]
  operandBatchingDims := []
  startIndicesBatchingDims := []
  startIndexMap := [0]
  indexVectorDim := 1
  sliceSizes := ![1, 259]
  wf := gather_S50000x259_S800000x1_S800000x259_1_0_n_n_0_1_1259_wf
def scatter_S50000x259_S800000x1_S800000x259_1_0_0_1 : ScatterDims S50000x259 S800000x1 S800000x259 where
  updateWindowDims := [1]
  insertedWindowDims := [0]
  scatterDimsToOperandDims := [0]
  indexVectorDim := 1
  wf := scatter_S50000x259_S800000x1_S800000x259_1_0_0_1_wf
def dot_S50000x259_S259x259_S50000x259_1_0_0_1_n_n : DotDims S50000x259 S259x259 S50000x259 where
  lhsContracting := [1]
  rhsContracting := [0]
  lhsNonContracting := [0]
  rhsNonContracting := [1]
  lhsBatch := []
  rhsBatch := []
  wf := dot_S50000x259_S259x259_S50000x259_1_0_0_1_n_n_wf
def dot_S50000x259_S259x10_S50000x10_1_0_0_1_n_n : DotDims S50000x259 S259x10 S50000x10 where
  lhsContracting := [1]
  rhsContracting := [0]
  lhsNonContracting := [0]
  rhsNonContracting := [1]
  lhsBatch := []
  rhsBatch := []
  wf := dot_S50000x259_S259x10_S50000x10_1_0_0_1_n_n_wf

class Facts : Prop extends Facts₀ where

variable [Facts]
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayerProduct.lean ====
/-
  One layer of the network, read at an entry, over the extended reals.

  A layer multiplies a matrix of node features by a weight matrix. From the second layer on, the features are first
  shifted by a bias row and clamped below at zero. Entry (r, q) of the result is therefore a sum over the contracted
  axis k: of a (r, k) · w (k, q) for the first layer, and of max (a (r, k) + b (0, k)) 0 · w (k, q) for the others.
  Rounding the two factors to a narrower float format changes nothing over the extended reals, and a product
  accumulated into zero is the plain sum, so the tiled kernel body's stored value, read at an entry of its tile, is
  that sum over the tile's own rows.
-/
import Idealize.ShloMosaic.PureOps.Ideal.Laws
import Idealize.ShloMosaic.Lib.ValueIdx
import Idealize.ShloMosaic.Lib.ValueLayout
import Idealize.ShloMosaic.Lib.Pipeline.Value
import proofs.«126801_j83811991814568_1_alg».proof.Proof.LibMatmul

noncomputable section

namespace Cert.Layer

open Idealize.ShloMosaic Idealize.ShloMosaic.ValueIdx

/-- The plain product: entry (r, q) is the sum over k of a (r, k) · w (k, q). -/
def prod {A K B : ℕ} (a : FVec Ideal (⟨2, ![A, K]⟩ : Shape) .f32) (w : FVec Ideal (⟨2, ![K, B]⟩ : Shape) .f32) :
    FVec Ideal (⟨2, ![A, B]⟩ : Shape) .f32 :=
  fun i => ∑ k : Fin K, a (ix2 (i 0) k) * w (ix2 k (i 1))

/-- The product after the bias row is added and negatives are clamped to zero:
    entry (r, q) is the sum over k of max (a (r, k) + b (0, k)) 0 · w (k, q). -/
def biasReluProd {A K B : ℕ} (a : FVec Ideal (⟨2, ![A, K]⟩ : Shape) .f32) (b : FVec Ideal (⟨2, ![1, K]⟩ : Shape) .f32)
    (w : FVec Ideal (⟨2, ![K, B]⟩ : Shape) .f32) : FVec Ideal (⟨2, ![A, B]⟩ : Shape) .f32 :=
  fun i => ∑ k : Fin K, max (a (ix2 (i 0) k) + b (ix2 (0 : Fin 1) k)) 0 * w (ix2 k (i 1))

/-- Two entries of the plain product agree when the row and the column they sum over agree, term by term. -/
theorem prod_congr {A A' K B B' : ℕ}
    (a : FVec Ideal (⟨2, ![A, K]⟩ : Shape) .f32) (w : FVec Ideal (⟨2, ![K, B]⟩ : Shape) .f32)
    (a' : FVec Ideal (⟨2, ![A', K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hw : ∀ k : Fin K, w (ix2 k q) = w' (ix2 k q')) :
    prod a w (ix2 r q) = prod a' w' (ix2 r' q') := by
  show (∑ k : Fin K, a (ix2 r k) * w (ix2 k q)) = ∑ k : Fin K, a' (ix2 r' k) * w' (ix2 k q')
  exact Finset.sum_congr rfl fun k _ => by rw [ha k, hw k]

/-- Two entries of the clamped product agree when the row, the bias row and the column they sum over agree. -/
theorem biasReluProd_congr {A A' K B B' : ℕ}
    (a : FVec Ideal (⟨2, ![A, K]⟩ : Shape) .f32) (b : FVec Ideal (⟨2, ![1, K]⟩ : Shape) .f32) (w : FVec Ideal (⟨2, ![K, B]⟩ : Shape) .f32)
    (a' : FVec Ideal (⟨2, ![A', K]⟩ : Shape) .f32) (b' : FVec Ideal (⟨2, ![1, K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hb : ∀ k : Fin K, b (ix2 (0 : Fin 1) k) = b' (ix2 (0 : Fin 1) k))
    (hw : ∀ k : Fin K, w (ix2 k q) = w' (ix2 k q')) :
    biasReluProd a b w (ix2 r q) = biasReluProd a' b' w' (ix2 r' q') := by
  show (∑ k : Fin K, max (a (ix2 r k) + b (ix2 (0 : Fin 1) k)) 0 * w (ix2 k q))
    = ∑ k : Fin K, max (a' (ix2 r' k) + b' (ix2 (0 : Fin 1) k)) 0 * w' (ix2 k q')
  exact Finset.sum_congr rfl fun k _ => by rw [ha k, hb k, hw k]

/-- The two factors rounded to a narrower format and multiplied into a zero accumulator: the plain product. -/
theorem matmul_trunc_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (x0 : FVec Ideal (⟨2, ![A, K]⟩ : Shape) .f32) (x2 : FVec Ideal (⟨2, ![K, B]⟩ : Shape) .f32) (p : Fin A) (q : Fin B) :
    FloatOps.matmul d none (truncf .bf16 x0 h16) (truncf .bf16 x2 h16)
        (constant (F := Ideal) (⟨2, ![A, B]⟩ : Shape) .f32 0x00000000#32) (ix2 p q)
      = prod x0 x2 (ix2 p q) :=
  (Cert.LibMatmul.matmul_zero_ix2 d hr hs hl0 hl1 hr0 hr1 none _ _ p q).trans
    (Finset.sum_congr rfl fun _ _ => rfl)

/-- The same with the left factor first shifted by a bias row spread over all rows and clamped below at zero. -/
theorem biasRelu_matmul_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hbc : (⟨2, ![1, K]⟩ : Shape).Broadcasts ⟨2, ![A, K]⟩)
    (x0 : FVec Ideal (⟨2, ![A, K]⟩ : Shape) .f32) (x1 : FVec Ideal (⟨2, ![1, K]⟩ : Shape) .f32)
    (x2 : FVec Ideal (⟨2, ![K, B]⟩ : Shape) .f32) (p : Fin A) (q : Fin B) :
    FloatOps.matmul d none
        (truncf .bf16 (maximumf (addf x0 (broadcastTo (⟨2, ![A, K]⟩ : Shape) x1 hbc))
          (broadcast (⟨2, ![A, K]⟩ : Shape) (Scalar.ofBits (F := Ideal) .f32 0x00000000#32))) h16)
        (truncf .bf16 x2 h16)
        (constant (F := Ideal) (⟨2, ![A, B]⟩ : Shape) .f32 0x00000000#32) (ix2 p q)
      = biasReluProd x0 x1 x2 (ix2 p q) := by
  refine (Cert.LibMatmul.matmul_zero_ix2 d hr hs hl0 hl1 hr0 hr1 none _ _ p q).trans ?_
  refine Finset.sum_congr rfl fun k _ => ?_
  show max (x0 (ix2 p k) + broadcastTo (⟨2, ![A, K]⟩ : Shape) x1 hbc (ix2 p k)) (Ideal.ofBits .f32 0x00000000#32) * x2 (ix2 k q)
    = max (x0 (ix2 p k) + x1 (ix2 (0 : Fin 1) k)) 0 * x2 (ix2 k q)
  rw [broadcastTo_1b_ab_apply, Ideal.ofBits_zero_f32]

end Cert.Layer

end
-- ==== Proof.Spec.lean ====
/-
  The network, as plain functions over the extended reals.

  A node's gated feature row is a function of ONE row of each of the three views: each view is projected by two
  weight matrices with negatives clamped to zero in between; the three projected rows are pooled two ways (their
  mean across the views, feature by feature, and each view's mean across its 256 features); two small networks
  ending in the logistic function turn the pools into gates; a third maps the joined gates to 259 weights, and the
  output is the view pool and the feature pool, each multiplied by the logistic of its weight, laid end to end.
  A layer after message passing multiplies by a weight matrix and takes the hyperbolic tangent.
-/
import Idealize.ShloMosaic.PureOps.Ideal
import Idealize.ShloMosaic.Lib.ValueIdx
import proofs.«126801_j83811991814568_1_alg».proof.Proof.LibLayerProduct

noncomputable section

namespace Cert.Net

open Idealize.ShloMosaic Idealize.ShloMosaic.ValueIdx

/-- An a by b matrix of extended reals. -/
abbrev Mat (a b : ℕ) : Type := FVec Ideal (⟨2, ![a, b]⟩ : Shape) .f32

/-- Row r of a matrix. -/
def row {A K : ℕ} (x : Mat A K) (r : Fin A) : Fin K → EReal := fun k => x (ix2 r k)

/-- A row times a matrix: entry q is the sum over k of r k · w (k, q). -/
def rdot {K B : ℕ} (r : Fin K → EReal) (w : Mat K B) : Fin B → EReal := fun q => ∑ k : Fin K, r k * w (ix2 k q)

/-- Negatives clamped to zero. -/
def rrelu {K : ℕ} (r : Fin K → EReal) : Fin K → EReal := fun k => max (r k) 0

/-- A view's projection: (clamp (r · w1)) · w2. -/
def rproj {D : ℕ} (r : Fin D → EReal) (w1 : Mat D 256) (w2 : Mat 256 256) : Fin 256 → EReal :=
  rdot (rrelu (rdot r w1)) w2

/-- The mean across the three views, feature by feature: the sum times one third. -/
def poolFeat (h0 h1 h2 : Fin 256 → EReal) : Fin 256 → EReal :=
  fun d => (h0 d + h1 d + h2 d) * ((1 / 3 : ℝ) : EReal)

/-- The mean of one view's 256 features: the sum divided by 256. -/
def viewMean (h : Fin 256 → EReal) : EReal := Ideal.div (∑ d : Fin 256, h d) (Ideal.ofBits .f32 0x43800000#32)

/-- The three views' means. -/
def poolView (h0 h1 h2 : Fin 256 → EReal) : Fin 3 → EReal := ![viewMean h0, viewMean h1, viewMean h2]

/-- A gate: logistic ((clamp (r · w1)) · w2). -/
def gateOf {K H : ℕ} (r : Fin K → EReal) (w1 : Mat K H) (w2 : Mat H K) : Fin K → EReal :=
  fun q => Ideal.logistic (rdot (rrelu (rdot r w1)) w2 q)

/-- Three numbers and 256 numbers laid end to end. -/
def cat3 (u : Fin 3 → EReal) (v : Fin 256 → EReal) : Fin 259 → EReal :=
  fun j => if h : j.val < 3 then u ⟨j.val, h⟩ else v ⟨j.val - 3, by have := j.isLt; omega⟩

/-- The weight matrices of the first stage. -/
structure Weights where
  p0w1 : Mat 1000 256
  p0w2 : Mat 256 256
  p1w1 : Mat 800 256
  p1w2 : Mat 256 256
  p2w1 : Mat 600 256
  p2w2 : Mat 256 256
  vw1 : Mat 3 1
  vw2 : Mat 1 3
  fw1 : Mat 256 16
  fw2 : Mat 16 256
  m1 : Mat 259 128
  m2 : Mat 128 259

/-- The 259 mixing weights of a node, from its two pools. -/
def mixOf (w : Weights) (pv : Fin 3 → EReal) (pf : Fin 256 → EReal) : Fin 259 → EReal :=
  rdot (rrelu (rdot (cat3 (gateOf pv w.vw1 w.vw2) (gateOf pf w.fw1 w.fw2)) w.m1)) w.m2

/-- The output row from the two pools: each pool entry times the logistic of its mixing weight. -/
def outOf (w : Weights) (pv : Fin 3 → EReal) (pf : Fin 256 → EReal) : Fin 259 → EReal :=
  cat3 (fun v => Ideal.logistic (mixOf w pv pf ⟨v.val, by have := v.isLt; omega⟩) * pv v)
    (fun d => Ideal.logistic (mixOf w pv pf ⟨d.val + 3, by have := d.isLt; omega⟩) * pf d)

/-- A node's gated feature row, from its row of each view. -/
def rowGate (w : Weights) (r0 : Fin 1000 → EReal) (r1 : Fin 800 → EReal) (r2 : Fin 600 → EReal) : Fin 259 → EReal :=
  outOf w (poolView (rproj r0 w.p0w1 w.p0w2) (rproj r1 w.p1w1 w.p1w2) (rproj r2 w.p2w1 w.p2w2))
    (poolFeat (rproj r0 w.p0w1 w.p0w2) (rproj r1 w.p1w1 w.p1w2) (rproj r2 w.p2w1 w.p2w2))

/-- The first stage on A nodes: row by row. -/
def gate {A : ℕ} (w : Weights) (x0 : Mat A 1000) (x1 : Mat A 800) (x2 : Mat A 600) : Mat A 259 :=
  fun i => rowGate w (row x0 (i 0)) (row x1 (i 0)) (row x2 (i 0)) (i 1)

/-- The first stage depends, at a node, only on that node's rows. -/
theorem gate_congr {A A' : ℕ} (w : Weights) (x0 : Mat A 1000) (x1 : Mat A 800) (x2 : Mat A 600)
    (y0 : Mat A' 1000) (y1 : Mat A' 800) (y2 : Mat A' 600) (r : Fin A) (r' : Fin A') (q : Fin 259)
    (h0 : ∀ k, x0 (ix2 r k) = y0 (ix2 r' k)) (h1 : ∀ k, x1 (ix2 r k) = y1 (ix2 r' k))
    (h2 : ∀ k, x2 (ix2 r k) = y2 (ix2 r' k)) :
    gate w x0 x1 x2 (ix2 r q) = gate w y0 y1 y2 (ix2 r' q) := by
  have e0 : row x0 r = row y0 r' := funext h0
  have e1 : row x1 r = row y1 r' := funext h1
  have e2 : row x2 r = row y2 r' := funext h2
  show rowGate w (row x0 r) (row x1 r) (row x2 r) q = rowGate w (row y0 r') (row y1 r') (row y2 r') q
  rw [e0, e1, e2]

/-- A layer after message passing: entry (r, q) is tanh of the sum over k of s (r, k) · g (k, q). -/
def layer {A K B : ℕ} (s : Mat A K) (g : Mat K B) : Mat A B := fun i => Ideal.tanh (Cert.Layer.prod s g i)

end Cert.Net

end
-- ==== Proof.NetSpmm.lean ====
/-
  Message passing over the edge list, as one function of the edge arrays and the node features.

  Every edge e carries a source node col e, a target node row e and a weight val e. A negative source index is first
  shifted up by the number of nodes. The features of the source node are gathered for every edge, scaled by the
  edge's weight, and added into the row of the target node of an array that starts at zero.
-/
import proofs.«126801_j83811991814568_1_alg».proof.KernelIdeal
import Idealize.ShloMosaic.PureOps.Ideal

noncomputable section

namespace Cert.Net

open Idealize.ShloMosaic Cert.KernelIdeal Cert.KernelIdeal.Facts₀

/-- The weighted sum, over the edges into each node, of the features of the edge's source node. -/
def spmm [Cert.KernelIdeal.Facts₀]
    (row col : (⟨S800000, .i32⟩ : BufTy).Contents (Elt Ideal)) (val : (⟨S800000, .f32⟩ : BufTy).Contents (Elt Ideal))
    (z : (⟨S50000x259, .f32⟩ : BufTy).Contents (Elt Ideal)) : (⟨S50000x259, .f32⟩ : BufTy).Contents (Elt Ideal) :=
  Host.scatterAdd (F := Ideal) (φ := .f32) scatter_S50000x259_S800000x1_S800000x259_1_0_0_1
    ((broadcastInDim S50000x259 ![] bcast_S_S50000x259 : (⟨S_, .f32⟩ : BufTy).Contents (Elt Ideal) → (⟨S50000x259, .f32⟩ : BufTy).Contents (Elt Ideal))
      (constant (F := Ideal) S_ .f32 0x00000000#32))
    ((broadcastInDim S800000x1 ![0] bcast_S800000_S800000x1_0 : (⟨S800000, .i32⟩ : BufTy).Contents (Elt Ideal) → (⟨S800000x1, .i32⟩ : BufTy).Contents (Elt Ideal)) row)
    ((mulf (F := Ideal) (φ := .f32) : (⟨S800000x259, .f32⟩ : BufTy).Contents (Elt Ideal) → (⟨S800000x259, .f32⟩ : BufTy).Contents (Elt Ideal) → (⟨S800000x259, .f32⟩ : BufTy).Contents (Elt Ideal))
      ((broadcastInDim S800000x259 ![0, 1] bcast_S800000x1_S800000x259_0_1 : (⟨S800000x1, .f32⟩ : BufTy).Contents (Elt Ideal) → (⟨S800000x259, .f32⟩ : BufTy).Contents (Elt Ideal))
        ((broadcastInDim S800000x1 ![0] bcast_S800000_S800000x1_0 : (⟨S800000, .f32⟩ : BufTy).Contents (Elt Ideal) → (⟨S800000x1, .f32⟩ : BufTy).Contents (Elt Ideal)) val))
      ((fun x i => Host.gather gather_S50000x259_S800000x1_S800000x259_1_0_n_n_0_1_1259 x i : (⟨S50000x259, .f32⟩ : BufTy).Contents (Elt Ideal) → (⟨S800000x1, .i32⟩ : BufTy).Contents (Elt Ideal) → (⟨S800000x259, .f32⟩ : BufTy).Contents (Elt Ideal)) z
        ((broadcastInDim S800000x1 ![0] bcast_S800000_S800000x1_0 : (⟨S800000, .i32⟩ : BufTy).Contents (Elt Ideal) → (⟨S800000x1, .i32⟩ : BufTy).Contents (Elt Ideal))
          ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
            ((cmpi .slt : (⟨S800000, .i32⟩ : BufTy).Contents (Elt Ideal) → (⟨S800000, .i32⟩ : BufTy).Contents (Elt Ideal) → (⟨S800000, .i1⟩ : BufTy).Contents (Elt Ideal)) col
              ((broadcastInDim S800000 ![] bcast_S_S800000 : (⟨S_, .i32⟩ : BufTy).Contents (Elt Ideal) → (⟨S800000, .i32⟩ : BufTy).Contents (Elt Ideal)) (constantI S_ 32 0#32)))
            ((addi : (⟨S800000, .i32⟩ : BufTy).Contents (Elt Ideal) → (⟨S800000, .i32⟩ : BufTy).Contents (Elt Ideal) → (⟨S800000, .i32⟩ : BufTy).Contents (Elt Ideal)) col
              ((broadcastInDim S800000 ![] bcast_S_S800000 : (⟨S_, .i32⟩ : BufTy).Contents (Elt Ideal) → (⟨S800000, .i32⟩ : BufTy).Contents (Elt Ideal)) (constantI S_ 32 50000#32)))
            col))))

end Cert.Net

end
-- ==== Proof.NetDef.lean ====
/-
  The three layers after the first stage: message passing over the edges, then a weight matrix and the hyperbolic
  tangent, three times. The last weight matrix has ten columns.
-/
import proofs.«126801_j83811991814568_1_alg».proof.Proof.Spec
import proofs.«126801_j83811991814568_1_alg».proof.Proof.NetSpmm

noncomputable section

namespace Cert.Net

open Idealize.ShloMosaic Cert.KernelIdeal

/-- Three rounds of message passing, each followed by a layer. -/
def net3 [Cert.KernelIdeal.Facts₀]
    (row col : (⟨S800000, .i32⟩ : BufTy).Contents (Elt Ideal)) (val : (⟨S800000, .f32⟩ : BufTy).Contents (Elt Ideal))
    (g0 g1 : Mat 259 259) (g2 : Mat 259 10) (z : Mat 50000 259) : Mat 50000 10 :=
  layer (spmm row col val (layer (spmm row col val (layer (spmm row col val z) g0)) g1)) g2

end Cert.Net

end
-- ==== Proof.KRunArgs.lean ====
/-
  The edge arrays and the layers' weight matrices stay as launched through the run.

  No host operation and no region writes an argument array: a region reads one through an input window or passes it
  by, and every host operation writes its own result buffer. So at every boundary between the program's stretches the
  edge arrays (rows, columns, values) and the three weight matrices hold what the launch memory held.
-/
import proofs.«126801_j83811991814568_1_alg».proof.Proof.Gen.KernelIdeal.Frame
import Idealize.ShloMosaic.Lib.StableHlo.Run

noncomputable section

namespace Cert.KernelIdeal.NetRun

open Idealize.ShloMosaic Idealize.ShloMosaic.TcCoe
open Idealize.SL Idealize.SL.Sem
open Cert.KernelIdeal Cert.KernelIdeal.Facts₀ Cert.KernelIdeal.Facts

variable (m : (ℓ : Loc nD τ sig) → Buf (Elt Ideal) ℓ) (ρ : Dev nD → PrngReg)

theorem W1_arg9 (c : Dev nD) : Gen.W1 m ρ c (Proc.devRef .tc main_arg9) = m ((c : Thread nD τ).loc main_arg9) :=
  (Gen.W1_of_ne m ρ c main_arg9 (by decide)).trans rfl
theorem W2_arg9 (c : Dev nD) : Gen.W2 m ρ c (Proc.devRef .tc main_arg9) = m ((c : Thread nD τ).loc main_arg9) :=
  (StableHlo.after_of_forall_not_mem (b := Proc.devRef .tc main_arg9) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arg9 m ρ c)
theorem W3_arg9 (c : Dev nD) : Gen.W3 m ρ c (Proc.devRef .tc main_arg9) = m ((c : Thread nD τ).loc main_arg9) :=
  (Gen.W3_of_ne m ρ c main_arg9 (by decide)).trans (W2_arg9 m ρ c)
theorem W4_arg9 (c : Dev nD) : Gen.W4 m ρ c (Proc.devRef .tc main_arg9) = m ((c : Thread nD τ).loc main_arg9) :=
  (StableHlo.after_of_forall_not_mem (b := Proc.devRef .tc main_arg9) _ _ (List.forall_iff_forall_mem.mp (by
          simp only [Gen.hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arg9 m ρ c)
theorem W5_arg9 (c : Dev nD) : Gen.W5 m ρ c (Proc.devRef .tc main_arg9) = m ((c : Thread nD τ).loc main_arg9) :=
  (Gen.W5_of_ne m ρ c main_arg9 (by decide)).trans (W4_arg9 m ρ c)
theorem W1_arg10 (c : Dev nD) : Gen.W1 m ρ c (Proc.devRef .tc main_arg10) = m ((c : Thread nD τ).loc main_arg10) :=
  (Gen.W1_of_ne m ρ c main_arg10 (by decide)).trans rfl
theorem W2_arg10 (c : Dev nD) : Gen.W2 m ρ c (Proc.devRef .tc main_arg10) = m ((c : Thread nD τ).loc main_arg10) :=
  (StableHlo.after_of_forall_not_mem (b := Proc.devRef .tc main_arg10) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arg10 m ρ c)
theorem W3_arg10 (c : Dev nD) : Gen.W3 m ρ c (Proc.devRef .tc main_arg10) = m ((c : Thread nD τ).loc main_arg10) :=
  (Gen.W3_of_ne m ρ c main_arg10 (by decide)).trans (W2_arg10 m ρ c)
theorem W4_arg10 (c : Dev nD) : Gen.W4 m ρ c (Proc.devRef .tc main_arg10) = m ((c : Thread nD τ).loc main_arg10) :=
  (StableHlo.after_of_forall_not_mem (b := Proc.devRef .tc main_arg10) _ _ (List.forall_iff_forall_mem.mp (by
          simp only [Gen.hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arg10 m ρ c)
theorem W5_arg10 (c : Dev nD) : Gen.W5 m ρ c (Proc.devRef .tc main_arg10) = m ((c : Thread nD τ).loc main_arg10) :=
  (Gen.W5_of_ne m ρ c main_arg10 (by decide)).trans (W4_arg10 m ρ c)
theorem W1_arg11 (c : Dev nD) : Gen.W1 m ρ c (Proc.devRef .tc main_arg11) = m ((c : Thread nD τ).loc main_arg11) :=
  (Gen.W1_of_ne m ρ c main_arg11 (by decide)).trans rfl
theorem W2_arg11 (c : Dev nD) : Gen.W2 m ρ c (Proc.devRef .tc main_arg11) = m ((c : Thread nD τ).loc main_arg11) :=
  (StableHlo.after_of_forall_not_mem (b := Proc.devRef .tc main_arg11) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arg11 m ρ c)
theorem W3_arg11 (c : Dev nD) : Gen.W3 m ρ c (Proc.devRef .tc main_arg11) = m ((c : Thread nD τ).loc main_arg11) :=
  (Gen.W3_of_ne m ρ c main_arg11 (by decide)).trans (W2_arg11 m ρ c)
theorem W4_arg11 (c : Dev nD) : Gen.W4 m ρ c (Proc.devRef .tc main_arg11) = m ((c : Thread nD τ).loc main_arg11) :=
  (StableHlo.after_of_forall_not_mem (b := Proc.devRef .tc main_arg11) _ _ (List.forall_iff_forall_mem.mp (by
          simp only [Gen.hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arg11 m ρ c)
theorem W5_arg11 (c : Dev nD) : Gen.W5 m ρ c (Proc.devRef .tc main_arg11) = m ((c : Thread nD τ).loc main_arg11) :=
  (Gen.W5_of_ne m ρ c main_arg11 (by decide)).trans (W4_arg11 m ρ c)
theorem W1_arg18 (c : Dev nD) : Gen.W1 m ρ c (Proc.devRef .tc main_arg18) = m ((c : Thread nD τ).loc main_arg18) :=
  (Gen.W1_of_ne m ρ c main_arg18 (by decide)).trans rfl
theorem W2_arg18 (c : Dev nD) : Gen.W2 m ρ c (Proc.devRef .tc main_arg18) = m ((c : Thread nD τ).loc main_arg18) :=
  (StableHlo.after_of_forall_not_mem (b := Proc.devRef .tc main_arg18) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arg18 m ρ c)
theorem W1_arg19 (c : Dev nD) : Gen.W1 m ρ c (Proc.devRef .tc main_arg19) = m ((c : Thread nD τ).loc main_arg19) :=
  (Gen.W1_of_ne m ρ c main_arg19 (by decide)).trans rfl
theorem W2_arg19 (c : Dev nD) : Gen.W2 m ρ c (Proc.devRef .tc main_arg19) = m ((c : Thread nD τ).loc main_arg19) :=
  (StableHlo.after_of_forall_not_mem (b := Proc.devRef .tc main_arg19) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arg19 m ρ c)
theorem W3_arg19 (c : Dev nD) : Gen.W3 m ρ c (Proc.devRef .tc main_arg19) = m ((c : Thread nD τ).loc main_arg19) :=
  (Gen.W3_of_ne m ρ c main_arg19 (by decide)).trans (W2_arg19 m ρ c)
theorem W4_arg19 (c : Dev nD) : Gen.W4 m ρ c (Proc.devRef .tc main_arg19) = m ((c : Thread nD τ).loc main_arg19) :=
  (StableHlo.after_of_forall_not_mem (b := Proc.devRef .tc main_arg19) _ _ (List.forall_iff_forall_mem.mp (by
          simp only [Gen.hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arg19 m ρ c)
theorem W1_arg20 (c : Dev nD) : Gen.W1 m ρ c (Proc.devRef .tc main_arg20) = m ((c : Thread nD τ).loc main_arg20) :=
  (Gen.W1_of_ne m ρ c main_arg20 (by decide)).trans rfl
theorem W2_arg20 (c : Dev nD) : Gen.W2 m ρ c (Proc.devRef .tc main_arg20) = m ((c : Thread nD τ).loc main_arg20) :=
  (StableHlo.after_of_forall_not_mem (b := Proc.devRef .tc main_arg20) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arg20 m ρ c)
theorem W3_arg20 (c : Dev nD) : Gen.W3 m ρ c (Proc.devRef .tc main_arg20) = m ((c : Thread nD τ).loc main_arg20) :=
  (Gen.W3_of_ne m ρ c main_arg20 (by decide)).trans (W2_arg20 m ρ c)
theorem W4_arg20 (c : Dev nD) : Gen.W4 m ρ c (Proc.devRef .tc main_arg20) = m ((c : Thread nD τ).loc main_arg20) :=
  (StableHlo.after_of_forall_not_mem (b := Proc.devRef .tc main_arg20) _ _ (List.forall_iff_forall_mem.mp (by
          simp only [Gen.hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arg20 m ρ c)
theorem W5_arg20 (c : Dev nD) : Gen.W5 m ρ c (Proc.devRef .tc main_arg20) = m ((c : Thread nD τ).loc main_arg20) :=
  (Gen.W5_of_ne m ρ c main_arg20 (by decide)).trans (W4_arg20 m ρ c)
theorem W6_arg20 (c : Dev nD) : Gen.W6 m ρ c (Proc.devRef .tc main_arg20) = m ((c : Thread nD τ).loc main_arg20) :=
  (StableHlo.after_of_forall_not_mem (b := Proc.devRef .tc main_arg20) _ _ (List.forall_iff_forall_mem.mp (by
          simp only [Gen.hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W5_arg20 m ρ c)

end Cert.KernelIdeal.NetRun

end
-- ==== Proof.KRunHost1.lean ====
/-
  The first stretch of host operations is the message passing.

  Between two kernels the host gathers the source node's features for every edge, scales them by the edge's weight
  and scatter-adds them into a zero array at the edge's target node. The scatter's result buffer after the stretch
  is that function of the edge arrays and of the array the stretch found in the previous result buffer.
-/
import proofs.«126801_j83811991814568_1_alg».proof.Proof.Gen.KernelIdeal.Frame
import proofs.«126801_j83811991814568_1_alg».proof.Proof.NetSpmm
import proofs.«126801_j83811991814568_1_alg».proof.Proof.KRunArgs
import Idealize.ShloMosaic.Lib.StableHlo.Run

noncomputable section

namespace Cert.KernelIdeal.NetRun

open Idealize.ShloMosaic Idealize.ShloMosaic.TcCoe
open Idealize.SL Idealize.SL.Sem
open Cert.KernelIdeal Cert.KernelIdeal.Facts₀ Cert.KernelIdeal.Facts

variable (m : (ℓ : Loc nD τ sig) → Buf (Elt Ideal) ℓ) (ρ : Dev nD → PrngReg)

set_option maxHeartbeats 1000000 in
/-- After the first host stretch the scatter's result holds the message passing of the array the stretch found. -/
theorem host1_at (c : Dev nD) :
    Gen.V2 m ρ c main_v13 = Cert.Net.spmm (Gen.W1 m ρ c (Proc.devRef .tc main_arg9)) (Gen.W1 m ρ c (Proc.devRef .tc main_arg10))
      (Gen.W1 m ρ c (Proc.devRef .tc main_arg11)) (Gen.V1 m ρ c main_v0) := by
  show StableHlo.after (Gen.hostOps1 (F := Ideal)) (Gen.W1 m ρ c) (Proc.devRef .tc main_v13) = _
  after_results
  rfl

/-- The same with the edge arrays read back to the launch memory. -/
theorem host1 (c : Dev nD) :
    Gen.V2 m ρ c main_v13 = Cert.Net.spmm (m ((c : Thread nD τ).loc main_arg9)) (m ((c : Thread nD τ).loc main_arg10))
      (m ((c : Thread nD τ).loc main_arg11)) (Gen.V1 m ρ c main_v0) := by
  rw [← W1_arg9 m ρ c, ← W1_arg10 m ρ c, ← W1_arg11 m ρ c]
  exact host1_at m ρ c

end Cert.KernelIdeal.NetRun

end
-- ==== Proof.KRunHost2.lean ====
/-
  The second stretch of host operations is the message passing.

  Between two kernels the host gathers the source node's features for every edge, scales them by the edge's weight
  and scatter-adds them into a zero array at the edge's target node. The scatter's result buffer after the stretch
  is that function of the edge arrays and of the array the stretch found in the previous result buffer.
-/
import proofs.«126801_j83811991814568_1_alg».proof.Proof.Gen.KernelIdeal.Frame
import proofs.«126801_j83811991814568_1_alg».proof.Proof.NetSpmm
import proofs.«126801_j83811991814568_1_alg».proof.Proof.KRunArgs
import Idealize.ShloMosaic.Lib.StableHlo.Run

noncomputable section

namespace Cert.KernelIdeal.NetRun

open Idealize.ShloMosaic Idealize.ShloMosaic.TcCoe
open Idealize.SL Idealize.SL.Sem
open Cert.KernelIdeal Cert.KernelIdeal.Facts₀ Cert.KernelIdeal.Facts

variable (m : (ℓ : Loc nD τ sig) → Buf (Elt Ideal) ℓ) (ρ : Dev nD → PrngReg)

set_option maxHeartbeats 1000000 in
/-- After the second host stretch the scatter's result holds the message passing of the array the stretch found. -/
theorem host2_at (c : Dev nD) :
    Gen.V4 m ρ c main_v27 = Cert.Net.spmm (Gen.W3 m ρ c (Proc.devRef .tc main_arg9)) (Gen.W3 m ρ c (Proc.devRef .tc main_arg10))
      (Gen.W3 m ρ c (Proc.devRef .tc main_arg11)) (Gen.V3 m ρ c main_v14) := by
  show StableHlo.after (Gen.hostOps2 (F := Ideal)) (Gen.W3 m ρ c) (Proc.devRef .tc main_v27) = _
  after_results
  rfl

/-- The same with the edge arrays read back to the launch memory. -/
theorem host2 (c : Dev nD) :
    Gen.V4 m ρ c main_v27 = Cert.Net.spmm (m ((c : Thread nD τ).loc main_arg9)) (m ((c : Thread nD τ).loc main_arg10))
      (m ((c : Thread nD τ).loc main_arg11)) (Gen.V3 m ρ c main_v14) := by
  rw [← W3_arg9 m ρ c, ← W3_arg10 m ρ c, ← W3_arg11 m ρ c]
  exact host2_at m ρ c

end Cert.KernelIdeal.NetRun

end
-- ==== Proof.KRunHost3.lean ====
/-
  The third stretch of host operations is the message passing.

  Between two kernels the host gathers the source node's features for every edge, scales them by the edge's weight
  and scatter-adds them into a zero array at the edge's target node. The scatter's result buffer after the stretch
  is that function of the edge arrays and of the array the stretch found in the previous result buffer.
-/
import proofs.«126801_j83811991814568_1_alg».proof.Proof.Gen.KernelIdeal.Frame
import proofs.«126801_j83811991814568_1_alg».proof.Proof.NetSpmm
import proofs.«126801_j83811991814568_1_alg».proof.Proof.KRunArgs
import Idealize.ShloMosaic.Lib.StableHlo.Run

noncomputable section

namespace Cert.KernelIdeal.NetRun

open Idealize.ShloMosaic Idealize.ShloMosaic.TcCoe
open Idealize.SL Idealize.SL.Sem
open Cert.KernelIdeal Cert.KernelIdeal.Facts₀ Cert.KernelIdeal.Facts

variable (m : (ℓ : Loc nD τ sig) → Buf (Elt Ideal) ℓ) (ρ : Dev nD → PrngReg)

set_option maxHeartbeats 1000000 in
/-- After the third host stretch the scatter's result holds the message passing of the array the stretch found. -/
theorem host3_at (c : Dev nD) :
    Gen.V6 m ρ c main_v41 = Cert.Net.spmm (Gen.W5 m ρ c (Proc.devRef .tc main_arg9)) (Gen.W5 m ρ c (Proc.devRef .tc main_arg10))
      (Gen.W5 m ρ c (Proc.devRef .tc main_arg11)) (Gen.V5 m ρ c main_v28) := by
  show StableHlo.after (Gen.hostOps3 (F := Ideal)) (Gen.W5 m ρ c) (Proc.devRef .tc main_v41) = _
  after_results
  rfl

/-- The same with the edge arrays read back to the launch memory. -/
theorem host3 (c : Dev nD) :
    Gen.V6 m ρ c main_v41 = Cert.Net.spmm (m ((c : Thread nD τ).loc main_arg9)) (m ((c : Thread nD τ).loc main_arg10))
      (m ((c : Thread nD τ).loc main_arg11)) (Gen.V5 m ρ c main_v28) := by
  rw [← W5_arg9 m ρ c, ← W5_arg10 m ρ c, ← W5_arg11 m ρ c]
  exact host3_at m ρ c

end Cert.KernelIdeal.NetRun

end
-- ==== Proof.KRunPay.lean ====
/-
  What one tile of a layer's kernel stores, read at an entry.

  The kernel body rounds the tile of node features and the weight matrix to a narrower float format, multiplies them
  into a zero accumulator and takes the hyperbolic tangent. Over the extended reals the rounding is the identity and the
  accumulated product is the plain sum, so entry (p, q) of the stored tile is the hyperbolic tangent of the sum over k
  of x (p, k) · g (k, q).
-/
import proofs.«126801_j83811991814568_1_alg».proof.Proof.Gen.KernelIdeal.Skeleton
import proofs.«126801_j83811991814568_1_alg».proof.Proof.LibLayerProduct
import Idealize.ShloMosaic.Lib.Pipeline.Value

noncomputable section

namespace Cert.KernelIdeal.NetRun

open Idealize.ShloMosaic Idealize.ShloMosaic.ValueIdx Cert.KernelIdeal Cert.KernelIdeal.Facts₀ Cert.KernelIdeal.Facts

/-! The two products' index maps: (row, contraction) on the left, (contraction, column) on the right. -/

theorem dotA_l0 (i : S1000x259.Idx) (q : dot_S1000x259_S259x259_S1000x259_1_0_0_1_n_n.contr.Idx) :
    (dot_S1000x259_S259x259_S1000x259_1_0_0_1_n_n.lhsIdx i q 0).val = (i 0).val := by
  unfold DotDims.lhsIdx
  rw [dif_neg (show ¬(0 : Fin S1000x259.rank) ∈ dot_S1000x259_S259x259_S1000x259_1_0_0_1_n_n.lhsBatch by decide), dif_pos (show (0 : Fin S1000x259.rank) ∈ dot_S1000x259_S259x259_S1000x259_1_0_0_1_n_n.lhsNonContracting by decide)]
  rfl
theorem dotA_l1 (i : S1000x259.Idx) (q : dot_S1000x259_S259x259_S1000x259_1_0_0_1_n_n.contr.Idx) :
    (dot_S1000x259_S259x259_S1000x259_1_0_0_1_n_n.lhsIdx i q 1).val = (q ⟨0, by decide⟩).val :=
  dot_S1000x259_S259x259_S1000x259_1_0_0_1_n_n.lhsIdx_val_of_single rfl i q
theorem dotA_r0 (i : S1000x259.Idx) (q : dot_S1000x259_S259x259_S1000x259_1_0_0_1_n_n.contr.Idx) :
    (dot_S1000x259_S259x259_S1000x259_1_0_0_1_n_n.rhsIdx i q 0).val = (q ⟨0, by decide⟩).val :=
  dot_S1000x259_S259x259_S1000x259_1_0_0_1_n_n.rhsIdx_val_of_single rfl i q
theorem dotA_r1 (i : S1000x259.Idx) (q : dot_S1000x259_S259x259_S1000x259_1_0_0_1_n_n.contr.Idx) :
    (dot_S1000x259_S259x259_S1000x259_1_0_0_1_n_n.rhsIdx i q 1).val = (i 1).val := by
  unfold DotDims.rhsIdx
  rw [dif_neg (show ¬(1 : Fin S259x259.rank) ∈ dot_S1000x259_S259x259_S1000x259_1_0_0_1_n_n.rhsBatch by decide), dif_pos (show (1 : Fin S259x259.rank) ∈ dot_S1000x259_S259x259_S1000x259_1_0_0_1_n_n.rhsNonContracting by decide)]
  rfl

theorem dotB_l0 (i : S1000x10.Idx) (q : dot_S1000x259_S259x10_S1000x10_1_0_0_1_n_n.contr.Idx) :
    (dot_S1000x259_S259x10_S1000x10_1_0_0_1_n_n.lhsIdx i q 0).val = (i 0).val := by
  unfold DotDims.lhsIdx
  rw [dif_neg (show ¬(0 : Fin S1000x259.rank) ∈ dot_S1000x259_S259x10_S1000x10_1_0_0_1_n_n.lhsBatch by decide), dif_pos (show (0 : Fin S1000x259.rank) ∈ dot_S1000x259_S259x10_S1000x10_1_0_0_1_n_n.lhsNonContracting by decide)]
  rfl
theorem dotB_l1 (i : S1000x10.Idx) (q : dot_S1000x259_S259x10_S1000x10_1_0_0_1_n_n.contr.Idx) :
    (dot_S1000x259_S259x10_S1000x10_1_0_0_1_n_n.lhsIdx i q 1).val = (q ⟨0, by decide⟩).val :=
  dot_S1000x259_S259x10_S1000x10_1_0_0_1_n_n.lhsIdx_val_of_single rfl i q
theorem dotB_r0 (i : S1000x10.Idx) (q : dot_S1000x259_S259x10_S1000x10_1_0_0_1_n_n.contr.Idx) :
    (dot_S1000x259_S259x10_S1000x10_1_0_0_1_n_n.rhsIdx i q 0).val = (q ⟨0, by decide⟩).val :=
  dot_S1000x259_S259x10_S1000x10_1_0_0_1_n_n.rhsIdx_val_of_single rfl i q
theorem dotB_r1 (i : S1000x10.Idx) (q : dot_S1000x259_S259x10_S1000x10_1_0_0_1_n_n.contr.Idx) :
    (dot_S1000x259_S259x10_S1000x10_1_0_0_1_n_n.rhsIdx i q 1).val = (i 1).val := by
  unfold DotDims.rhsIdx
  rw [dif_neg (show ¬(1 : Fin S259x10.rank) ∈ dot_S1000x259_S259x10_S1000x10_1_0_0_1_n_n.rhsBatch by decide), dif_pos (show (1 : Fin S259x10.rank) ∈ dot_S1000x259_S259x10_S1000x10_1_0_0_1_n_n.rhsNonContracting by decide)]
  rfl

/-- The stored block of layer 1's kernel body, at row p and column q of the block. -/
theorem k1_pay1_apply (x0 : Vec Ideal S1000x259 .f32) (x1 : Vec Ideal S259x259 .f32) (p : Fin 1000) (q : Fin 259) :
    Gen.k1_pay1 (F := Ideal) x0 x1 (ix2 p q) = Ideal.tanh (Cert.Layer.prod x0 x1 (ix2 p q)) := by
  unfold Gen.k1_pay1
  rw [shapeCast_self]
  exact congrArg Ideal.tanh (Cert.Layer.matmul_trunc_apply dot_S1000x259_S259x259_S1000x259_1_0_0_1_n_n rfl rfl dotA_l0 dotA_l1 dotA_r0 dotA_r1 bitsLt_bf16_f32 x0 x1 p q)

/-- The stored block of layer 2's kernel body, at row p and column q of the block. -/
theorem k2_pay1_apply (x0 : Vec Ideal S1000x259 .f32) (x1 : Vec Ideal S259x259 .f32) (p : Fin 1000) (q : Fin 259) :
    Gen.k2_pay1 (F := Ideal) x0 x1 (ix2 p q) = Ideal.tanh (Cert.Layer.prod x0 x1 (ix2 p q)) := by
  unfold Gen.k2_pay1
  rw [shapeCast_self]
  exact congrArg Ideal.tanh (Cert.Layer.matmul_trunc_apply dot_S1000x259_S259x259_S1000x259_1_0_0_1_n_n rfl rfl dotA_l0 dotA_l1 dotA_r0 dotA_r1 bitsLt_bf16_f32 x0 x1 p q)

/-- The stored block of layer 3's kernel body, at row p and column q of the block. -/
theorem k3_pay1_apply (x0 : Vec Ideal S1000x259 .f32) (x1 : Vec Ideal S259x10 .f32) (p : Fin 1000) (q : Fin 10) :
    Gen.k3_pay1 (F := Ideal) x0 x1 (ix2 p q) = Ideal.tanh (Cert.Layer.prod x0 x1 (ix2 p q)) := by
  unfold Gen.k3_pay1
  rw [shapeCast_self]
  exact congrArg Ideal.tanh (Cert.Layer.matmul_trunc_apply dot_S1000x259_S259x10_S1000x10_1_0_0_1_n_n rfl rfl dotB_l0 dotB_l1 dotB_r0 dotB_r1 bitsLt_bf16_f32 x0 x1 p q)

end Cert.KernelIdeal.NetRun

end
-- ==== Proof.KRunLayer1.lean ====
/-
  Layer 1 of the kernel, from its row tiles to the whole array.

  The kernel runs over 50 grid points; point t reads rows 1000 t to 1000 t + 999 of the node features and the whole
  weight matrix, and writes back the same rows of the output. Each written tile is that row block of the hyperbolic
  tangent of features times weights, and the 50 tiles cover the output array, so after the region the output array is
  the layer applied to the whole input array.
-/
import proofs.«126801_j83811991814568_1_alg».proof.Proof.Gen.KernelIdeal.Frame
import proofs.«126801_j83811991814568_1_alg».proof.Proof.KRunPay
import proofs.«126801_j83811991814568_1_alg».proof.Proof.Spec
import Idealize.ShloMosaic.Lib.Pipeline.Value

noncomputable section

namespace Cert.KernelIdeal.NetRun

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Facts₀ Cert.KernelIdeal.Facts

variable (V : (c : Dev nD) → (b : Ref sig .tc) → Buf (Elt Ideal) ((c : Thread nD τ).loc b))

theorem hz1 : (![0, 0] : Fin 2 → Nat) = fun _ => 0 := funext fun a => by fin_cases a <;> rfl

/-- Where the three windows' blocks sit at grid point t: the feature tile and the output tile at row block t, the
    weight matrix whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is its row block of the layer applied to the whole input array. -/
theorem flushed1_eq (c : Dev nD) (t : Fin cfg1.N) :
    (Gen.dat1 V c).flushed 2 t = ((cfg1.win 2).blk t).view.read (Elt Ideal) (Cert.Net.layer (V c main_v13) (V c main_arg18)) := by
  show (cfg1.win 2).cut (grid1.coords t) ((Gen.dat1 V c).after 2 t) = _
  rw [Gen.after1_2]
  unfold Gen.out1_2
  rw [View.canon_unit_zero hz1]
  simp only [View.ld_unit_zero (S := S1000x259) hz1, View.ld_unit_zero (S := S259x259) hz1]
  obtain ⟨e0, e1, e2, e3, e4, e5⟩ := idx_facts1 t
  funext j
  obtain ⟨p, q, rfl⟩ : ∃ p q, j = ix2 p q := ⟨j 0, j 1, eq_ix2 j⟩
  refine (k1_pay1_apply (Gen.iblk1 V c 0 t) (Gen.iblk1 V c 1 t) p q).trans ?_
  refine congrArg Ideal.tanh ?_
  refine (Cert.Layer.prod_congr (Gen.iblk1 V c 0 t) (Gen.iblk1 V c 1 t) (V c main_v13) (V c main_arg18) p q
    ((((cfg1.win 2).blk t).view.emb (ix2 p q)) 0) ((((cfg1.win 2).blk t).view.emb (ix2 p q)) 1) (fun k => ?_) (fun k => ?_)).trans
    (congrArg (Cert.Layer.prod (V c main_v13) (V c main_arg18)) (eq_ix2 (((cfg1.win 2).blk t).view.emb (ix2 p q))).symm)
  · show V c main_v13 (((cfg1.win 0).blk t).view.emb (ix2 p k)) = V c main_v13 (ix2 ((((cfg1.win 2).blk t).view.emb (ix2 p q)) 0) k)
    refine congrArg (V c main_v13) ?_
    funext a; apply Fin.ext
    match a with
    | ⟨0, _⟩ => show win1_0.index t (0 : Fin 2) * 1000 + 1 * p.val = win1_2.index t (0 : Fin 2) * 1000 + 1 * p.val; omega
    | ⟨1, _⟩ => show win1_0.index t (1 : Fin 2) * 259 + 1 * k.val = k.val; omega
  · show V c main_arg18 (((cfg1.win 1).blk t).view.emb (ix2 k q)) = V c main_arg18 (ix2 k ((((cfg1.win 2).blk t).view.emb (ix2 p q)) 1))
    refine congrArg (V c main_arg18) ?_
    funext a; apply Fin.ext
    match a with
    | ⟨0, _⟩ => show win1_1.index t (0 : Fin 2) * 259 + 1 * k.val = k.val; omega
    | ⟨1, _⟩ => show win1_1.index t (1 : Fin 2) * 259 + 1 * q.val = win1_2.index t (1 : Fin 2) * 259 + 1 * q.val; omega

/-- An index of the output array is in grid point t's block iff each coordinate is in the block's range. -/
theorem mem_blk1 (t : Fin cfg1.N) (i : S50000x259.Idx) :
    i ∈ ((cfg1.win 2).blk t).view.set ↔ ∀ a : Fin 2, win1_2.index t a * S1000x259.size a ≤ (i a).val ∧ (i a).val < win1_2.index t a * S1000x259.size a + S1000x259.size a := by
  show i ∈ ((View.whole main_v14).slice (win1_2.rect t)).set ↔ _
  rw [View.set_slice_whole, Rect.mem_set_unit]
  exact Iff.rfl

/-- Every index of the output array is in the block of the grid point of its row block. -/
theorem cover1 (i : S50000x259.Idx) :
    ∃ t : Fin cfg1.N, (cfg1.win 2).flush t = true ∧ i ∈ ((cfg1.win 2).blk t).view.set := by
  have hi0 : (i 0).val < 50000 := (i 0).isLt
  have hi1 : (i 1).val < 259 := (i 1).isLt
  have ht : (i 0).val / 1000 < 50 := by omega
  refine ⟨⟨(i 0).val / 1000, ht⟩, Gen.flush1_2 _, ?_⟩
  obtain ⟨e0, e1, e2, e3, e4, e5⟩ := idx_facts1 ⟨(i 0).val / 1000, ht⟩
  rw [mem_blk1]
  intro a
  match a with
  | ⟨0, _⟩ =>
    show win1_2.index ⟨(i 0).val / 1000, ht⟩ (0 : Fin 2) * 1000 ≤ (i 0).val ∧ (i 0).val < win1_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win1_2.index ⟨(i 0).val / 1000, ht⟩ (1 : Fin 2) * 259 ≤ (i 1).val ∧ (i 1).val < win1_2.index ⟨(i 0).val / 1000, ht⟩ (1 : Fin 2) * 259 + 259
    rw [e5]; omega

/-- The output array after the region: the layer applied to the input array as the region finds it. -/
theorem final1 (c : Dev nD) :
    (Gen.dat1 V c).arrAt 2 cfg1.N = Cert.Net.layer (V c main_v13) (V c main_arg18) :=
  (Gen.dat1 V c).arrAt_eq_of_cover 2 (Cert.Net.layer (V c main_v13) (V c main_arg18)) (fun t _ => flushed1_eq V c t) cover1

end Cert.KernelIdeal.NetRun

end
-- ==== Proof.KRunLayer2.lean ====
/-
  Layer 2 of the kernel, from its row tiles to the whole array.

  The kernel runs over 50 grid points; point t reads rows 1000 t to 1000 t + 999 of the node features and the whole
  weight matrix, and writes back the same rows of the output. Each written tile is that row block of the hyperbolic
  tangent of features times weights, and the 50 tiles cover the output array, so after the region the output array is
  the layer applied to the whole input array.
-/
import proofs.«126801_j83811991814568_1_alg».proof.Proof.Gen.KernelIdeal.Frame
import proofs.«126801_j83811991814568_1_alg».proof.Proof.KRunPay
import proofs.«126801_j83811991814568_1_alg».proof.Proof.Spec
import Idealize.ShloMosaic.Lib.Pipeline.Value

noncomputable section

namespace Cert.KernelIdeal.NetRun

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Facts₀ Cert.KernelIdeal.Facts

variable (V : (c : Dev nD) → (b : Ref sig .tc) → Buf (Elt Ideal) ((c : Thread nD τ).loc b))

theorem hz2 : (![0, 0] : Fin 2 → Nat) = fun _ => 0 := funext fun a => by fin_cases a <;> rfl

/-- Where the three windows' blocks sit at grid point t: the feature tile and the output tile at row block t, the
    weight matrix whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is its row block of the layer applied to the whole input array. -/
theorem flushed2_eq (c : Dev nD) (t : Fin cfg2.N) :
    (Gen.dat2 V c).flushed 2 t = ((cfg2.win 2).blk t).view.read (Elt Ideal) (Cert.Net.layer (V c main_v27) (V c main_arg19)) := by
  show (cfg2.win 2).cut (grid2.coords t) ((Gen.dat2 V c).after 2 t) = _
  rw [Gen.after2_2]
  unfold Gen.out2_2
  rw [View.canon_unit_zero hz2]
  simp only [View.ld_unit_zero (S := S1000x259) hz2, View.ld_unit_zero (S := S259x259) hz2]
  obtain ⟨e0, e1, e2, e3, e4, e5⟩ := idx_facts2 t
  funext j
  obtain ⟨p, q, rfl⟩ : ∃ p q, j = ix2 p q := ⟨j 0, j 1, eq_ix2 j⟩
  refine (k2_pay1_apply (Gen.iblk2 V c 0 t) (Gen.iblk2 V c 1 t) p q).trans ?_
  refine congrArg Ideal.tanh ?_
  refine (Cert.Layer.prod_congr (Gen.iblk2 V c 0 t) (Gen.iblk2 V c 1 t) (V c main_v27) (V c main_arg19) p q
    ((((cfg2.win 2).blk t).view.emb (ix2 p q)) 0) ((((cfg2.win 2).blk t).view.emb (ix2 p q)) 1) (fun k => ?_) (fun k => ?_)).trans
    (congrArg (Cert.Layer.prod (V c main_v27) (V c main_arg19)) (eq_ix2 (((cfg2.win 2).blk t).view.emb (ix2 p q))).symm)
  · show V c main_v27 (((cfg2.win 0).blk t).view.emb (ix2 p k)) = V c main_v27 (ix2 ((((cfg2.win 2).blk t).view.emb (ix2 p q)) 0) k)
    refine congrArg (V c main_v27) ?_
    funext a; apply Fin.ext
    match a with
    | ⟨0, _⟩ => show win2_0.index t (0 : Fin 2) * 1000 + 1 * p.val = win2_2.index t (0 : Fin 2) * 1000 + 1 * p.val; omega
    | ⟨1, _⟩ => show win2_0.index t (1 : Fin 2) * 259 + 1 * k.val = k.val; omega
  · show V c main_arg19 (((cfg2.win 1).blk t).view.emb (ix2 k q)) = V c main_arg19 (ix2 k ((((cfg2.win 2).blk t).view.emb (ix2 p q)) 1))
    refine congrArg (V c main_arg19) ?_
    funext a; apply Fin.ext
    match a with
    | ⟨0, _⟩ => show win2_1.index t (0 : Fin 2) * 259 + 1 * k.val = k.val; omega
    | ⟨1, _⟩ => show win2_1.index t (1 : Fin 2) * 259 + 1 * q.val = win2_2.index t (1 : Fin 2) * 259 + 1 * q.val; omega

/-- An index of the output array is in grid point t's block iff each coordinate is in the block's range. -/
theorem mem_blk2 (t : Fin cfg2.N) (i : S50000x259.Idx) :
    i ∈ ((cfg2.win 2).blk t).view.set ↔ ∀ a : Fin 2, win2_2.index t a * S1000x259.size a ≤ (i a).val ∧ (i a).val < win2_2.index t a * S1000x259.size a + S1000x259.size a := by
  show i ∈ ((View.whole main_v28).slice (win2_2.rect t)).set ↔ _
  rw [View.set_slice_whole, Rect.mem_set_unit]
  exact Iff.rfl

/-- Every index of the output array is in the block of the grid point of its row block. -/
theorem cover2 (i : S50000x259.Idx) :
    ∃ t : Fin cfg2.N, (cfg2.win 2).flush t = true ∧ i ∈ ((cfg2.win 2).blk t).view.set := by
  have hi0 : (i 0).val < 50000 := (i 0).isLt
  have hi1 : (i 1).val < 259 := (i 1).isLt
  have ht : (i 0).val / 1000 < 50 := by omega
  refine ⟨⟨(i 0).val / 1000, ht⟩, Gen.flush2_2 _, ?_⟩
  obtain ⟨e0, e1, e2, e3, e4, e5⟩ := idx_facts2 ⟨(i 0).val / 1000, ht⟩
  rw [mem_blk2]
  intro a
  match a with
  | ⟨0, _⟩ =>
    show win2_2.index ⟨(i 0).val / 1000, ht⟩ (0 : Fin 2) * 1000 ≤ (i 0).val ∧ (i 0).val < win2_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win2_2.index ⟨(i 0).val / 1000, ht⟩ (1 : Fin 2) * 259 ≤ (i 1).val ∧ (i 1).val < win2_2.index ⟨(i 0).val / 1000, ht⟩ (1 : Fin 2) * 259 + 259
    rw [e5]; omega

/-- The output array after the region: the layer applied to the input array as the region finds it. -/
theorem final2 (c : Dev nD) :
    (Gen.dat2 V c).arrAt 2 cfg2.N = Cert.Net.layer (V c main_v27) (V c main_arg19) :=
  (Gen.dat2 V c).arrAt_eq_of_cover 2 (Cert.Net.layer (V c main_v27) (V c main_arg19)) (fun t _ => flushed2_eq V c t) cover2

end Cert.KernelIdeal.NetRun

end
-- ==== Proof.KRunLayer3.lean ====
/-
  Layer 3 of the kernel, from its row tiles to the whole array.

  The kernel runs over 50 grid points; point t reads rows 1000 t to 1000 t + 999 of the node features and the whole
  weight matrix, and writes back the same rows of the output. Each written tile is that row block of the hyperbolic
  tangent of features times weights, and the 50 tiles cover the output array, so after the region the output array is
  the layer applied to the whole input array.
-/
import proofs.«126801_j83811991814568_1_alg».proof.Proof.Gen.KernelIdeal.Frame
import proofs.«126801_j83811991814568_1_alg».proof.Proof.KRunPay
import proofs.«126801_j83811991814568_1_alg».proof.Proof.Spec
import Idealize.ShloMosaic.Lib.Pipeline.Value

noncomputable section

namespace Cert.KernelIdeal.NetRun

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Facts₀ Cert.KernelIdeal.Facts

variable (V : (c : Dev nD) → (b : Ref sig .tc) → Buf (Elt Ideal) ((c : Thread nD τ).loc b))

theorem hz3 : (![0, 0] : Fin 2 → Nat) = fun _ => 0 := funext fun a => by fin_cases a <;> rfl

/-- Where the three windows' blocks sit at grid point t: the feature tile and the output tile at row block t, the
    weight matrix whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is its row block of the layer applied to the whole input array. -/
theorem flushed3_eq (c : Dev nD) (t : Fin cfg3.N) :
    (Gen.dat3 V c).flushed 2 t = ((cfg3.win 2).blk t).view.read (Elt Ideal) (Cert.Net.layer (V c main_v41) (V c main_arg20)) := by
  show (cfg3.win 2).cut (grid3.coords t) ((Gen.dat3 V c).after 2 t) = _
  rw [Gen.after3_2]
  unfold Gen.out3_2
  rw [View.canon_unit_zero hz3]
  simp only [View.ld_unit_zero (S := S1000x259) hz3, View.ld_unit_zero (S := S259x10) hz3]
  obtain ⟨e0, e1, e2, e3, e4, e5⟩ := idx_facts3 t
  funext j
  obtain ⟨p, q, rfl⟩ : ∃ p q, j = ix2 p q := ⟨j 0, j 1, eq_ix2 j⟩
  refine (k3_pay1_apply (Gen.iblk3 V c 0 t) (Gen.iblk3 V c 1 t) p q).trans ?_
  refine congrArg Ideal.tanh ?_
  refine (Cert.Layer.prod_congr (Gen.iblk3 V c 0 t) (Gen.iblk3 V c 1 t) (V c main_v41) (V c main_arg20) p q
    ((((cfg3.win 2).blk t).view.emb (ix2 p q)) 0) ((((cfg3.win 2).blk t).view.emb (ix2 p q)) 1) (fun k => ?_) (fun k => ?_)).trans
    (congrArg (Cert.Layer.prod (V c main_v41) (V c main_arg20)) (eq_ix2 (((cfg3.win 2).blk t).view.emb (ix2 p q))).symm)
  · show V c main_v41 (((cfg3.win 0).blk t).view.emb (ix2 p k)) = V c main_v41 (ix2 ((((cfg3.win 2).blk t).view.emb (ix2 p q)) 0) k)
    refine congrArg (V c main_v41) ?_
    funext a; apply Fin.ext
    match a with
    | ⟨0, _⟩ => show win3_0.index t (0 : Fin 2) * 1000 + 1 * p.val = win3_2.index t (0 : Fin 2) * 1000 + 1 * p.val; omega
    | ⟨1, _⟩ => show win3_0.index t (1 : Fin 2) * 259 + 1 * k.val = k.val; omega
  · show V c main_arg20 (((cfg3.win 1).blk t).view.emb (ix2 k q)) = V c main_arg20 (ix2 k ((((cfg3.win 2).blk t).view.emb (ix2 p q)) 1))
    refine congrArg (V c main_arg20) ?_
    funext a; apply Fin.ext
    match a with
    | ⟨0, _⟩ => show win3_1.index t (0 : Fin 2) * 259 + 1 * k.val = k.val; omega
    | ⟨1, _⟩ => show win3_1.index t (1 : Fin 2) * 10 + 1 * q.val = win3_2.index t (1 : Fin 2) * 10 + 1 * q.val; omega

/-- An index of the output array is in grid point t's block iff each coordinate is in the block's range. -/
theorem mem_blk3 (t : Fin cfg3.N) (i : S50000x10.Idx) :
    i ∈ ((cfg3.win 2).blk t).view.set ↔ ∀ a : Fin 2, win3_2.index t a * S1000x10.size a ≤ (i a).val ∧ (i a).val < win3_2.index t a * S1000x10.size a + S1000x10.size a := by
  show i ∈ ((View.whole main_v42).slice (win3_2.rect t)).set ↔ _
  rw [View.set_slice_whole, Rect.mem_set_unit]
  exact Iff.rfl

/-- Every index of the output array is in the block of the grid point of its row block. -/
theorem cover3 (i : S50000x10.Idx) :
    ∃ t : Fin cfg3.N, (cfg3.win 2).flush t = true ∧ i ∈ ((cfg3.win 2).blk t).view.set := by
  have hi0 : (i 0).val < 50000 := (i 0).isLt
  have hi1 : (i 1).val < 10 := (i 1).isLt
  have ht : (i 0).val / 1000 < 50 := by omega
  refine ⟨⟨(i 0).val / 1000, ht⟩, Gen.flush3_2 _, ?_⟩
  obtain ⟨e0, e1, e2, e3, e4, e5⟩ := idx_facts3 ⟨(i 0).val / 1000, ht⟩
  rw [mem_blk3]
  intro a
  match a with
  | ⟨0, _⟩ =>
    show win3_2.index ⟨(i 0).val / 1000, ht⟩ (0 : Fin 2) * 1000 ≤ (i 0).val ∧ (i 0).val < win3_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win3_2.index ⟨(i 0).val / 1000, ht⟩ (1 : Fin 2) * 10 ≤ (i 1).val ∧ (i 1).val < win3_2.index ⟨(i 0).val / 1000, ht⟩ (1 : Fin 2) * 10 + 10
    rw [e5]; omega

/-- The output array after the region: the layer applied to the input array as the region finds it. -/
theorem final3 (c : Dev nD) :
    (Gen.dat3 V c).arrAt 2 cfg3.N = Cert.Net.layer (V c main_v41) (V c main_arg20) :=
  (Gen.dat3 V c).arrAt_eq_of_cover 2 (Cert.Net.layer (V c main_v41) (V c main_arg20)) (fun t _ => flushed3_eq V c t) cover3

end Cert.KernelIdeal.NetRun

end
-- ==== Proof.KRunResult.lean ====
/-
  The run of the whole program with the result array in its post.

  From any memory with zero counters every weakly fair execution of the program on the TensorCores terminates without
  a fault; at the end the result array holds what the last region leaves in it, and every argument array holds what it
  held at the launch. The run is the chain of the program's seven stretches, four kernels and three stretches of host
  operations, each entered from the buffer contents the one before leaves.
-/
import proofs.«126801_j83811991814568_1_alg».proof.Proof.Gen.KernelIdeal.Frame

set_option maxRecDepth 16384

noncomputable section

namespace Cert.KernelIdeal.NetRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the whole program, with the result array in the post: from any memory with zero counters every weakly
    fair execution terminates without a fault, the result array ends at the last region's exit contents and every
    argument array ends as launched. -/
theorem run_result : θ_run defs (onTc (τ := τ) (main (F := Ideal))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c)⟩)

end Cert.KernelIdeal.NetRun
end
-- ==== Proof.KRunNet.lean ====
/-
  The kernel's run ends with the three layers of the network in the result array.

  Each of the last three kernels leaves in its output array the layer applied to the array the host's message passing
  left for it, with the weight matrix as launched; each stretch of host operations leaves the message passing of the
  previous kernel's output, with the edge arrays as launched. Chained, the result array after the run is three rounds
  of message passing and layer applied to what the first kernel left.
-/
import proofs.«126801_j83811991814568_1_alg».proof.Proof.Gen.KernelIdeal.Frame
import proofs.«126801_j83811991814568_1_alg».proof.Proof.NetDef
import proofs.«126801_j83811991814568_1_alg».proof.Proof.KRunArgs
import proofs.«126801_j83811991814568_1_alg».proof.Proof.KRunHost1
import proofs.«126801_j83811991814568_1_alg».proof.Proof.KRunHost2
import proofs.«126801_j83811991814568_1_alg».proof.Proof.KRunHost3
import proofs.«126801_j83811991814568_1_alg».proof.Proof.KRunLayer1
import proofs.«126801_j83811991814568_1_alg».proof.Proof.KRunLayer2
import proofs.«126801_j83811991814568_1_alg».proof.Proof.KRunLayer3
import proofs.«126801_j83811991814568_1_alg».proof.Proof.KRunResult

noncomputable section

namespace Cert.KernelIdeal.NetRun

open Idealize.ShloMosaic Idealize.ShloMosaic.TcCoe
open Idealize.SL Idealize.SL.Sem
open Cert.KernelIdeal Cert.KernelIdeal.Facts₀ Cert.KernelIdeal.Facts

variable (m : (ℓ : Loc nD τ sig) → Buf (Elt Ideal) ℓ) (ρ : Dev nD → PrngReg)

/-- The first layer's output array after its kernel. -/
theorem out1 (c : Dev nD) :
    Gen.V3 m ρ c main_v14 = Cert.Net.layer (A := 50000) (K := 259) (B := 259) (Cert.Net.spmm (m ((c : Thread nD τ).loc main_arg9)) (m ((c : Thread nD τ).loc main_arg10)) (m ((c : Thread nD τ).loc main_arg11)) (Gen.V1 m ρ c main_v0)) (m ((c : Thread nD τ).loc main_arg18)) :=
  (Gen.W3_arr m ρ c 2).trans ((final1 (Gen.V2 m ρ) c).trans
    (congrArg₂ (Cert.Net.layer (A := 50000) (K := 259) (B := 259)) (host1 m ρ c) (W2_arg18 m ρ c)))

/-- The second layer's output array after its kernel. -/
theorem out2 (c : Dev nD) :
    Gen.V5 m ρ c main_v28 = Cert.Net.layer (A := 50000) (K := 259) (B := 259) (Cert.Net.spmm (m ((c : Thread nD τ).loc main_arg9)) (m ((c : Thread nD τ).loc main_arg10)) (m ((c : Thread nD τ).loc main_arg11)) (Gen.V3 m ρ c main_v14)) (m ((c : Thread nD τ).loc main_arg19)) :=
  (Gen.W5_arr m ρ c 2).trans ((final2 (Gen.V4 m ρ) c).trans
    (congrArg₂ (Cert.Net.layer (A := 50000) (K := 259) (B := 259)) (host2 m ρ c) (W4_arg19 m ρ c)))

/-- The result array after the last kernel. -/
theorem out3 (c : Dev nD) :
    Gen.W7 m ρ c (Proc.devRef .tc main_v42) = Cert.Net.layer (A := 50000) (K := 259) (B := 10) (Cert.Net.spmm (m ((c : Thread nD τ).loc main_arg9)) (m ((c : Thread nD τ).loc main_arg10)) (m ((c : Thread nD τ).loc main_arg11)) (Gen.V5 m ρ c main_v28)) (m ((c : Thread nD τ).loc main_arg20)) :=
  (Gen.W7_arr m ρ c 2).trans ((final3 (Gen.V6 m ρ) c).trans
    (congrArg₂ (Cert.Net.layer (A := 50000) (K := 259) (B := 10)) (host3 m ρ c) (W6_arg20 m ρ c)))

/-- The result array after the run: the three layers applied to the first kernel's output. -/
theorem result_eq (c : Dev nD) :
    Gen.W7 m ρ c (Proc.devRef .tc main_v42) = Cert.Net.net3 (m ((c : Thread nD τ).loc main_arg9)) (m ((c : Thread nD τ).loc main_arg10)) (m ((c : Thread nD τ).loc main_arg11)) (m ((c : Thread nD τ).loc main_arg18)) (m ((c : Thread nD τ).loc main_arg19)) (m ((c : Thread nD τ).loc main_arg20))
      (Gen.W1 m ρ c (Proc.devRef .tc main_v0)) := by
  rw [out3 m ρ c, out2 m ρ c, out1 m ρ c]
  rfl

/-- The kernel's run: it terminates without a fault, the result array ends holding the three layers of the network
    applied to the first kernel's output, and every argument array ends as launched. -/
theorem kernel_run_net : θ_run (Cert.KernelIdeal.defs (F := Ideal)) (onTc (τ := τ) (main (F := Ideal))) ⟨m, fun _ => 0, ρ⟩ (fun r => ∀ c : Dev nD,
      r.2.mem ((c.tc : Thread nD τ).loc main_v42) = Cert.Net.net3 (m ((c : Thread nD τ).loc main_arg9)) (m ((c : Thread nD τ).loc main_arg10)) (m ((c : Thread nD τ).loc main_arg11)) (m ((c : Thread nD τ).loc main_arg18)) (m ((c : Thread nD τ).loc main_arg19)) (m ((c : Thread nD τ).loc main_arg20))
        (Gen.W1 m ρ c (Proc.devRef .tc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run (Cert.KernelIdeal.defs (F := Ideal)) _ _).mono (fun r h c => ⟨((h c).1).trans (result_eq m ρ c), (h c).2⟩) (run_result m ρ)

end Cert.KernelIdeal.NetRun

end
-- ==== Proof.LibDot.lean ====
/-
  A host matrix product with one contracted axis, read at one entry.

  Over the extended reals the host's product of an A by K matrix and a K by B matrix at entry (p, q) is the sum over k
  of l (p, k) r (k, q): there is no accumulator, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibDot

open Idealize.ShloMosaic Idealize.ShloMosaic.ValueIdx

/-- Entry (p, q) of the host's plain matrix product is the sum over the contracted axis. -/
theorem dotGeneral_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    Host.dotGeneral (F := Ideal) d prec l r (ix2 p q) = ∑ k : Fin K, l (ix2 p k) * r (ix2 k q) := by
  show FloatOps.dotGeneral d prec .single l r (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibDot

end
-- ==== Proof.NetRef.lean ====
/-
  The reference's three layers are the shared network.

  After the first stage the reference passes messages over the edge list with the same gather, scaling and
  scatter-add as the kernel's host code, multiplies by the layer's weight matrix with one matrix product, and takes the
  hyperbolic tangent; three times. Over the extended reals an entry of the matrix product is the plain sum over the
  contracted axis, so each step is the shared layer of the shared message passing.
-/
import proofs.«126801_j83811991814568_1_alg».proof.Proof.Gen.ReferenceIdeal.Read
import proofs.«126801_j83811991814568_1_alg».proof.Proof.Gen.KernelIdeal
import proofs.«126801_j83811991814568_1_alg».proof.Proof.NetDef
import proofs.«126801_j83811991814568_1_alg».proof.Proof.LibDot

noncomputable section

namespace Cert.ReferenceIdeal.NetRef

open Idealize.ShloMosaic Idealize.ShloMosaic.ValueIdx Cert.ReferenceIdeal Cert.ReferenceIdeal.Gen

/-- The two programs gather with the same dimension numbers, -/
theorem gather_eq : Cert.ReferenceIdeal.gather_S50000x259_S800000x1_S800000x259_1_0_n_n_0_1_1259 = Cert.KernelIdeal.gather_S50000x259_S800000x1_S800000x259_1_0_n_n_0_1_1259 := rfl
/-- and scatter with the same dimension numbers. -/
theorem scatter_eq : Cert.ReferenceIdeal.scatter_S50000x259_S800000x1_S800000x259_1_0_0_1 = Cert.KernelIdeal.scatter_S50000x259_S800000x1_S800000x259_1_0_0_1 := rfl

/-- One matrix product followed by the hyperbolic tangent is the layer: entry by entry the product is the plain sum
    over the contracted axis. -/
theorem tanh_dot (y : Cert.Net.Mat 50000 259) (g : Cert.Net.Mat 259 259) :
    Host.tanh (F := Ideal) (Host.dotGeneral (F := Ideal) (φ₁ := .f32) (φ₂ := .f32) dot_S50000x259_S259x259_S50000x259_1_0_0_1_n_n none y g) = Cert.Net.layer y g := by
  funext i
  obtain ⟨p, q, rfl⟩ : ∃ p q, i = ix2 p q := ⟨i 0, i 1, eq_ix2 i⟩
  exact congrArg Ideal.tanh (Cert.LibDot.dotGeneral_ix2 (φ₁ := .f32) (φ₂ := .f32) dot_S50000x259_S259x259_S50000x259_1_0_0_1_n_n rfl rfl Read.lhs_main_v81_0 Read.lhs_main_v81_1 Read.rhs_main_v81_0 Read.rhs_main_v81_1 none y g p q)

/-- One matrix product followed by the hyperbolic tangent is the layer: entry by entry the product is the plain sum
    over the contracted axis. -/
theorem tanh_dot_last (y : Cert.Net.Mat 50000 259) (g : Cert.Net.Mat 259 10) :
    Host.tanh (F := Ideal) (Host.dotGeneral (F := Ideal) (φ₁ := .f32) (φ₂ := .f32) dot_S50000x259_S259x10_S50000x10_1_0_0_1_n_n none y g) = Cert.Net.layer y g := by
  funext i
  obtain ⟨p, q, rfl⟩ : ∃ p q, i = ix2 p q := ⟨i 0, i 1, eq_ix2 i⟩
  exact congrArg Ideal.tanh (Cert.LibDot.dotGeneral_ix2 (φ₁ := .f32) (φ₂ := .f32) dot_S50000x259_S259x10_S50000x10_1_0_0_1_n_n rfl rfl Read.lhs_main_v111_0 Read.lhs_main_v111_1 Read.rhs_main_v111_0 Read.rhs_main_v111_1 none y g p q)

variable (x0 : (⟨S50000x1000, .f32⟩ : BufTy).Contents (Elt Ideal)) (x1 : (⟨S50000x800, .f32⟩ : BufTy).Contents (Elt Ideal)) (x2 : (⟨S50000x600, .f32⟩ : BufTy).Contents (Elt Ideal))
  (x3 : (⟨S1000x256, .f32⟩ : BufTy).Contents (Elt Ideal)) (x4 : (⟨S256x256, .f32⟩ : BufTy).Contents (Elt Ideal)) (x5 : (⟨S800x256, .f32⟩ : BufTy).Contents (Elt Ideal))
  (x6 : (⟨S256x256, .f32⟩ : BufTy).Contents (Elt Ideal)) (x7 : (⟨S600x256, .f32⟩ : BufTy).Contents (Elt Ideal)) (x8 : (⟨S256x256, .f32⟩ : BufTy).Contents (Elt Ideal))
  (x9 x10 : (⟨S800000, .i32⟩ : BufTy).Contents (Elt Ideal)) (x11 : (⟨S800000, .f32⟩ : BufTy).Contents (Elt Ideal))
  (x12 : (⟨S3x1, .f32⟩ : BufTy).Contents (Elt Ideal)) (x13 : (⟨S1x3, .f32⟩ : BufTy).Contents (Elt Ideal)) (x14 : (⟨S256x16, .f32⟩ : BufTy).Contents (Elt Ideal))
  (x15 : (⟨S16x256, .f32⟩ : BufTy).Contents (Elt Ideal)) (x16 : (⟨S259x128, .f32⟩ : BufTy).Contents (Elt Ideal)) (x17 : (⟨S128x259, .f32⟩ : BufTy).Contents (Elt Ideal))
  (x18 x19 : (⟨S259x259, .f32⟩ : BufTy).Contents (Elt Ideal)) (x20 : (⟨S259x10, .f32⟩ : BufTy).Contents (Elt Ideal))

/-- The reference's first message passing is the shared one. -/
theorem spmm1 : Read.val_main_v80 (F := Ideal) x0 x1 x2 x3 x4 x5 x6 x7 x8 x9 x10 x11 x12 x13 x14 x15 x16 x17 = Cert.Net.spmm x9 x10 x11 (Read.val_main_v67 (F := Ideal) x0 x1 x2 x3 x4 x5 x6 x7 x8 x12 x13 x14 x15 x16 x17) := by
  unfold Read.val_main_v80 Read.val_main_v78 Read.val_main_v79 Read.val_main_v77 Read.val_main_v76 Read.val_main_v75 Read.val_main_v74 Read.val_main_v73 Read.val_main_v72 Read.val_main_v71 Read.val_main_v70 Read.val_main_v69 Read.val_main_v68 Read.val_main_c Read.val_main_c_15 Read.val_main_cst_16 Cert.Net.spmm
  generalize Read.val_main_v67 (F := Ideal) x0 x1 x2 x3 x4 x5 x6 x7 x8 x12 x13 x14 x15 x16 x17 = z
  rw [gather_eq, scatter_eq]

/-- The reference's first layer. -/
theorem layer1 : Read.val_main_v82 (F := Ideal) x0 x1 x2 x3 x4 x5 x6 x7 x8 x9 x10 x11 x12 x13 x14 x15 x16 x17 x18 = Cert.Net.layer (Read.val_main_v80 (F := Ideal) x0 x1 x2 x3 x4 x5 x6 x7 x8 x9 x10 x11 x12 x13 x14 x15 x16 x17) x18 := by
  unfold Read.val_main_v82 Read.val_main_v81
  exact tanh_dot _ x18

/-- The reference's second message passing is the shared one. -/
theorem spmm2 : Read.val_main_v95 (F := Ideal) x0 x1 x2 x3 x4 x5 x6 x7 x8 x9 x10 x11 x12 x13 x14 x15 x16 x17 x18 = Cert.Net.spmm x9 x10 x11 (Read.val_main_v82 (F := Ideal) x0 x1 x2 x3 x4 x5 x6 x7 x8 x9 x10 x11 x12 x13 x14 x15 x16 x17 x18) := by
  unfold Read.val_main_v95 Read.val_main_v93 Read.val_main_v94 Read.val_main_v92 Read.val_main_v91 Read.val_main_v90 Read.val_main_v89 Read.val_main_v88 Read.val_main_v87 Read.val_main_v86 Read.val_main_v85 Read.val_main_v84 Read.val_main_v83 Read.val_main_c_17 Read.val_main_c_18 Read.val_main_cst_19 Cert.Net.spmm
  generalize Read.val_main_v82 (F := Ideal) x0 x1 x2 x3 x4 x5 x6 x7 x8 x9 x10 x11 x12 x13 x14 x15 x16 x17 x18 = z
  rw [gather_eq, scatter_eq]

/-- The reference's second layer. -/
theorem layer2 : Read.val_main_v97 (F := Ideal) x0 x1 x2 x3 x4 x5 x6 x7 x8 x9 x10 x11 x12 x13 x14 x15 x16 x17 x18 x19 = Cert.Net.layer (Read.val_main_v95 (F := Ideal) x0 x1 x2 x3 x4 x5 x6 x7 x8 x9 x10 x11 x12 x13 x14 x15 x16 x17 x18) x19 := by
  unfold Read.val_main_v97 Read.val_main_v96
  exact tanh_dot _ x19

/-- The reference's third message passing is the shared one. -/
theorem spmm3 : Read.val_main_v110 (F := Ideal) x0 x1 x2 x3 x4 x5 x6 x7 x8 x9 x10 x11 x12 x13 x14 x15 x16 x17 x18 x19 = Cert.Net.spmm x9 x10 x11 (Read.val_main_v97 (F := Ideal) x0 x1 x2 x3 x4 x5 x6 x7 x8 x9 x10 x11 x12 x13 x14 x15 x16 x17 x18 x19) := by
  unfold Read.val_main_v110 Read.val_main_v108 Read.val_main_v109 Read.val_main_v107 Read.val_main_v106 Read.val_main_v105 Read.val_main_v104 Read.val_main_v103 Read.val_main_v102 Read.val_main_v101 Read.val_main_v100 Read.val_main_v99 Read.val_main_v98 Read.val_main_c_20 Read.val_main_c_21 Read.val_main_cst_22 Cert.Net.spmm
  generalize Read.val_main_v97 (F := Ideal) x0 x1 x2 x3 x4 x5 x6 x7 x8 x9 x10 x11 x12 x13 x14 x15 x16 x17 x18 x19 = z
  rw [gather_eq, scatter_eq]

/-- The reference's third layer. -/
theorem layer3 : Read.val_main_v112 (F := Ideal) x0 x1 x2 x3 x4 x5 x6 x7 x8 x9 x10 x11 x12 x13 x14 x15 x16 x17 x18 x19 x20 = Cert.Net.layer (Read.val_main_v110 (F := Ideal) x0 x1 x2 x3 x4 x5 x6 x7 x8 x9 x10 x11 x12 x13 x14 x15 x16 x17 x18 x19) x20 := by
  unfold Read.val_main_v112 Read.val_main_v111
  exact tanh_dot_last _ x20

/-- The reference's result is the three layers applied to its first stage's result. -/
theorem ref_net : Read.val_main_v112 (F := Ideal) x0 x1 x2 x3 x4 x5 x6 x7 x8 x9 x10 x11 x12 x13 x14 x15 x16 x17 x18 x19 x20
    = Cert.Net.net3 x9 x10 x11 x18 x19 x20 (Read.val_main_v67 (F := Ideal) x0 x1 x2 x3 x4 x5 x6 x7 x8 x12 x13 x14 x15 x16 x17) := by
  rw [layer3, spmm3, layer2, spmm2, layer1, spmm1]
  rfl

end Cert.ReferenceIdeal.NetRef

end
-- ==== Proof.GateLaw.lean ====
/- Laws of the extended reals used to compare two spellings of a gated mean:
   a nonnegative real factor distributes over any finite sum, the logistic function
   only takes nonnegative real values, division by a nonzero real literal is the
   product with its reciprocal, and the float literals 1, 3 and 256. -/
import Idealize.ShloMosaic.PureOps.Ideal

noncomputable section

namespace Cert.GateLaw

open Idealize.ShloMosaic
open scoped BigOperators

/-- The float literal `1.0` denotes `1`. -/
theorem ofBits_one : Ideal.ofBits .f32 0x3F800000#32 = 1 := by
  simp [Ideal.ofBits, Ideal.ieee, -EReal.coe_mul]; norm_num

/-- The float literal `3.0` denotes the real `3`. -/
theorem ofBits_three : Ideal.ofBits .f32 0x40400000#32 = ((3 : ℝ) : EReal) := by
  simp [Ideal.ofBits, Ideal.ieee, -EReal.coe_mul]; norm_num

/-- The float literal `256.0` denotes the real `256`. -/
theorem ofBits_256 : Ideal.ofBits .f32 0x43800000#32 = ((256 : ℝ) : EReal) := by
  simp [Ideal.ofBits, Ideal.ieee, -EReal.coe_mul]; norm_num

/-- The float literal `0.0` denotes `0`. -/
theorem ofBits_zero : Ideal.ofBits .f32 0#32 = 0 := by
  simp [Ideal.ofBits, Ideal.ieee]

/-- A nonnegative real factor distributes over a finite sum of extended reals;
    nothing is asked of the terms. -/
theorem sum_mul_coe {ι : Type*} (s : Finset ι) (f : ι → EReal) {w : ℝ} (hw : 0 ≤ w) :
    ∑ k ∈ s, f k * (w : EReal) = (∑ k ∈ s, f k) * (w : EReal) := by
  classical
  induction s using Finset.induction_on with
  | empty => simp
  | insert a s ha ih =>
    rw [Finset.sum_insert ha, Finset.sum_insert ha, ih,
      EReal.right_distrib_of_nonneg_of_ne_top (by exact_mod_cast hw) (EReal.coe_ne_top w)]

/-- The same, with the factor on the left. -/
theorem sum_coe_mul {ι : Type*} (s : Finset ι) (f : ι → EReal) {w : ℝ} (hw : 0 ≤ w) :
    ∑ k ∈ s, (w : EReal) * f k = (w : EReal) * ∑ k ∈ s, f k := by
  rw [mul_comm, ← sum_mul_coe s f hw]
  exact Finset.sum_congr rfl fun k _ => mul_comm _ _

/-- The logistic function takes nonnegative real values only, at the infinities too. -/
theorem logistic_eq_coe (x : EReal) : ∃ r : ℝ, 0 ≤ r ∧ Ideal.logistic x = (r : EReal) := by
  induction x using EReal.rec with
  | bot => exact ⟨0, le_refl 0, by rw [Ideal.logistic_bot]; rfl⟩
  | coe r => exact ⟨(1 + Real.exp (-r))⁻¹, by positivity, Ideal.logistic_coe r⟩
  | top => exact ⟨1, zero_le_one, by rw [Ideal.logistic_top]; rfl⟩

/-- The logistic function spelt with negation, exponential, sum and quotient. -/
theorem logistic_spelt (x : EReal) : Ideal.div 1 (1 + Ideal.exp (-x)) = Ideal.logistic x := rfl

/-- Division by `256` is the product with the real `1/256`. -/
theorem div_256 (x : EReal) : Ideal.div x ((256 : ℝ) : EReal) = x * ((1 / 256 : ℝ) : EReal) :=
  Ideal.div_coe (by norm_num) x

/-- Division by `3` is the product with the real `1/3`. -/
theorem div_3 (x : EReal) : Ideal.div x ((3 : ℝ) : EReal) = x * ((1 / 3 : ℝ) : EReal) :=
  Ideal.div_coe (by norm_num) x

/-- A mean of gated terms is the gated mean: the gate is a logistic value, the
    mean a sum divided by a positive real. -/
theorem sum_mul_logistic_mul_coe {ι : Type*} (s : Finset ι) (f : ι → EReal) (x : EReal) {c : ℝ}
    (hc : 0 ≤ c) :
    (∑ k ∈ s, f k * Ideal.logistic x) * (c : EReal)
      = Ideal.logistic x * ((∑ k ∈ s, f k) * (c : EReal)) := by
  obtain ⟨r, hr, h⟩ := logistic_eq_coe x
  rw [h, sum_mul_coe s f hr, mul_comm _ (r : EReal), mul_assoc]

/-- The mean over 256 terms, each multiplied by one logistic value, is that value times the
    mean; the division is by the float literal `256.0`. -/
theorem mean256_gate (f : Fin 256 → EReal) (x : EReal) :
    Ideal.div (∑ k : Fin 256, f k * Ideal.logistic x) (Ideal.ofBits .f32 0x43800000#32)
      = Ideal.logistic x * Ideal.div (∑ k : Fin 256, f k) (Ideal.ofBits .f32 0x43800000#32) := by
  rw [ofBits_256, div_256, div_256]
  exact sum_mul_logistic_mul_coe Finset.univ f x (by norm_num)

/-- The mean of three terms, each multiplied by one logistic value, is that value times a
    third of their sum; the division is by the float literal `3.0`. -/
theorem mean3_gate (a b c x : EReal) :
    Ideal.div (a * Ideal.logistic x + b * Ideal.logistic x + c * Ideal.logistic x)
        (Ideal.ofBits .f32 0x40400000#32)
      = Ideal.logistic x * ((a + b + c) * ((1 / 3 : ℝ) : EReal)) := by
  have h := sum_mul_logistic_mul_coe (Finset.univ : Finset (Fin 3)) ![a, b, c] x
    (c := 1 / 3) (by norm_num)
  rw [Fin.sum_univ_three, Fin.sum_univ_three] at h
  rw [ofBits_three, div_3]
  exact h

/-- A third of the sum of three terms, the division by the float literal `3.0`. -/
theorem mean3 (a b c : EReal) :
    Ideal.div (a + b + c) (Ideal.ofBits .f32 0x40400000#32) = (a + b + c) * ((1 / 3 : ℝ) : EReal) := by
  rw [ofBits_three, div_3]

end Cert.GateLaw

end
-- ==== Proof.RefGateBase.lean ====
/- Reading, one row at a time: a host matrix product, a clamp at zero, the two together
   (a two-layer map), the logistic function spelt with negation, exponential, sum and
   quotient, three arrays stacked along a new axis, and two arrays laid end to end. -/
import Idealize.ShloMosaic.Lib.Pipeline.Value
import proofs.«126801_j83811991814568_1_alg».proof.Proof.Spec
import proofs.«126801_j83811991814568_1_alg».proof.Proof.LibDot
import proofs.«126801_j83811991814568_1_alg».proof.Proof.GateLaw

noncomputable section

namespace Cert.RefGate

open Idealize.ShloMosaic Idealize.ShloMosaic.ValueIdx Cert.Net
open scoped BigOperators

/-- Row p of the host's plain matrix product is row p of the left factor times the right factor. -/
theorem dot_row {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision) (l : Mat A K) (r : Mat K B) (p : Fin A) :
    row (Host.dotGeneral (F := Ideal) d prec l r) p = rdot (row l p) r :=
  funext fun q => Cert.LibDot.dotGeneral_ix2 d hr hs hl0 hl1 hr0 hr1 prec l r p q

/-- Row p of the entrywise maximum with an array of zeros is the clamped row p. -/
theorem relu_row {A K : ℕ} (a z : Mat A K) (hz : ∀ i, z i = Ideal.ofBits .f32 0x00000000#32) (p : Fin A) :
    row (maximumf a z) p = rrelu (row a p) := by
  funext k
  show max (a (ix2 p k)) (z (ix2 p k)) = max (a (ix2 p k)) 0
  rw [hz, Cert.GateLaw.ofBits_zero]

/-- Row p of a product, clamped at zero, times a second matrix. -/
theorem mlp_row {A K H B : ℕ}
    (d1 : DotDims (⟨2, ![A, K]⟩ : Shape) (⟨2, ![K, H]⟩ : Shape) (⟨2, ![A, H]⟩ : Shape))
    (d2 : DotDims (⟨2, ![A, H]⟩ : Shape) (⟨2, ![H, B]⟩ : Shape) (⟨2, ![A, B]⟩ : Shape))
    (hr : d1.contr.rank = 1) (hs : d1.contr.size ⟨0, by omega⟩ = K)
    (hl0 : ∀ i q, (d1.lhsIdx i q (0 : Fin 2)).val = (i (0 : Fin 2)).val)
    (hl1 : ∀ i q, (d1.lhsIdx i q (1 : Fin 2)).val = (q ⟨0, by omega⟩).val)
    (hr0 : ∀ i q, (d1.rhsIdx i q (0 : Fin 2)).val = (q ⟨0, by omega⟩).val)
    (hr1 : ∀ i q, (d1.rhsIdx i q (1 : Fin 2)).val = (i (1 : Fin 2)).val)
    (hr' : d2.contr.rank = 1) (hs' : d2.contr.size ⟨0, by omega⟩ = H)
    (hl0' : ∀ i q, (d2.lhsIdx i q (0 : Fin 2)).val = (i (0 : Fin 2)).val)
    (hl1' : ∀ i q, (d2.lhsIdx i q (1 : Fin 2)).val = (q ⟨0, by omega⟩).val)
    (hr0' : ∀ i q, (d2.rhsIdx i q (0 : Fin 2)).val = (q ⟨0, by omega⟩).val)
    (hr1' : ∀ i q, (d2.rhsIdx i q (1 : Fin 2)).val = (i (1 : Fin 2)).val)
    (a : Mat A K) (w1 : Mat K H) (w2 : Mat H B) (z : Mat A H)
    (hz : ∀ i, z i = Ideal.ofBits .f32 0x00000000#32) (p : Fin A) :
    row (Host.dotGeneral (F := Ideal) d2 none (maximumf (Host.dotGeneral (F := Ideal) d1 none a w1) z) w2) p
      = rdot (rrelu (rdot (row a p) w1)) w2 := by
  rw [dot_row d2 hr' hs' hl0' hl1' hr0' hr1', relu_row _ z hz, dot_row d1 hr hs hl0 hl1 hr0 hr1]

/-- One over one plus the exponential of the negation, entry by entry, is the logistic function. -/
theorem logistic_at {s : Shape} (o1 o2 z : FVec Ideal s .f32)
    (h1 : ∀ i, o1 i = Ideal.ofBits .f32 0x3F800000#32) (h2 : ∀ i, o2 i = Ideal.ofBits .f32 0x3F800000#32)
    (i : s.Idx) :
    Host.divf o1 (addf o2 (Host.exp (Host.negf z))) i = Ideal.logistic (z i) := by
  show Ideal.div (o1 i) (o2 i + Ideal.exp (-(z i))) = Ideal.logistic (z i)
  rw [h1, h2, Cert.GateLaw.ofBits_one]
  rfl

/-- A [50000,256] array given a trailing axis of extent one, read at (n, d, z). -/
theorem bc_at {α : Type} (h0 : (⟨2, ![50000, 256]⟩ : Shape).Idx → α)
    (hb : (⟨2, ![50000, 256]⟩ : Shape).BroadcastsInDim (⟨3, ![50000, 256, 1]⟩ : Shape) ![0, 1])
    (n : Fin 50000) (d : Fin 256) (z : Fin 1) :
    broadcastInDim (⟨3, ![50000, 256, 1]⟩ : Shape) ![0, 1] hb h0 (ix3 n d z) = h0 (ix2 n d) :=
  broadcastInDim_apply _ hb h0 _ _ (fun a => by
    match a with
    | ⟨0, _⟩ => rfl
    | ⟨1, _⟩ => rfl)

/-- Three [50000,256] arrays stacked along a new last axis, read at (n, d, v): the v-th array at (n, d). -/
theorem stack3_at {α : Type} (h0 h1 h2 : (⟨2, ![50000, 256]⟩ : Shape).Idx → α)
    (hb : (⟨2, ![50000, 256]⟩ : Shape).BroadcastsInDim (⟨3, ![50000, 256, 1]⟩ : Shape) ![0, 1])
    (hc : Shape.Concatenates [(⟨3, ![50000, 256, 1]⟩ : Shape), ⟨3, ![50000, 256, 1]⟩, ⟨3, ![50000, 256, 1]⟩] ⟨3, ![50000, 256, 3]⟩ 2)
    (n : Fin 50000) (d : Fin 256) (v : Fin 3) :
    concatenate (⟨3, ![50000, 256, 3]⟩ : Shape) 2
      [⟨(⟨3, ![50000, 256, 1]⟩ : Shape), broadcastInDim _ ![0, 1] hb h0⟩,
       ⟨(⟨3, ![50000, 256, 1]⟩ : Shape), broadcastInDim _ ![0, 1] hb h1⟩,
       ⟨(⟨3, ![50000, 256, 1]⟩ : Shape), broadcastInDim _ ![0, 1] hb h2⟩] hc (ix3 n d v)
      = ![h0 (ix2 n d), h1 (ix2 n d), h2 (ix2 n d)] v := by
  match v with
  | ⟨0, hv⟩ =>
    refine (concatenate_apply_piece (t := (⟨3, ![50000, 256, 3]⟩ : Shape)) 2
      [⟨(⟨3, ![50000, 256, 1]⟩ : Shape), broadcastInDim _ ![0, 1] hb h0⟩,
       ⟨(⟨3, ![50000, 256, 1]⟩ : Shape), broadcastInDim _ ![0, 1] hb h1⟩,
       ⟨(⟨3, ![50000, 256, 1]⟩ : Shape), broadcastInDim _ ![0, 1] hb h2⟩] hc (ix3 n d ⟨0, hv⟩) 0 (by simp) _ _ rfl rfl 0 rfl (ix3 n d 0) (fun b hb => ?_) rfl).trans (bc_at h0 _ n d 0)
    match b with
    | ⟨0, _⟩ => rfl
    | ⟨1, _⟩ => rfl
    | ⟨2, _⟩ => exact absurd rfl hb
  | ⟨1, hv⟩ =>
    refine (concatenate_apply_piece (t := (⟨3, ![50000, 256, 3]⟩ : Shape)) 2
      [⟨(⟨3, ![50000, 256, 1]⟩ : Shape), broadcastInDim _ ![0, 1] hb h0⟩,
       ⟨(⟨3, ![50000, 256, 1]⟩ : Shape), broadcastInDim _ ![0, 1] hb h1⟩,
       ⟨(⟨3, ![50000, 256, 1]⟩ : Shape), broadcastInDim _ ![0, 1] hb h2⟩] hc (ix3 n d ⟨1, hv⟩) 1 (by simp) _ _ rfl rfl 1 rfl (ix3 n d 0) (fun b hb => ?_) rfl).trans (bc_at h1 _ n d 0)
    match b with
    | ⟨0, _⟩ => rfl
    | ⟨1, _⟩ => rfl
    | ⟨2, _⟩ => exact absurd rfl hb
  | ⟨2, hv⟩ =>
    refine (concatenate_apply_piece (t := (⟨3, ![50000, 256, 3]⟩ : Shape)) 2
      [⟨(⟨3, ![50000, 256, 1]⟩ : Shape), broadcastInDim _ ![0, 1] hb h0⟩,
       ⟨(⟨3, ![50000, 256, 1]⟩ : Shape), broadcastInDim _ ![0, 1] hb h1⟩,
       ⟨(⟨3, ![50000, 256, 1]⟩ : Shape), broadcastInDim _ ![0, 1] hb h2⟩] hc (ix3 n d ⟨2, hv⟩) 2 (by simp) _ _ rfl rfl 2 rfl (ix3 n d 0) (fun b hb => ?_) rfl).trans (bc_at h2 _ n d 0)
    match b with
    | ⟨0, _⟩ => rfl
    | ⟨1, _⟩ => rfl
    | ⟨2, _⟩ => exact absurd rfl hb

/-- A [50000,3] piece and a [50000,256] piece laid end to end along the second axis, read at
    (n, j): the first piece's row n and the second piece's row n laid end to end, at j. -/
theorem cat_at (u : Mat 50000 3) (w : Mat 50000 256)
    (hc : Shape.Concatenates [(⟨2, ![50000, 3]⟩ : Shape), ⟨2, ![50000, 256]⟩] ⟨2, ![50000, 259]⟩ 1)
    (n : Fin 50000) (j : Fin 259) :
    concatenate (⟨2, ![50000, 259]⟩ : Shape) 1 [⟨(⟨2, ![50000, 3]⟩ : Shape), u⟩, ⟨(⟨2, ![50000, 256]⟩ : Shape), w⟩] hc (ix2 n j)
      = cat3 (row u n) (row w n) j := by
  show _ = if h : j.val < 3 then u (ix2 n ⟨j.val, h⟩) else w (ix2 n ⟨j.val - 3, by have := j.isLt; omega⟩)
  by_cases h : j.val < 3
  · rw [dif_pos h]
    exact concatenate_pair_apply_left 1 u w hc (ix2 n j) rfl (ix2 n ⟨j.val, h⟩) (fun b => by
      match b with
      | ⟨0, _⟩ => rfl
      | ⟨1, _⟩ => rfl)
  · rw [dif_neg h]
    exact concatenate_pair_apply_right 1 u w hc (ix2 n j) rfl rfl (ix2 n ⟨j.val - 3, by have := j.isLt; omega⟩) (fun b hb => by
      match b with
      | ⟨0, _⟩ => rfl
      | ⟨1, _⟩ => exact absurd rfl hb) (by show j.val - 3 + 3 = j.val; omega)

end Cert.RefGate

end
-- ==== Proof.RefGateProj.lean ====
/- The reference's three view projections, one node at a time: row n of each is the
   two-layer projection of row n of that view. -/
import proofs.«126801_j83811991814568_1_alg».proof.Proof.Gen.ReferenceIdeal.Read
import proofs.«126801_j83811991814568_1_alg».proof.Proof.RefGateBase

noncomputable section

namespace Cert.RefGate

open Cert.ReferenceIdeal Cert.ReferenceIdeal.Read Idealize.ShloMosaic Idealize.ShloMosaic.ValueIdx Cert.Net
open scoped BigOperators

variable (x0 : (⟨S50000x1000, .f32⟩ : BufTy).Contents (Elt Ideal)) (x1 : (⟨S50000x800, .f32⟩ : BufTy).Contents (Elt Ideal))
  (x2 : (⟨S50000x600, .f32⟩ : BufTy).Contents (Elt Ideal)) (x3 : (⟨S1000x256, .f32⟩ : BufTy).Contents (Elt Ideal))
  (x4 : (⟨S256x256, .f32⟩ : BufTy).Contents (Elt Ideal)) (x5 : (⟨S800x256, .f32⟩ : BufTy).Contents (Elt Ideal))
  (x6 : (⟨S256x256, .f32⟩ : BufTy).Contents (Elt Ideal)) (x7 : (⟨S600x256, .f32⟩ : BufTy).Contents (Elt Ideal))
  (x8 : (⟨S256x256, .f32⟩ : BufTy).Contents (Elt Ideal)) (x12 : (⟨S3x1, .f32⟩ : BufTy).Contents (Elt Ideal))
  (x13 : (⟨S1x3, .f32⟩ : BufTy).Contents (Elt Ideal)) (x14 : (⟨S256x16, .f32⟩ : BufTy).Contents (Elt Ideal))
  (x15 : (⟨S16x256, .f32⟩ : BufTy).Contents (Elt Ideal)) (x16 : (⟨S259x128, .f32⟩ : BufTy).Contents (Elt Ideal))
  (x17 : (⟨S128x259, .f32⟩ : BufTy).Contents (Elt Ideal)) (n : Fin 50000)

/-- The first view's projection. -/
theorem proj0 :
    row (val_main_v2 (F := Ideal) x0 x3 x4) n = rproj (row x0 n) x3 x4 := by
  unfold val_main_v2 val_main_v1 val_main_v0
  exact mlp_row _ _ rfl rfl lhs_main_v0_0 lhs_main_v0_1 rhs_main_v0_0 rhs_main_v0_1
    rfl rfl lhs_main_v2_0 lhs_main_v2_1 rhs_main_v2_0 rhs_main_v2_1 x0 x3 x4 _
    (fun i => val_main_call0_v0_apply i) n

/-- The second view's projection. -/
theorem proj1 :
    row (val_main_v5 (F := Ideal) x1 x5 x6) n = rproj (row x1 n) x5 x6 := by
  unfold val_main_v5 val_main_v4 val_main_v3
  exact mlp_row _ _ rfl rfl lhs_main_v3_0 lhs_main_v3_1 rhs_main_v3_0 rhs_main_v3_1
    rfl rfl lhs_main_v5_0 lhs_main_v5_1 rhs_main_v5_0 rhs_main_v5_1 x1 x5 x6 _
    (fun i => val_main_call1_v0_apply i) n

/-- The third view's projection. -/
theorem proj2 :
    row (val_main_v8 (F := Ideal) x2 x7 x8) n = rproj (row x2 n) x7 x8 := by
  unfold val_main_v8 val_main_v7 val_main_v6
  exact mlp_row _ _ rfl rfl lhs_main_v6_0 lhs_main_v6_1 rhs_main_v6_0 rhs_main_v6_1
    rfl rfl lhs_main_v8_0 lhs_main_v8_1 rhs_main_v8_0 rhs_main_v8_1 x2 x7 x8 _
    (fun i => val_main_call2_v0_apply i) n

/-- The three projections stacked along a last axis, read at (n, d, v): the v-th projected row of node n at d. -/
theorem stack_at (d : Fin 256) (v : Fin 3) :
    val_main_v12 (F := Ideal) x0 x1 x2 x3 x4 x5 x6 x7 x8 (ix3 n d v)
      = ![rproj (row x0 n) x3 x4 d, rproj (row x1 n) x5 x6 d, rproj (row x2 n) x7 x8 d] v := by
  unfold val_main_v12 val_main_v9 val_main_v10 val_main_v11
  refine (stack3_at _ _ _ _ _ n d v).trans ?_
  rw [← proj0 x0 x3 x4 n, ← proj1 x1 x5 x6 n, ← proj2 x2 x7 x8 n]
  rfl

/-- Node n's view pool: the mean of each projected row. -/
def PV : Fin 3 → EReal :=
  poolView (rproj (row x0 n) x3 x4) (rproj (row x1 n) x5 x6) (rproj (row x2 n) x7 x8)

/-- Node n's feature pool: the mean of the three projected rows, feature by feature. -/
def PF : Fin 256 → EReal :=
  poolFeat (rproj (row x0 n) x3 x4) (rproj (row x1 n) x5 x6) (rproj (row x2 n) x7 x8)

/-- Node n's 259 mixing weights. -/
def MIX : Fin 259 → EReal :=
  rdot (rrelu (rdot (cat3 (gateOf (PV x0 x1 x2 x3 x4 x5 x6 x7 x8 n) x12 x13) (gateOf (PF x0 x1 x2 x3 x4 x5 x6 x7 x8 n) x14 x15)) x16)) x17

end Cert.RefGate

end
-- ==== Proof.RefGatePool.lean ====
/- The reference's two pools, one node at a time. -/
import proofs.«126801_j83811991814568_1_alg».proof.Proof.Gen.ReferenceIdeal.Read
import proofs.«126801_j83811991814568_1_alg».proof.Proof.RefGateProj

noncomputable section

namespace Cert.RefGate

open Cert.ReferenceIdeal Cert.ReferenceIdeal.Read Idealize.ShloMosaic Idealize.ShloMosaic.ValueIdx Cert.Net
open scoped BigOperators

variable (x0 : (⟨S50000x1000, .f32⟩ : BufTy).Contents (Elt Ideal)) (x1 : (⟨S50000x800, .f32⟩ : BufTy).Contents (Elt Ideal))
  (x2 : (⟨S50000x600, .f32⟩ : BufTy).Contents (Elt Ideal)) (x3 : (⟨S1000x256, .f32⟩ : BufTy).Contents (Elt Ideal))
  (x4 : (⟨S256x256, .f32⟩ : BufTy).Contents (Elt Ideal)) (x5 : (⟨S800x256, .f32⟩ : BufTy).Contents (Elt Ideal))
  (x6 : (⟨S256x256, .f32⟩ : BufTy).Contents (Elt Ideal)) (x7 : (⟨S600x256, .f32⟩ : BufTy).Contents (Elt Ideal))
  (x8 : (⟨S256x256, .f32⟩ : BufTy).Contents (Elt Ideal)) (x12 : (⟨S3x1, .f32⟩ : BufTy).Contents (Elt Ideal))
  (x13 : (⟨S1x3, .f32⟩ : BufTy).Contents (Elt Ideal)) (x14 : (⟨S256x16, .f32⟩ : BufTy).Contents (Elt Ideal))
  (x15 : (⟨S16x256, .f32⟩ : BufTy).Contents (Elt Ideal)) (x16 : (⟨S259x128, .f32⟩ : BufTy).Contents (Elt Ideal))
  (x17 : (⟨S128x259, .f32⟩ : BufTy).Contents (Elt Ideal)) (n : Fin 50000)

/-- The view pool: the sum over the 256 features of the stacked projections, divided by 256. -/
theorem poolView_at (v : Fin 3) :
    val_main_v15 (F := Ideal) x0 x1 x2 x3 x4 x5 x6 x7 x8 (ix2 n v) = (PV x0 x1 x2 x3 x4 x5 x6 x7 x8 n) v := by
  rw [val_main_v15_apply, val_main_v13_apply, val_main_v14_apply]
  have hs : ∀ k : Fin 256, val_main_v12 (F := Ideal) x0 x1 x2 x3 x4 x5 x6 x7 x8 (idx_main_v13 (ix2 n v) k)
      = ![rproj (row x0 n) x3 x4 k, rproj (row x1 n) x5 x6 k, rproj (row x2 n) x7 x8 k] v := fun k => by
    have e : idx_main_v13 (ix2 n v) k = ix3 n k v := funext fun a => by
      match a with
      | ⟨0, _⟩ => rfl
      | ⟨1, _⟩ => rfl
      | ⟨2, _⟩ => rfl
    rw [e]
    exact stack_at x0 x1 x2 x3 x4 x5 x6 x7 x8 n k v
  rw [Finset.sum_congr rfl (fun k _ => hs k)]
  show Ideal.div (Ideal.ofBits .f32 0x00000000#32 + _) (Ideal.ofBits .f32 0x43800000#32) = _
  rw [Cert.GateLaw.ofBits_zero, zero_add]
  match v with
  | ⟨0, _⟩ => rfl
  | ⟨1, _⟩ => rfl
  | ⟨2, _⟩ => rfl

/-- Row n of the view pool. -/
theorem poolView_row : row (val_main_v15 (F := Ideal) x0 x1 x2 x3 x4 x5 x6 x7 x8) n = (PV x0 x1 x2 x3 x4 x5 x6 x7 x8 n) :=
  funext fun v => poolView_at x0 x1 x2 x3 x4 x5 x6 x7 x8 n v

/-- The feature pool: the sum over the three views of the stacked projections, divided by 3. -/
theorem poolFeat_at (d : Fin 256) :
    val_main_v18 (F := Ideal) x0 x1 x2 x3 x4 x5 x6 x7 x8 (ix2 n d) = (PF x0 x1 x2 x3 x4 x5 x6 x7 x8 n) d := by
  rw [val_main_v18_apply, val_main_v16_apply, val_main_v17_apply]
  have hs : ∀ v : Fin 3, val_main_v12 (F := Ideal) x0 x1 x2 x3 x4 x5 x6 x7 x8 (idx_main_v16 (ix2 n d) v)
      = ![rproj (row x0 n) x3 x4 d, rproj (row x1 n) x5 x6 d, rproj (row x2 n) x7 x8 d] v := fun v => by
    have e : idx_main_v16 (ix2 n d) v = ix3 n d v := funext fun a => by
      match a with
      | ⟨0, _⟩ => rfl
      | ⟨1, _⟩ => rfl
      | ⟨2, _⟩ => rfl
    rw [e]
    exact stack_at x0 x1 x2 x3 x4 x5 x6 x7 x8 n d v
  rw [Fin.sum_univ_three, hs 0, hs 1, hs 2]
  show Ideal.div (Ideal.ofBits .f32 0x00000000#32 + (rproj (row x0 n) x3 x4 d + rproj (row x1 n) x5 x6 d + rproj (row x2 n) x7 x8 d))
    (Ideal.ofBits .f32 0x40400000#32) = _
  rw [Cert.GateLaw.ofBits_zero, zero_add, Cert.GateLaw.mean3]
  rfl

/-- Row n of the feature pool. -/
theorem poolFeat_row : row (val_main_v18 (F := Ideal) x0 x1 x2 x3 x4 x5 x6 x7 x8) n = (PF x0 x1 x2 x3 x4 x5 x6 x7 x8 n) :=
  funext fun d => poolFeat_at x0 x1 x2 x3 x4 x5 x6 x7 x8 n d

end Cert.RefGate

end
-- ==== Proof.RefGateGates.lean ====
/- The reference's two gates and its 259 mixing weights, one node at a time. -/
import proofs.«126801_j83811991814568_1_alg».proof.Proof.Gen.ReferenceIdeal.Read
import proofs.«126801_j83811991814568_1_alg».proof.Proof.RefGatePool

noncomputable section

namespace Cert.RefGate

open Cert.ReferenceIdeal Cert.ReferenceIdeal.Read Idealize.ShloMosaic Idealize.ShloMosaic.ValueIdx Cert.Net
open scoped BigOperators

variable (x0 : (⟨S50000x1000, .f32⟩ : BufTy).Contents (Elt Ideal)) (x1 : (⟨S50000x800, .f32⟩ : BufTy).Contents (Elt Ideal))
  (x2 : (⟨S50000x600, .f32⟩ : BufTy).Contents (Elt Ideal)) (x3 : (⟨S1000x256, .f32⟩ : BufTy).Contents (Elt Ideal))
  (x4 : (⟨S256x256, .f32⟩ : BufTy).Contents (Elt Ideal)) (x5 : (⟨S800x256, .f32⟩ : BufTy).Contents (Elt Ideal))
  (x6 : (⟨S256x256, .f32⟩ : BufTy).Contents (Elt Ideal)) (x7 : (⟨S600x256, .f32⟩ : BufTy).Contents (Elt Ideal))
  (x8 : (⟨S256x256, .f32⟩ : BufTy).Contents (Elt Ideal)) (x12 : (⟨S3x1, .f32⟩ : BufTy).Contents (Elt Ideal))
  (x13 : (⟨S1x3, .f32⟩ : BufTy).Contents (Elt Ideal)) (x14 : (⟨S256x16, .f32⟩ : BufTy).Contents (Elt Ideal))
  (x15 : (⟨S16x256, .f32⟩ : BufTy).Contents (Elt Ideal)) (x16 : (⟨S259x128, .f32⟩ : BufTy).Contents (Elt Ideal))
  (x17 : (⟨S128x259, .f32⟩ : BufTy).Contents (Elt Ideal)) (n : Fin 50000)

/-- The view gate: the logistic of a two-layer map of the view pool. -/
theorem gateV_at (v : Fin 3) :
    val_main_v27 (F := Ideal) x0 x1 x2 x3 x4 x5 x6 x7 x8 x12 x13 (ix2 n v) = gateOf (PV x0 x1 x2 x3 x4 x5 x6 x7 x8 n) x12 x13 v := by
  unfold val_main_v27 val_main_v25 val_main_v23 val_main_v22
  refine (logistic_at _ _ _ (fun i => val_main_v26_apply i) (fun i => val_main_v24_apply i) _).trans ?_
  have e : row (val_main_v21 (F := Ideal) x0 x1 x2 x3 x4 x5 x6 x7 x8 x12 x13) n = rdot (rrelu (rdot (PV x0 x1 x2 x3 x4 x5 x6 x7 x8 n) x12)) x13 := by
    unfold val_main_v21 val_main_v20 val_main_v19
    rw [mlp_row _ _ rfl rfl lhs_main_v19_0 lhs_main_v19_1 rhs_main_v19_0 rhs_main_v19_1
      rfl rfl lhs_main_v21_0 lhs_main_v21_1 rhs_main_v21_0 rhs_main_v21_1 _ x12 x13 (val_main_call3_v0 (F := Ideal))
      (fun i => val_main_call3_v0_apply i) n, poolView_row]
  exact congrArg Ideal.logistic (congrFun e v)

/-- The feature gate: the logistic of a two-layer map of the feature pool. -/
theorem gateF_at (d : Fin 256) :
    val_main_v36 (F := Ideal) x0 x1 x2 x3 x4 x5 x6 x7 x8 x14 x15 (ix2 n d) = gateOf (PF x0 x1 x2 x3 x4 x5 x6 x7 x8 n) x14 x15 d := by
  unfold val_main_v36 val_main_v34 val_main_v32 val_main_v31
  refine (logistic_at _ _ _ (fun i => val_main_v35_apply i) (fun i => val_main_v33_apply i) _).trans ?_
  have e : row (val_main_v30 (F := Ideal) x0 x1 x2 x3 x4 x5 x6 x7 x8 x14 x15) n = rdot (rrelu (rdot (PF x0 x1 x2 x3 x4 x5 x6 x7 x8 n) x14)) x15 := by
    unfold val_main_v30 val_main_v29 val_main_v28
    rw [mlp_row _ _ rfl rfl lhs_main_v28_0 lhs_main_v28_1 rhs_main_v28_0 rhs_main_v28_1
      rfl rfl lhs_main_v30_0 lhs_main_v30_1 rhs_main_v30_0 rhs_main_v30_1 _ x14 x15 (val_main_call4_v0 (F := Ideal))
      (fun i => val_main_call4_v0_apply i) n, poolFeat_row]
  exact congrArg Ideal.logistic (congrFun e d)

/-- Row n of the two gates laid end to end. -/
theorem catGates_row :
    row (val_main_v37 (F := Ideal) x0 x1 x2 x3 x4 x5 x6 x7 x8 x12 x13 x14 x15) n = cat3 (gateOf (PV x0 x1 x2 x3 x4 x5 x6 x7 x8 n) x12 x13) (gateOf (PF x0 x1 x2 x3 x4 x5 x6 x7 x8 n) x14 x15) := by
  funext j
  show val_main_v37 (F := Ideal) x0 x1 x2 x3 x4 x5 x6 x7 x8 x12 x13 x14 x15 (ix2 n j) = _
  unfold val_main_v37
  refine (cat_at _ _ _ n j).trans ?_
  have e1 : row (val_main_v27 (F := Ideal) x0 x1 x2 x3 x4 x5 x6 x7 x8 x12 x13) n = gateOf (PV x0 x1 x2 x3 x4 x5 x6 x7 x8 n) x12 x13 :=
    funext fun v => gateV_at x0 x1 x2 x3 x4 x5 x6 x7 x8 x12 x13 n v
  have e2 : row (val_main_v36 (F := Ideal) x0 x1 x2 x3 x4 x5 x6 x7 x8 x14 x15) n = gateOf (PF x0 x1 x2 x3 x4 x5 x6 x7 x8 n) x14 x15 :=
    funext fun d => gateF_at x0 x1 x2 x3 x4 x5 x6 x7 x8 x14 x15 n d
  rw [e1, e2]

/-- Row n of the mixing weights: a two-layer map of the joined gates. -/
theorem mix_row : row (val_main_v40 (F := Ideal) x0 x1 x2 x3 x4 x5 x6 x7 x8 x12 x13 x14 x15 x16 x17) n = (MIX x0 x1 x2 x3 x4 x5 x6 x7 x8 x12 x13 x14 x15 x16 x17 n) := by
  unfold val_main_v40 val_main_v39 val_main_v38
  rw [mlp_row _ _ rfl rfl lhs_main_v38_0 lhs_main_v38_1 rhs_main_v38_0 rhs_main_v38_1
      rfl rfl lhs_main_v40_0 lhs_main_v40_1 rhs_main_v40_0 rhs_main_v40_1 _ x16 x17 (val_main_call5_v0 (F := Ideal))
    (fun i => val_main_call5_v0_apply i) n, catGates_row]
  rfl

end Cert.RefGate

end
-- ==== Proof.RefGateOut.lean ====
/- The reference's output of the first stage, one node at a time, and the first stage as
   a whole: it is the row-by-row gate of the specification. -/
import proofs.«126801_j83811991814568_1_alg».proof.Proof.Gen.ReferenceIdeal.Read
import proofs.«126801_j83811991814568_1_alg».proof.Proof.RefGateGates

noncomputable section

namespace Cert.RefGate

open Cert.ReferenceIdeal Cert.ReferenceIdeal.Read Idealize.ShloMosaic Idealize.ShloMosaic.ValueIdx Cert.Net
open scoped BigOperators

variable (x0 : (⟨S50000x1000, .f32⟩ : BufTy).Contents (Elt Ideal)) (x1 : (⟨S50000x800, .f32⟩ : BufTy).Contents (Elt Ideal))
  (x2 : (⟨S50000x600, .f32⟩ : BufTy).Contents (Elt Ideal)) (x3 : (⟨S1000x256, .f32⟩ : BufTy).Contents (Elt Ideal))
  (x4 : (⟨S256x256, .f32⟩ : BufTy).Contents (Elt Ideal)) (x5 : (⟨S800x256, .f32⟩ : BufTy).Contents (Elt Ideal))
  (x6 : (⟨S256x256, .f32⟩ : BufTy).Contents (Elt Ideal)) (x7 : (⟨S600x256, .f32⟩ : BufTy).Contents (Elt Ideal))
  (x8 : (⟨S256x256, .f32⟩ : BufTy).Contents (Elt Ideal)) (x12 : (⟨S3x1, .f32⟩ : BufTy).Contents (Elt Ideal))
  (x13 : (⟨S1x3, .f32⟩ : BufTy).Contents (Elt Ideal)) (x14 : (⟨S256x16, .f32⟩ : BufTy).Contents (Elt Ideal))
  (x15 : (⟨S16x256, .f32⟩ : BufTy).Contents (Elt Ideal)) (x16 : (⟨S259x128, .f32⟩ : BufTy).Contents (Elt Ideal))
  (x17 : (⟨S128x259, .f32⟩ : BufTy).Contents (Elt Ideal)) (n : Fin 50000)

/-- The weight of view v: the logistic of mixing weight v. -/
theorem viewW_at (v : Fin 3) :
    val_main_v47 (F := Ideal) x0 x1 x2 x3 x4 x5 x6 x7 x8 x12 x13 x14 x15 x16 x17 (ix2 n v) = Ideal.logistic ((MIX x0 x1 x2 x3 x4 x5 x6 x7 x8 x12 x13 x14 x15 x16 x17 n) ⟨v.val, by have := v.isLt; omega⟩) := by
  unfold val_main_v47 val_main_v45 val_main_v43 val_main_v42
  refine (logistic_at _ _ _ (fun i => val_main_v46_apply i) (fun i => val_main_v44_apply i) _).trans ?_
  refine congrArg Ideal.logistic ?_
  rw [val_main_v41_apply]
  have e : idx_main_v41 (ix2 n v) = ix2 n (⟨v.val, by have := v.isLt; omega⟩ : Fin 259) := funext fun a => by
    match a with
      | ⟨0, _⟩ => rfl
      | ⟨1, _⟩ => rfl
  exact (congrArg (val_main_v40 (F := Ideal) x0 x1 x2 x3 x4 x5 x6 x7 x8 x12 x13 x14 x15 x16 x17) e).trans (congrFun (mix_row x0 x1 x2 x3 x4 x5 x6 x7 x8 x12 x13 x14 x15 x16 x17 n) _)

/-- The weight of feature d: the logistic of mixing weight d + 3. -/
theorem featW_at (d : Fin 256) :
    val_main_v55 (F := Ideal) x0 x1 x2 x3 x4 x5 x6 x7 x8 x12 x13 x14 x15 x16 x17 (ix2 n d) = Ideal.logistic ((MIX x0 x1 x2 x3 x4 x5 x6 x7 x8 x12 x13 x14 x15 x16 x17 n) ⟨d.val + 3, by have := d.isLt; omega⟩) := by
  unfold val_main_v55 val_main_v53 val_main_v51 val_main_v50
  refine (logistic_at _ _ _ (fun i => val_main_v54_apply i) (fun i => val_main_v52_apply i) _).trans ?_
  refine congrArg Ideal.logistic ?_
  rw [val_main_v49_apply]
  have e : idx_main_v49 (ix2 n d) = ix2 n (⟨d.val + 3, by have := d.isLt; omega⟩ : Fin 259) := funext fun a => by
    match a with
    | ⟨0, _⟩ => rfl
    | ⟨1, _⟩ => exact Fin.ext (Nat.add_comm 3 d.val)
  exact (congrArg (val_main_v40 (F := Ideal) x0 x1 x2 x3 x4 x5 x6 x7 x8 x12 x13 x14 x15 x16 x17) e).trans (congrFun (mix_row x0 x1 x2 x3 x4 x5 x6 x7 x8 x12 x13 x14 x15 x16 x17 n) _)

/-- The first three outputs: the mean over the features of projection times view weight is the
    view weight times the view pool. -/
theorem out1_at (v : Fin 3) :
    val_main_v63 (F := Ideal) x0 x1 x2 x3 x4 x5 x6 x7 x8 x12 x13 x14 x15 x16 x17 (ix2 n v) = Ideal.logistic ((MIX x0 x1 x2 x3 x4 x5 x6 x7 x8 x12 x13 x14 x15 x16 x17 n) ⟨v.val, by have := v.isLt; omega⟩) * (PV x0 x1 x2 x3 x4 x5 x6 x7 x8 n) v := by
  rw [val_main_v63_apply, val_main_v61_apply, val_main_v62_apply]
  have hs : ∀ k : Fin 256, val_main_v58 (F := Ideal) x0 x1 x2 x3 x4 x5 x6 x7 x8 x12 x13 x14 x15 x16 x17 (idx_main_v61 (ix2 n v) k)
      = ![rproj (row x0 n) x3 x4 k, rproj (row x1 n) x5 x6 k, rproj (row x2 n) x7 x8 k] v * Ideal.logistic ((MIX x0 x1 x2 x3 x4 x5 x6 x7 x8 x12 x13 x14 x15 x16 x17 n) ⟨v.val, by have := v.isLt; omega⟩) := fun k => by
    have e : idx_main_v61 (ix2 n v) k = ix3 n k v := funext fun a => by
      match a with
      | ⟨0, _⟩ => rfl
      | ⟨1, _⟩ => rfl
      | ⟨2, _⟩ => rfl
    have e2 : idx_main_v48 (idx_main_v57 (ix3 n k v)) = ix2 n v := funext fun a => by
      match a with
      | ⟨0, _⟩ => rfl
      | ⟨1, _⟩ => rfl
    rw [e, val_main_v58_apply, val_main_v57_apply, val_main_v48_apply, e2, stack_at, viewW_at]
    rfl
  rw [Finset.sum_congr rfl (fun k _ => hs k)]
  show Ideal.div (Ideal.ofBits .f32 0x00000000#32 + _) (Ideal.ofBits .f32 0x43800000#32) = _
  rw [Cert.GateLaw.ofBits_zero, zero_add]
  match v with
  | ⟨0, _⟩ => exact Cert.GateLaw.mean256_gate _ _
  | ⟨1, _⟩ => exact Cert.GateLaw.mean256_gate _ _
  | ⟨2, _⟩ => exact Cert.GateLaw.mean256_gate _ _

/-- The other 256 outputs: the mean over the views of projection times feature weight is the
    feature weight times the feature pool. -/
theorem out2_at (d : Fin 256) :
    val_main_v66 (F := Ideal) x0 x1 x2 x3 x4 x5 x6 x7 x8 x12 x13 x14 x15 x16 x17 (ix2 n d) = Ideal.logistic ((MIX x0 x1 x2 x3 x4 x5 x6 x7 x8 x12 x13 x14 x15 x16 x17 n) ⟨d.val + 3, by have := d.isLt; omega⟩) * (PF x0 x1 x2 x3 x4 x5 x6 x7 x8 n) d := by
  rw [val_main_v66_apply, val_main_v64_apply, val_main_v65_apply]
  have hs : ∀ v : Fin 3, val_main_v60 (F := Ideal) x0 x1 x2 x3 x4 x5 x6 x7 x8 x12 x13 x14 x15 x16 x17 (idx_main_v64 (ix2 n d) v)
      = ![rproj (row x0 n) x3 x4 d, rproj (row x1 n) x5 x6 d, rproj (row x2 n) x7 x8 d] v * Ideal.logistic ((MIX x0 x1 x2 x3 x4 x5 x6 x7 x8 x12 x13 x14 x15 x16 x17 n) ⟨d.val + 3, by have := d.isLt; omega⟩) := fun v => by
    have e : idx_main_v64 (ix2 n d) v = ix3 n d v := funext fun a => by
      match a with
      | ⟨0, _⟩ => rfl
      | ⟨1, _⟩ => rfl
      | ⟨2, _⟩ => rfl
    have e2 : idx_main_v56 (idx_main_v59 (ix3 n d v)) = ix2 n d := funext fun a => by
      match a with
      | ⟨0, _⟩ => rfl
      | ⟨1, _⟩ => rfl
    rw [e, val_main_v60_apply, val_main_v59_apply, val_main_v56_apply, e2, stack_at, featW_at]
    rfl
  rw [Fin.sum_univ_three, hs 0, hs 1, hs 2]
  show Ideal.div (Ideal.ofBits .f32 0x00000000#32 + (rproj (row x0 n) x3 x4 d * Ideal.logistic ((MIX x0 x1 x2 x3 x4 x5 x6 x7 x8 x12 x13 x14 x15 x16 x17 n) ⟨d.val + 3, by have := d.isLt; omega⟩) + rproj (row x1 n) x5 x6 d * Ideal.logistic ((MIX x0 x1 x2 x3 x4 x5 x6 x7 x8 x12 x13 x14 x15 x16 x17 n) ⟨d.val + 3, by have := d.isLt; omega⟩) + rproj (row x2 n) x7 x8 d * Ideal.logistic ((MIX x0 x1 x2 x3 x4 x5 x6 x7 x8 x12 x13 x14 x15 x16 x17 n) ⟨d.val + 3, by have := d.isLt; omega⟩)))
    (Ideal.ofBits .f32 0x40400000#32) = _
  rw [Cert.GateLaw.ofBits_zero, zero_add, Cert.GateLaw.mean3_gate]
  rfl

/-- The reference's first stage is the specification's gate, row by row. -/
theorem ref_gate (x0 : (⟨S50000x1000, .f32⟩ : BufTy).Contents (Elt Ideal)) (x1 : (⟨S50000x800, .f32⟩ : BufTy).Contents (Elt Ideal))
    (x2 : (⟨S50000x600, .f32⟩ : BufTy).Contents (Elt Ideal)) (x3 : (⟨S1000x256, .f32⟩ : BufTy).Contents (Elt Ideal))
    (x4 : (⟨S256x256, .f32⟩ : BufTy).Contents (Elt Ideal)) (x5 : (⟨S800x256, .f32⟩ : BufTy).Contents (Elt Ideal))
    (x6 : (⟨S256x256, .f32⟩ : BufTy).Contents (Elt Ideal)) (x7 : (⟨S600x256, .f32⟩ : BufTy).Contents (Elt Ideal))
    (x8 : (⟨S256x256, .f32⟩ : BufTy).Contents (Elt Ideal)) (x12 : (⟨S3x1, .f32⟩ : BufTy).Contents (Elt Ideal))
    (x13 : (⟨S1x3, .f32⟩ : BufTy).Contents (Elt Ideal)) (x14 : (⟨S256x16, .f32⟩ : BufTy).Contents (Elt Ideal))
    (x15 : (⟨S16x256, .f32⟩ : BufTy).Contents (Elt Ideal)) (x16 : (⟨S259x128, .f32⟩ : BufTy).Contents (Elt Ideal))
    (x17 : (⟨S128x259, .f32⟩ : BufTy).Contents (Elt Ideal)) :
    val_main_v67 (F := Ideal) x0 x1 x2 x3 x4 x5 x6 x7 x8 x12 x13 x14 x15 x16 x17
      = Cert.Net.gate ⟨x3, x4, x5, x6, x7, x8, x12, x13, x14, x15, x16, x17⟩ x0 x1 x2 := by
  funext i
  obtain ⟨n, j, rfl⟩ : ∃ (n : Fin 50000) (j : Fin 259), i = ix2 n j := ⟨i 0, i 1, eq_ix2 i⟩
  unfold val_main_v67
  refine (cat_at _ _ _ n j).trans ?_
  have e1 : row (val_main_v63 (F := Ideal) x0 x1 x2 x3 x4 x5 x6 x7 x8 x12 x13 x14 x15 x16 x17) n
      = fun v : Fin 3 => Ideal.logistic ((MIX x0 x1 x2 x3 x4 x5 x6 x7 x8 x12 x13 x14 x15 x16 x17 n) ⟨v.val, by have := v.isLt; omega⟩) * (PV x0 x1 x2 x3 x4 x5 x6 x7 x8 n) v :=
    funext fun v => out1_at x0 x1 x2 x3 x4 x5 x6 x7 x8 x12 x13 x14 x15 x16 x17 n v
  have e2 : row (val_main_v66 (F := Ideal) x0 x1 x2 x3 x4 x5 x6 x7 x8 x12 x13 x14 x15 x16 x17) n
      = fun d : Fin 256 => Ideal.logistic ((MIX x0 x1 x2 x3 x4 x5 x6 x7 x8 x12 x13 x14 x15 x16 x17 n) ⟨d.val + 3, by have := d.isLt; omega⟩) * (PF x0 x1 x2 x3 x4 x5 x6 x7 x8 n) d :=
    funext fun d => out2_at x0 x1 x2 x3 x4 x5 x6 x7 x8 x12 x13 x14 x15 x16 x17 n d
  rw [e1, e2]
  rfl

end Cert.RefGate

end
-- ==== Proof.LibPlainDims.lean ====
/-
  The dimension record of a plain matrix product: an A by K matrix times a K by B matrix, the left operand
  contracted on its second axis and the right on its first, no batch axes. Whatever record spells this pattern,
  its contraction index has one coordinate of extent K, the left operand is read at (row, k) and the right at
  (k, column). These are the six facts the entry-wise readings of a product ask for.
-/
import Idealize.ShloMosaic.PureOps.Dims
import Idealize.ShloMosaic.Lib.ValueIdx

namespace Cert.LibPlainDims

open Idealize.ShloMosaic Idealize.ShloMosaic.ValueIdx

/-- The coordinate facts of a plain product's dimension record. -/
structure PlainFacts {A K B : ℕ} (d : DotDims (⟨2, ![A, K]⟩ : Shape) (⟨2, ![K, B]⟩ : Shape) (⟨2, ![A, B]⟩ : Shape)) : Prop where
  rank : d.contr.rank = 1
  size : d.contr.size ⟨0, by omega⟩ = K
  l0 : ∀ i q, (d.lhsIdx i q (0 : Fin 2)).val = (i (0 : Fin 2)).val
  l1 : ∀ i q, (d.lhsIdx i q (1 : Fin 2)).val = (q ⟨0, by omega⟩).val
  r0 : ∀ i q, (d.rhsIdx i q (0 : Fin 2)).val = (q ⟨0, by omega⟩).val
  r1 : ∀ i q, (d.rhsIdx i q (1 : Fin 2)).val = (i (1 : Fin 2)).val

/-- Any record with the plain pattern's six lists has the coordinate facts. -/
theorem plainFacts {A K B : ℕ} (d : DotDims (⟨2, ![A, K]⟩ : Shape) (⟨2, ![K, B]⟩ : Shape) (⟨2, ![A, B]⟩ : Shape))
    (hlc : d.lhsContracting = [1]) (hrc : d.rhsContracting = [0]) (hln : d.lhsNonContracting = [0])
    (hrn : d.rhsNonContracting = [1]) (hlb : d.lhsBatch = []) (hrb : d.rhsBatch = []) : PlainFacts d := by
  obtain ⟨lc, rc, ln, rn, lb, rb, wf⟩ := d
  simp only at hlc hrc hln hrn hlb hrb
  subst hlc hrc hln hrn hlb hrb
  refine ⟨rfl, rfl, ?_, ?_, ?_, ?_⟩
  · intro i q
    unfold DotDims.lhsIdx
    rw [dif_neg (show ¬ (0 : Fin (⟨2, ![A, K]⟩ : Shape).rank) ∈ (DotDims.mk (so := (⟨2, ![A, B]⟩ : Shape)) [1] [0] [0] [1] [] [] wf).lhsBatch from List.not_mem_nil),
      dif_pos (show (0 : Fin (⟨2, ![A, K]⟩ : Shape).rank) ∈ (DotDims.mk (so := (⟨2, ![A, B]⟩ : Shape)) [1] [0] [0] [1] [] [] wf).lhsNonContracting from List.mem_singleton.mpr rfl)]
    rfl
  · intro i q
    exact DotDims.lhsIdx_val_of_single _ rfl i q
  · intro i q
    exact DotDims.rhsIdx_val_of_single _ rfl i q
  · intro i q
    unfold DotDims.rhsIdx
    rw [dif_neg (show ¬ (1 : Fin (⟨2, ![K, B]⟩ : Shape).rank) ∈ (DotDims.mk (sl := (⟨2, ![A, K]⟩ : Shape)) (so := (⟨2, ![A, B]⟩ : Shape)) [1] [0] [0] [1] [] [] wf).rhsBatch from List.not_mem_nil),
      dif_pos (show (1 : Fin (⟨2, ![K, B]⟩ : Shape).rank) ∈ (DotDims.mk (sl := (⟨2, ![A, K]⟩ : Shape)) (so := (⟨2, ![A, B]⟩ : Shape)) [1] [0] [0] [1] [] [] wf).rhsNonContracting from List.mem_singleton.mpr rfl)]
    rfl

end Cert.LibPlainDims
-- ==== Proof.KRow.lean ====
/-
  Products of the kernel, read one row at a time.

  Over the extended reals a product accumulated into zero is the plain sum over the contracted axis, and rounding
  a factor to a narrower float format changes nothing; so entry (p, q) of a product is row p of the left factor
  times the right factor, at q. Clamping below at zero acts entry by entry. Chaining these reads a two-layer
  network (product, clamp, product) at an entry as a function of ONE row of its input.
-/
import Idealize.ShloMosaic.PureOps.Ideal.Laws
import Idealize.ShloMosaic.Lib.ValueIdx
import proofs.«126801_j83811991814568_1_alg».proof.Proof.Spec
import proofs.«126801_j83811991814568_1_alg».proof.Proof.LibPlainDims
import proofs.«126801_j83811991814568_1_alg».proof.Proof.LibMatmul
import proofs.«126801_j83811991814568_1_alg».proof.Proof.LibLayerProduct

noncomputable section

namespace Cert.Net

open Idealize.ShloMosaic Idealize.ShloMosaic.ValueIdx Cert.LibPlainDims

/-- Both factors rounded, multiplied into zero: entry (p, q) is row p of the left factor times the right factor. -/
theorem matmul_bf16_row {A K B : ℕ}
    (d : DotDims (⟨2, ![A, K]⟩ : Shape) (⟨2, ![K, B]⟩ : Shape) (⟨2, ![A, B]⟩ : Shape)) (f : PlainFacts d)
    (h16 : FTy.bf16.bits < FTy.f32.bits) (x : Mat A K) (w : Mat K B) (p : Fin A) (q : Fin B) :
    FloatOps.matmul d none (truncf .bf16 x h16) (truncf .bf16 w h16)
        (constant (F := Ideal) (⟨2, ![A, B]⟩ : Shape) .f32 0x00000000#32) (ix2 p q)
      = rdot (row x p) w q :=
  Cert.Layer.matmul_trunc_apply d f.rank f.size f.l0 f.l1 f.r0 f.r1 h16 x w p q

/-- The same with neither factor rounded. -/
theorem matmul_f32_row {A K B : ℕ}
    (d : DotDims (⟨2, ![A, K]⟩ : Shape) (⟨2, ![K, B]⟩ : Shape) (⟨2, ![A, B]⟩ : Shape)) (f : PlainFacts d)
    (x : Mat A K) (w : Mat K B) (p : Fin A) (q : Fin B) :
    FloatOps.matmul d none x w (constant (F := Ideal) (⟨2, ![A, B]⟩ : Shape) .f32 0x00000000#32) (ix2 p q)
      = rdot (row x p) w q :=
  Cert.LibMatmul.matmul_zero_ix2 d f.rank f.size f.l0 f.l1 f.r0 f.r1 none x w p q

/-- The maximum with a zero splat is the clamp, entry by entry. -/
theorem maximumf_zero_apply {s : Shape} (y : FVec Ideal s .f32) (i : s.Idx) :
    maximumf y (broadcast s (Scalar.ofBits (F := Ideal) .f32 0x00000000#32)) i = max (y i) 0 := by
  show max (y i) (Ideal.ofBits .f32 0x00000000#32) = _
  rw [Ideal.ofBits_zero_f32]

/-- A clamped array's row is the clamp of the row. -/
theorem row_maximumf_zero {A K : ℕ} (y : Mat A K) (p : Fin A) :
    row (maximumf y (broadcast (⟨2, ![A, K]⟩ : Shape) (Scalar.ofBits (F := Ideal) .f32 0x00000000#32))) p = rrelu (row y p) :=
  funext fun k => maximumf_zero_apply y (ix2 p k)

/-- Product, clamp, product, every factor rounded: at (p, q) a function of row p of the input. -/
theorem twoLayer_bf16_row {A D H B : ℕ}
    (d1 : DotDims (⟨2, ![A, D]⟩ : Shape) (⟨2, ![D, H]⟩ : Shape) (⟨2, ![A, H]⟩ : Shape)) (f1 : PlainFacts d1)
    (d2 : DotDims (⟨2, ![A, H]⟩ : Shape) (⟨2, ![H, B]⟩ : Shape) (⟨2, ![A, B]⟩ : Shape)) (f2 : PlainFacts d2)
    (h16 : FTy.bf16.bits < FTy.f32.bits) (x : Mat A D) (w1 : Mat D H) (w2 : Mat H B) (p : Fin A) (q : Fin B) :
    FloatOps.matmul d2 none
        (truncf .bf16 (maximumf (FloatOps.matmul d1 none (truncf .bf16 x h16) (truncf .bf16 w1 h16)
            (constant (F := Ideal) (⟨2, ![A, H]⟩ : Shape) .f32 0x00000000#32))
          (broadcast (⟨2, ![A, H]⟩ : Shape) (Scalar.ofBits (F := Ideal) .f32 0x00000000#32))) h16)
        (truncf .bf16 w2 h16) (constant (F := Ideal) (⟨2, ![A, B]⟩ : Shape) .f32 0x00000000#32) (ix2 p q)
      = rdot (rrelu (rdot (row x p) w1)) w2 q := by
  refine (matmul_bf16_row d2 f2 h16 _ w2 p q).trans ?_
  refine congrArg (fun r => rdot r w2 q) ?_
  refine (row_maximumf_zero _ p).trans (congrArg rrelu ?_)
  exact funext fun k => matmul_bf16_row d1 f1 h16 x w1 p k

/-- The same with no factor rounded. -/
theorem twoLayer_f32_row {A D H B : ℕ}
    (d1 : DotDims (⟨2, ![A, D]⟩ : Shape) (⟨2, ![D, H]⟩ : Shape) (⟨2, ![A, H]⟩ : Shape)) (f1 : PlainFacts d1)
    (d2 : DotDims (⟨2, ![A, H]⟩ : Shape) (⟨2, ![H, B]⟩ : Shape) (⟨2, ![A, B]⟩ : Shape)) (f2 : PlainFacts d2)
    (x : Mat A D) (w1 : Mat D H) (w2 : Mat H B) (p : Fin A) (q : Fin B) :
    FloatOps.matmul d2 none
        (maximumf (FloatOps.matmul d1 none x w1 (constant (F := Ideal) (⟨2, ![A, H]⟩ : Shape) .f32 0x00000000#32))
          (broadcast (⟨2, ![A, H]⟩ : Shape) (Scalar.ofBits (F := Ideal) .f32 0x00000000#32)))
        w2 (constant (F := Ideal) (⟨2, ![A, B]⟩ : Shape) .f32 0x00000000#32) (ix2 p q)
      = rdot (rrelu (rdot (row x p) w1)) w2 q := by
  refine (matmul_f32_row d2 f2 _ w2 p q).trans ?_
  refine congrArg (fun r => rdot r w2 q) ?_
  refine (row_maximumf_zero _ p).trans (congrArg rrelu ?_)
  exact funext fun k => matmul_f32_row d1 f1 x w1 p k

end Cert.Net

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibCat.lean ====
/-
  Columns laid side by side, read at an entry.

  Three columns of A numbers joined along the second axis give an A by 3 array whose entry (p, v) is the entry p
  of column v. An A by 3 array and an A by 256 array joined along the second axis give an A by 259 array whose
  entry (p, j) is the first array's (p, j) for j < 3 and the second's (p, j - 3) otherwise.
-/
import Idealize.ShloMosaic.Lib.Pipeline.Value
import Idealize.ShloMosaic.Lib.ValueIdx

namespace Cert.LibCat

open Idealize.ShloMosaic Idealize.ShloMosaic.ValueIdx

variable {α : Type}

/-- Three A by 1 columns joined along the second axis, at (p, v): column v at (p, 0). -/
theorem cols3_apply {A : ℕ} (x0 x1 x2 : (⟨2, ![A, 1]⟩ : Shape).Idx → α)
    (h : Shape.Concatenates [(⟨2, ![A, 1]⟩ : Shape), ⟨2, ![A, 1]⟩, ⟨2, ![A, 1]⟩] ⟨2, ![A, 3]⟩ 1) (p : Fin A) (v : Fin 3) :
    concatenate (⟨2, ![A, 3]⟩ : Shape) 1 [⟨⟨2, ![A, 1]⟩, x0⟩, ⟨⟨2, ![A, 1]⟩, x1⟩, ⟨⟨2, ![A, 1]⟩, x2⟩] h (ix2 p v)
      = ![x0 (ix2 p (0 : Fin 1)), x1 (ix2 p (0 : Fin 1)), x2 (ix2 p (0 : Fin 1))] v := by
  have hi : ∀ b : Fin (⟨2, ![A, 1]⟩ : Shape).rank, b.cast (rfl : (⟨2, ![A, 1]⟩ : Shape).rank = (⟨2, ![A, 3]⟩ : Shape).rank) ≠ (1 : Fin 2) →
      ((ix2 p (0 : Fin 1) : (⟨2, ![A, 1]⟩ : Shape).Idx) b).val = ((ix2 p v : (⟨2, ![A, 3]⟩ : Shape).Idx) (b.cast rfl)).val := by
    intro b hb
    match b with
    | ⟨0, _⟩ => rfl
    | ⟨1, _⟩ => exact absurd rfl hb
  match v with
  | ⟨0, _⟩ =>
    exact concatenate_apply_piece (t := (⟨2, ![A, 3]⟩ : Shape)) (1 : Fin 2) ([⟨⟨2, ![A, 1]⟩, x0⟩, ⟨⟨2, ![A, 1]⟩, x1⟩, ⟨⟨2, ![A, 1]⟩, x2⟩] : List ((s : Shape) × (s.Idx → α))) h (ix2 p _) 0 (show 0 < 3 by omega) ⟨2, ![A, 1]⟩ x0 rfl rfl 0 rfl (ix2 p (0 : Fin 1)) hi rfl
  | ⟨1, _⟩ =>
    exact concatenate_apply_piece (t := (⟨2, ![A, 3]⟩ : Shape)) (1 : Fin 2) ([⟨⟨2, ![A, 1]⟩, x0⟩, ⟨⟨2, ![A, 1]⟩, x1⟩, ⟨⟨2, ![A, 1]⟩, x2⟩] : List ((s : Shape) × (s.Idx → α))) h (ix2 p _) 1 (show 1 < 3 by omega) ⟨2, ![A, 1]⟩ x1 rfl rfl 1 rfl (ix2 p (0 : Fin 1)) hi rfl
  | ⟨2, _⟩ =>
    exact concatenate_apply_piece (t := (⟨2, ![A, 3]⟩ : Shape)) (1 : Fin 2) ([⟨⟨2, ![A, 1]⟩, x0⟩, ⟨⟨2, ![A, 1]⟩, x1⟩, ⟨⟨2, ![A, 1]⟩, x2⟩] : List ((s : Shape) × (s.Idx → α))) h (ix2 p _) 2 (show 2 < 3 by omega) ⟨2, ![A, 1]⟩ x2 rfl rfl 2 rfl (ix2 p (0 : Fin 1)) hi rfl

/-- An A by 3 and an A by 256 array joined along the second axis, at (p, j). -/
theorem pair_3_256_apply {A : ℕ} (u : (⟨2, ![A, 3]⟩ : Shape).Idx → α) (w : (⟨2, ![A, 256]⟩ : Shape).Idx → α)
    (h : Shape.Concatenates [(⟨2, ![A, 3]⟩ : Shape), ⟨2, ![A, 256]⟩] ⟨2, ![A, 259]⟩ 1) (p : Fin A) (j : Fin 259) :
    concatenate (⟨2, ![A, 259]⟩ : Shape) 1 [⟨⟨2, ![A, 3]⟩, u⟩, ⟨⟨2, ![A, 256]⟩, w⟩] h (ix2 p j)
      = if hj : j.val < 3 then u (ix2 p ⟨j.val, hj⟩) else w (ix2 p ⟨j.val - 3, by have := j.isLt; omega⟩) := by
  split
  · rename_i hj
    refine concatenate_pair_apply_left (1 : Fin 2) u w h (ix2 p j) rfl (ix2 p ⟨j.val, hj⟩) fun b => ?_
    match b with
    | ⟨0, _⟩ => rfl
    | ⟨1, _⟩ => rfl
  · rename_i hj
    refine concatenate_pair_apply_right (1 : Fin 2) u w h (ix2 p j) rfl rfl (ix2 p ⟨j.val - 3, by have := j.isLt; omega⟩) (fun b hb => ?_) ?_
    · match b with
      | ⟨0, _⟩ => rfl
      | ⟨1, _⟩ => exact absurd rfl hb
    · show j.val - 3 + 3 = j.val
      omega

end Cert.LibCat
-- ==== Proof.KGate.lean ====
/-
  The first-stage kernel's stored value, read at an entry.

  The body works on a tile of 1000 nodes. Every operation in it is row-wise: a product reads one row of its left
  factor, a row sum reads one row, and the joins, slices and entry-wise operations keep the row. So entry (p, q) of
  the stored tile is the specification's row function of row p of each of the three view tiles.
-/
import proofs.«126801_j83811991814568_1_alg».proof.Proof.Gen.KernelIdeal.Skeleton
import Idealize.ShloMosaic.PureOps.IdealRules
import Idealize.ShloMosaic.PureOps.Ideal.Laws
import Idealize.ShloMosaic.Lib.Pipeline.Value
import Idealize.ShloMosaic.Lib.ValueIdx
import proofs.«126801_j83811991814568_1_alg».proof.Proof.KRow
import proofs.«126801_j83811991814568_1_alg».proof.Proof.LibKeepdims
import proofs.«126801_j83811991814568_1_alg».proof.Proof.LibCat

noncomputable section

namespace Cert.KernelIdeal.GateBody

open Idealize.ShloMosaic Idealize.ShloMosaic.ValueIdx Cert.KernelIdeal Cert.KernelIdeal.Gen
open Cert.Net Cert.LibPlainDims

/-! ## The products' dimension records are plain -/

theorem pf_x0 : PlainFacts dot_S1000x1000_S1000x256_S1000x256_1_0_0_1_n_n := plainFacts _ rfl rfl rfl rfl rfl rfl
theorem pf_x1 : PlainFacts dot_S1000x800_S800x256_S1000x256_1_0_0_1_n_n := plainFacts _ rfl rfl rfl rfl rfl rfl
theorem pf_x2 : PlainFacts dot_S1000x600_S600x256_S1000x256_1_0_0_1_n_n := plainFacts _ rfl rfl rfl rfl rfl rfl
theorem pf_h : PlainFacts dot_S1000x256_S256x256_S1000x256_1_0_0_1_n_n := plainFacts _ rfl rfl rfl rfl rfl rfl
theorem pf_v1 : PlainFacts dot_S1000x3_S3x1_S1000x1_1_0_0_1_n_n := plainFacts _ rfl rfl rfl rfl rfl rfl
theorem pf_v2 : PlainFacts dot_S1000x1_S1x3_S1000x3_1_0_0_1_n_n := plainFacts _ rfl rfl rfl rfl rfl rfl
theorem pf_f1 : PlainFacts dot_S1000x256_S256x16_S1000x16_1_0_0_1_n_n := plainFacts _ rfl rfl rfl rfl rfl rfl
theorem pf_f2 : PlainFacts dot_S1000x16_S16x256_S1000x256_1_0_0_1_n_n := plainFacts _ rfl rfl rfl rfl rfl rfl
theorem pf_m1 : PlainFacts dot_S1000x259_S259x128_S1000x128_1_0_0_1_n_n := plainFacts _ rfl rfl rfl rfl rfl rfl
theorem pf_m2 : PlainFacts dot_S1000x128_S128x259_S1000x259_1_0_0_1_n_n := plainFacts _ rfl rfl rfl rfl rfl rfl

/-! ## The three projections -/

theorem proj0_row (v0 : Vec Ideal S1000x1000 .f32) (v6 : Vec Ideal S1000x256 .f32) (v8 : Vec Ideal S256x256 .f32)
    (p : Fin 1000) (q : Fin 256) : k0_pay3 (F := Ideal) v0 v6 v8 (ix2 p q) = rproj (row v0 p) v6 v8 q := by
  unfold k0_pay3
  exact twoLayer_bf16_row _ pf_x0 _ pf_h bitsLt_bf16_f32 v0 v6 v8 p q

theorem proj1_row (v2 : Vec Ideal S1000x800 .f32) (v10 : Vec Ideal S800x256 .f32) (v12 : Vec Ideal S256x256 .f32)
    (p : Fin 1000) (q : Fin 256) : k0_pay4 (F := Ideal) v2 v10 v12 (ix2 p q) = rproj (row v2 p) v10 v12 q := by
  unfold k0_pay4
  exact twoLayer_bf16_row _ pf_x1 _ pf_h bitsLt_bf16_f32 v2 v10 v12 p q

theorem proj2_row (v4 : Vec Ideal S1000x600 .f32) (v14 : Vec Ideal S600x256 .f32) (v16 : Vec Ideal S256x256 .f32)
    (p : Fin 1000) (q : Fin 256) :
    k0_pay6 (F := Ideal) (k0_pay2 v16) (k0_pay5 v4 v14) (constant S1000x256 .f32 0x00000000#32) (ix2 p q)
      = rproj (row v4 p) v14 v16 q := by
  unfold k0_pay6 k0_pay2 k0_pay5
  exact twoLayer_bf16_row _ pf_x2 _ pf_h bitsLt_bf16_f32 v4 v14 v16 p q

/-! ## The two pools -/

/-- The named third. -/
theorem inv3 : Named.named (F := Ideal) κ "inv_3" (φ := .f32) 0x3EAAAAAB#32 = ((1 / 3 : ℝ) : EReal) :=
  IdealRules.named_const.ideal_named_scalar _ _ _ _ rfl

/-- The feature pool at (p, d): the three projections' entries added, times one third. -/
theorem poolFeat_apply (v17 : FVec Ideal S256x256 .bf16) (v22 v27 : FVec Ideal S1000x256 .f32)
    (v31 : FVec Ideal S1000x256 .bf16) (cst : FVec Ideal S1000x256 .f32) (p : Fin 1000)
    (h0 h1 h2 : Fin 256 → EReal) (e0 : ∀ d, v22 (ix2 p d) = h0 d) (e1 : ∀ d, v27 (ix2 p d) = h1 d)
    (e2 : ∀ d, k0_pay6 v17 v31 cst (ix2 p d) = h2 d) (d : Fin 256) :
    k0_pay7 (F := Ideal) v17 v22 v27 v31 cst (ix2 p d) = poolFeat h0 h1 h2 d := by
  unfold k0_pay7
  show (v22 (ix2 p d) + v27 (ix2 p d) + k0_pay6 v17 v31 cst (ix2 p d)) * Named.named (F := Ideal) κ "inv_3" (φ := .f32) 0x3EAAAAAB#32 = _
  rw [inv3, e0 d, e1 d, e2 d]
  rfl

/-- A row's sum. -/
theorem rowsum_apply (v : FVec Ideal S1000x256 .f32) (p : Fin 1000) :
    multiReduction (F := Ideal) .add [1] S1000 v 0x00000000#32 reduces_S1000x256_S1000 (.inl rfl) rfl (ix1 p)
      = ∑ d : Fin 256, v (ix2 p d) := by
  refine (Ideal.multiReduction_add_single v _ reduces_S1000x256_S1000 (.inl rfl) rfl (ix1 p)).trans ?_
  refine Finset.sum_congr rfl fun d _ => congrArg v ?_
  funext a
  apply Fin.ext
  match a with
  | ⟨0, _⟩ => rfl
  | ⟨1, _⟩ => rfl

/-- A row's mean, kept as a column. -/
theorem rowmean_apply (v : FVec Ideal S1000x256 .f32) (p : Fin 1000) (h : Fin 256 → EReal) (e : ∀ d, v (ix2 p d) = h d) :
    divf (shapeCast S1000x1 (multiReduction (F := Ideal) .add [1] S1000 v 0x00000000#32 reduces_S1000x256_S1000 (.inl rfl) rfl)
        shapeCasts_S1000_S1000x1) (broadcast S1000x1 (Scalar.ofBits (F := Ideal) .f32 0x43800000#32)) (ix2 p (0 : Fin 1))
      = viewMean h := by
  show Ideal.div (shapeCast S1000x1 _ shapeCasts_S1000_S1000x1 (ix2 p (0 : Fin 1))) (Ideal.ofBits .f32 0x43800000#32) = _
  rw [Cert.LibKeepdims.shapeCast_a_a1_apply, rowsum_apply, show (fun d => v (ix2 p d)) = h from funext e]
  rfl

/-- The view pool at (p, v): view v's row mean. -/
theorem poolView_apply (v17 : FVec Ideal S256x256 .bf16) (v22 v27 : FVec Ideal S1000x256 .f32)
    (v31 : FVec Ideal S1000x256 .bf16) (cst : FVec Ideal S1000x256 .f32) (p : Fin 1000)
    (h0 h1 h2 : Fin 256 → EReal) (e0 : ∀ d, v22 (ix2 p d) = h0 d) (e1 : ∀ d, v27 (ix2 p d) = h1 d)
    (e2 : ∀ d, k0_pay6 v17 v31 cst (ix2 p d) = h2 d) (v : Fin 3) :
    k0_pay8 (F := Ideal) v17 v22 v27 v31 cst (ix2 p v) = poolView h0 h1 h2 v := by
  unfold k0_pay8
  refine (Cert.LibCat.cols3_apply _ _ _ concatenates_S1000x1_S1000x1_S1000x1_S1000x3_d1 p v).trans ?_
  rw [rowmean_apply v22 p h0 e0, rowmean_apply v27 p h1 e1, rowmean_apply _ p h2 e2]
  rfl

/-! ## The gates, the mixing weights and the output -/

/-- The joined gates at (p, j), from the two pools of row p. -/
theorem gates_apply (v17 : FVec Ideal S256x256 .bf16) (v22 v27 : FVec Ideal S1000x256 .f32)
    (v31 : FVec Ideal S1000x256 .bf16) (cst : FVec Ideal S1000x256 .f32)
    (v50 : Vec Ideal S3x1 .f32) (v51 : Vec Ideal S1x3 .f32) (v57 : Vec Ideal S256x16 .f32) (v59 : Vec Ideal S16x256 .f32)
    (p : Fin 1000) (pv : Fin 3 → EReal) (pf : Fin 256 → EReal)
    (hpv : ∀ v, k0_pay8 (F := Ideal) v17 v22 v27 v31 cst (ix2 p v) = pv v)
    (hpf : ∀ d, k0_pay7 (F := Ideal) v17 v22 v27 v31 cst (ix2 p d) = pf d) (j : Fin 259) :
    k0_pay9 (F := Ideal) v17 v22 v27 v31 cst v50 v51 v57 v59 (ix2 p j) = cat3 (gateOf pv v50 v51) (gateOf pf v57 v59) j := by
  have rv : row (k0_pay8 (F := Ideal) v17 v22 v27 v31 cst) p = pv := funext hpv
  have rf : row (k0_pay7 (F := Ideal) v17 v22 v27 v31 cst) p = pf := funext hpf
  unfold k0_pay9
  refine (Cert.LibCat.pair_3_256_apply _ _ concatenates_S1000x3_S1000x256_S1000x259_d1 p j).trans ?_
  unfold cat3
  by_cases hj : j.val < 3
  · rw [dif_pos hj, dif_pos hj]
    refine congrArg Ideal.logistic ?_
    refine (twoLayer_f32_row _ pf_v1 _ pf_v2 (k0_pay8 (F := Ideal) v17 v22 v27 v31 cst) v50 v51 p ⟨j.val, hj⟩).trans ?_
    rw [rv]
  · rw [dif_neg hj, dif_neg hj]
    refine congrArg Ideal.logistic ?_
    refine (twoLayer_bf16_row _ pf_f1 _ pf_f2 bitsLt_bf16_f32 (k0_pay7 (F := Ideal) v17 v22 v27 v31 cst) v57 v59 p _).trans ?_
    rw [rf]

/-- The stored value at (p, j), from the two pools and the joined gates of row p. -/
theorem out_apply (v36 : FVec Ideal S1000x256 .f32) (v49 : FVec Ideal S1000x3 .f32) (v68 : FVec Ideal S1000x259 .f32)
    (v69 : Vec Ideal S259x128 .f32) (v71 : Vec Ideal S128x259 .f32) (p : Fin 1000)
    (pv : Fin 3 → EReal) (pf : Fin 256 → EReal) (c1 : Fin 259 → EReal)
    (hpv : ∀ v, v49 (ix2 p v) = pv v) (hpf : ∀ d, v36 (ix2 p d) = pf d) (hc : ∀ j, v68 (ix2 p j) = c1 j) (j : Fin 259) :
    k0_pay1 (F := Ideal) v36 v49 v68 v69 v71 (ix2 p j)
      = cat3 (fun v => Ideal.logistic (rdot (rrelu (rdot c1 v69)) v71 ⟨v.val, by have := v.isLt; omega⟩) * pv v)
          (fun d => Ideal.logistic (rdot (rrelu (rdot c1 v69)) v71 ⟨d.val + 3, by have := d.isLt; omega⟩) * pf d) j := by
  have rc : row v68 p = c1 := funext hc
  have mix : ∀ q : Fin 259, FloatOps.matmul dot_S1000x128_S128x259_S1000x259_1_0_0_1_n_n none
      (truncf .bf16 (maximumf (FloatOps.matmul dot_S1000x259_S259x128_S1000x128_1_0_0_1_n_n none (truncf .bf16 v68 bitsLt_bf16_f32) (truncf .bf16 v69 bitsLt_bf16_f32)
          (constant (F := Ideal) S1000x128 .f32 0x00000000#32)) (broadcast S1000x128 (Scalar.ofBits (F := Ideal) .f32 0x00000000#32))) bitsLt_bf16_f32)
      (truncf .bf16 v71 bitsLt_bf16_f32) (constant (F := Ideal) S1000x259 .f32 0x00000000#32) (ix2 p q)
        = rdot (rrelu (rdot c1 v69)) v71 q := fun q => by
    refine (twoLayer_bf16_row _ pf_m1 _ pf_m2 bitsLt_bf16_f32 v68 v69 v71 p q).trans ?_
    rw [rc]
  unfold k0_pay1
  refine (Cert.LibCat.pair_3_256_apply _ _ concatenates_S1000x3_S1000x256_S1000x259_d1 p j).trans ?_
  unfold cat3
  by_cases hj : j.val < 3
  · rw [dif_pos hj, dif_pos hj]
    show Ideal.logistic (extractStridedSlice (s := S1000x259) S1000x3 ![0, 0] _ slices_S1000x259_o0_0_S1000x3 (ix2 p ⟨j.val, hj⟩)) * v49 (ix2 p ⟨j.val, hj⟩) = _
    rw [hpv, extractStridedSlice_apply ![0, 0] _ slices_S1000x259_o0_0_S1000x3 (ix2 p ⟨j.val, hj⟩) (ix2 p ⟨j.val, by omega⟩) (fun a => by
      match a with
      | ⟨0, _⟩ => show p.val = 0 + p.val; omega
      | ⟨1, _⟩ => show j.val = 0 + j.val; omega)]
    exact congrArg (fun z => Ideal.logistic z * pv ⟨j.val, hj⟩) (mix ⟨j.val, by omega⟩)
  · rw [dif_neg hj, dif_neg hj]
    have hj2 : j.val - 3 < 256 := by have := j.isLt; omega
    show Ideal.logistic (extractStridedSlice (s := S1000x259) S1000x256 ![0, 3] _ slices_S1000x259_o0_3_S1000x256 (ix2 p ⟨j.val - 3, hj2⟩)) * v36 (ix2 p ⟨j.val - 3, hj2⟩) = _
    rw [hpf, extractStridedSlice_apply ![0, 3] _ slices_S1000x259_o0_3_S1000x256 (ix2 p ⟨j.val - 3, hj2⟩) (ix2 p ⟨j.val - 3 + 3, by omega⟩) (fun a => by
      match a with
      | ⟨0, _⟩ => show p.val = 0 + p.val; omega
      | ⟨1, _⟩ => show j.val - 3 + 3 = 3 + (j.val - 3); omega)]
    exact congrArg (fun z => Ideal.logistic z * pf ⟨j.val - 3, hj2⟩) (mix ⟨j.val - 3 + 3, by omega⟩)

/-- THE BODY AT AN ENTRY: the stored tile at (p, q) is the row function of row p of the three view tiles. -/
theorem body_row (x0 : Vec Ideal S1000x1000 .f32) (x1 : Vec Ideal S1000x800 .f32) (x2 : Vec Ideal S1000x600 .f32)
    (x3 : Vec Ideal S1000x256 .f32) (x4 : Vec Ideal S256x256 .f32) (x5 : Vec Ideal S800x256 .f32) (x6 : Vec Ideal S256x256 .f32)
    (x7 : Vec Ideal S600x256 .f32) (x8 : Vec Ideal S256x256 .f32) (x9 : Vec Ideal S3x1 .f32) (x10 : Vec Ideal S1x3 .f32)
    (x11 : Vec Ideal S256x16 .f32) (x12 : Vec Ideal S16x256 .f32) (x13 : Vec Ideal S259x128 .f32) (x14 : Vec Ideal S128x259 .f32)
    (p : Fin 1000) (q : Fin 259) :
    k0_pay1 (F := Ideal)
        (k0_pay7 (k0_pay2 x8) (k0_pay3 x0 x3 x4) (k0_pay4 x1 x5 x6) (k0_pay5 x2 x7) (constant S1000x256 .f32 0x00000000#32))
        (k0_pay8 (k0_pay2 x8) (k0_pay3 x0 x3 x4) (k0_pay4 x1 x5 x6) (k0_pay5 x2 x7) (constant S1000x256 .f32 0x00000000#32))
        (k0_pay9 (k0_pay2 x8) (k0_pay3 x0 x3 x4) (k0_pay4 x1 x5 x6) (k0_pay5 x2 x7) (constant S1000x256 .f32 0x00000000#32) x9 x10 x11 x12)
        x13 x14 (ix2 p q)
      = rowGate ⟨x3, x4, x5, x6, x7, x8, x9, x10, x11, x12, x13, x14⟩ (row x0 p) (row x1 p) (row x2 p) q := by
  have e0 := fun d => proj0_row x0 x3 x4 p d
  have e1 := fun d => proj1_row x1 x5 x6 p d
  have e2 := fun d => proj2_row x2 x7 x8 p d
  have hpf := poolFeat_apply (k0_pay2 x8) (k0_pay3 x0 x3 x4) (k0_pay4 x1 x5 x6) (k0_pay5 x2 x7) (constant S1000x256 .f32 0x00000000#32) p _ _ _ e0 e1 e2
  have hpv := poolView_apply (k0_pay2 x8) (k0_pay3 x0 x3 x4) (k0_pay4 x1 x5 x6) (k0_pay5 x2 x7) (constant S1000x256 .f32 0x00000000#32) p _ _ _ e0 e1 e2
  have hc := gates_apply (k0_pay2 x8) (k0_pay3 x0 x3 x4) (k0_pay4 x1 x5 x6) (k0_pay5 x2 x7) (constant S1000x256 .f32 0x00000000#32) x9 x10 x11 x12 p _ _ hpv hpf
  exact out_apply _ _ _ x13 x14 p _ _ _ hpv hpf hc q

end Cert.KernelIdeal.GateBody

end
-- ==== Proof.KRegion0.lean ====
/-
  The first region's result array.

  Grid point t of the first region works on nodes 1000 t … 1000 t + 999: it is handed rows 1000 t … of the three
  views and every weight matrix whole, and writes rows 1000 t … of the result. Since the stored tile at (p, q) is
  the row function of row p of the view tiles, the tile is the matching block of the whole-array first stage; the
  50 tiles cover the 50000 rows, so after the region the result array is the first stage of the argument arrays.
-/
import proofs.«126801_j83811991814568_1_alg».proof.Proof.Gen.KernelIdeal.Frame
import proofs.«126801_j83811991814568_1_alg».proof.Proof.KGate
import Idealize.ShloMosaic.Lib.Pipeline.Value

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Net

variable (V : (c : Dev nD) → (b : Ref sig .tc) → Buf (Elt Ideal) ((c : Thread nD τ).loc b))

theorem hz : (![0, 0] : Fin 2 → Nat) = fun _ => 0 := funext fun a => by fin_cases a <;> rfl

/-- The block index of each moving window (the three views and the result) at grid point t is (t, 0). -/
theorem moving_facts : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_15.index t 0 = t.val ∧ win0_15.index t 1 = 0 :=
  (by decide +kernel : ∀ t : Fin grid0.N, _)

/-- The block index of each weight window is (0, 0) at every grid point. -/
theorem whole_facts : ∀ t : Fin cfg0.N,
    (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0)
    ∧ (∀ a : Fin 2, win0_14.index t a = 0) :=
  (by decide +kernel : ∀ t : Fin grid0.N, _)

/-! ## Each weight window's block is its whole array -/

theorem blk3 (c : Dev nD) (t : Fin cfg0.N) : (iblk0 V c 3 t : Vec Ideal S1000x256 .f32) = (V c main_arg3 : S1000x256.Idx → EReal) := by
  funext x
  have h0 : win0_3.index t 0 = 0 := (whole_facts t).1 0
  have h1 : win0_3.index t 1 = 0 := (whole_facts t).1 1
  unfold iblk0
  rw [View.read_apply]
  show V c main_arg3 _ = V c main_arg3 x
  refine congrArg (V c main_arg3) ?_
  funext a
  apply Fin.ext
  match a with
  | ⟨0, _⟩ => show win0_3.index t 0 * 1000 + 1 * (x 0).val = (x 0).val; rw [h0]; omega
  | ⟨1, _⟩ => show win0_3.index t 1 * 256 + 1 * (x 1).val = (x 1).val; rw [h1]; omega

theorem blk4 (c : Dev nD) (t : Fin cfg0.N) : (iblk0 V c 4 t : Vec Ideal S256x256 .f32) = (V c main_arg4 : S256x256.Idx → EReal) := by
  funext x
  have h0 : win0_4.index t 0 = 0 := (whole_facts t).2.1 0
  have h1 : win0_4.index t 1 = 0 := (whole_facts t).2.1 1
  unfold iblk0
  rw [View.read_apply]
  show V c main_arg4 _ = V c main_arg4 x
  refine congrArg (V c main_arg4) ?_
  funext a
  apply Fin.ext
  match a with
  | ⟨0, _⟩ => show win0_4.index t 0 * 256 + 1 * (x 0).val = (x 0).val; rw [h0]; omega
  | ⟨1, _⟩ => show win0_4.index t 1 * 256 + 1 * (x 1).val = (x 1).val; rw [h1]; omega

theorem blk5 (c : Dev nD) (t : Fin cfg0.N) : (iblk0 V c 5 t : Vec Ideal S800x256 .f32) = (V c main_arg5 : S800x256.Idx → EReal) := by
  funext x
  have h0 : win0_5.index t 0 = 0 := (whole_facts t).2.2.1 0
  have h1 : win0_5.index t 1 = 0 := (whole_facts t).2.2.1 1
  unfold iblk0
  rw [View.read_apply]
  show V c main_arg5 _ = V c main_arg5 x
  refine congrArg (V c main_arg5) ?_
  funext a
  apply Fin.ext
  match a with
  | ⟨0, _⟩ => show win0_5.index t 0 * 800 + 1 * (x 0).val = (x 0).val; rw [h0]; omega
  | ⟨1, _⟩ => show win0_5.index t 1 * 256 + 1 * (x 1).val = (x 1).val; rw [h1]; omega

theorem blk6 (c : Dev nD) (t : Fin cfg0.N) : (iblk0 V c 6 t : Vec Ideal S256x256 .f32) = (V c main_arg6 : S256x256.Idx → EReal) := by
  funext x
  have h0 : win0_6.index t 0 = 0 := (whole_facts t).2.2.2.1 0
  have h1 : win0_6.index t 1 = 0 := (whole_facts t).2.2.2.1 1
  unfold iblk0
  rw [View.read_apply]
  show V c main_arg6 _ = V c main_arg6 x
  refine congrArg (V c main_arg6) ?_
  funext a
  apply Fin.ext
  match a with
  | ⟨0, _⟩ => show win0_6.index t 0 * 256 + 1 * (x 0).val = (x 0).val; rw [h0]; omega
  | ⟨1, _⟩ => show win0_6.index t 1 * 256 + 1 * (x 1).val = (x 1).val; rw [h1]; omega

theorem blk7 (c : Dev nD) (t : Fin cfg0.N) : (iblk0 V c 7 t : Vec Ideal S600x256 .f32) = (V c main_arg7 : S600x256.Idx → EReal) := by
  funext x
  have h0 : win0_7.index t 0 = 0 := (whole_facts t).2.2.2.2.1 0
  have h1 : win0_7.index t 1 = 0 := (whole_facts t).2.2.2.2.1 1
  unfold iblk0
  rw [View.read_apply]
  show V c main_arg7 _ = V c main_arg7 x
  refine congrArg (V c main_arg7) ?_
  funext a
  apply Fin.ext
  match a with
  | ⟨0, _⟩ => show win0_7.index t 0 * 600 + 1 * (x 0).val = (x 0).val; rw [h0]; omega
  | ⟨1, _⟩ => show win0_7.index t 1 * 256 + 1 * (x 1).val = (x 1).val; rw [h1]; omega

theorem blk8 (c : Dev nD) (t : Fin cfg0.N) : (iblk0 V c 8 t : Vec Ideal S256x256 .f32) = (V c main_arg8 : S256x256.Idx → EReal) := by
  funext x
  have h0 : win0_8.index t 0 = 0 := (whole_facts t).2.2.2.2.2.1 0
  have h1 : win0_8.index t 1 = 0 := (whole_facts t).2.2.2.2.2.1 1
  unfold iblk0
  rw [View.read_apply]
  show V c main_arg8 _ = V c main_arg8 x
  refine congrArg (V c main_arg8) ?_
  funext a
  apply Fin.ext
  match a with
  | ⟨0, _⟩ => show win0_8.index t 0 * 256 + 1 * (x 0).val = (x 0).val; rw [h0]; omega
  | ⟨1, _⟩ => show win0_8.index t 1 * 256 + 1 * (x 1).val = (x 1).val; rw [h1]; omega

theorem blk9 (c : Dev nD) (t : Fin cfg0.N) : (iblk0 V c 9 t : Vec Ideal S3x1 .f32) = (V c main_arg12 : S3x1.Idx → EReal) := by
  funext x
  have h0 : win0_9.index t 0 = 0 := (whole_facts t).2.2.2.2.2.2.1 0
  have h1 : win0_9.index t 1 = 0 := (whole_facts t).2.2.2.2.2.2.1 1
  unfold iblk0
  rw [View.read_apply]
  show V c main_arg12 _ = V c main_arg12 x
  refine congrArg (V c main_arg12) ?_
  funext a
  apply Fin.ext
  match a with
  | ⟨0, _⟩ => show win0_9.index t 0 * 3 + 1 * (x 0).val = (x 0).val; rw [h0]; omega
  | ⟨1, _⟩ => show win0_9.index t 1 * 1 + 1 * (x 1).val = (x 1).val; rw [h1]; omega

theorem blk10 (c : Dev nD) (t : Fin cfg0.N) : (iblk0 V c 10 t : Vec Ideal S1x3 .f32) = (V c main_arg13 : S1x3.Idx → EReal) := by
  funext x
  have h0 : win0_10.index t 0 = 0 := (whole_facts t).2.2.2.2.2.2.2.1 0
  have h1 : win0_10.index t 1 = 0 := (whole_facts t).2.2.2.2.2.2.2.1 1
  unfold iblk0
  rw [View.read_apply]
  show V c main_arg13 _ = V c main_arg13 x
  refine congrArg (V c main_arg13) ?_
  funext a
  apply Fin.ext
  match a with
  | ⟨0, _⟩ => show win0_10.index t 0 * 1 + 1 * (x 0).val = (x 0).val; rw [h0]; omega
  | ⟨1, _⟩ => show win0_10.index t 1 * 3 + 1 * (x 1).val = (x 1).val; rw [h1]; omega

theorem blk11 (c : Dev nD) (t : Fin cfg0.N) : (iblk0 V c 11 t : Vec Ideal S256x16 .f32) = (V c main_arg14 : S256x16.Idx → EReal) := by
  funext x
  have h0 : win0_11.index t 0 = 0 := (whole_facts t).2.2.2.2.2.2.2.2.1 0
  have h1 : win0_11.index t 1 = 0 := (whole_facts t).2.2.2.2.2.2.2.2.1 1
  unfold iblk0
  rw [View.read_apply]
  show V c main_arg14 _ = V c main_arg14 x
  refine congrArg (V c main_arg14) ?_
  funext a
  apply Fin.ext
  match a with
  | ⟨0, _⟩ => show win0_11.index t 0 * 256 + 1 * (x 0).val = (x 0).val; rw [h0]; omega
  | ⟨1, _⟩ => show win0_11.index t 1 * 16 + 1 * (x 1).val = (x 1).val; rw [h1]; omega

theorem blk12 (c : Dev nD) (t : Fin cfg0.N) : (iblk0 V c 12 t : Vec Ideal S16x256 .f32) = (V c main_arg15 : S16x256.Idx → EReal) := by
  funext x
  have h0 : win0_12.index t 0 = 0 := (whole_facts t).2.2.2.2.2.2.2.2.2.1 0
  have h1 : win0_12.index t 1 = 0 := (whole_facts t).2.2.2.2.2.2.2.2.2.1 1
  unfold iblk0
  rw [View.read_apply]
  show V c main_arg15 _ = V c main_arg15 x
  refine congrArg (V c main_arg15) ?_
  funext a
  apply Fin.ext
  match a with
  | ⟨0, _⟩ => show win0_12.index t 0 * 16 + 1 * (x 0).val = (x 0).val; rw [h0]; omega
  | ⟨1, _⟩ => show win0_12.index t 1 * 256 + 1 * (x 1).val = (x 1).val; rw [h1]; omega

theorem blk13 (c : Dev nD) (t : Fin cfg0.N) : (iblk0 V c 13 t : Vec Ideal S259x128 .f32) = (V c main_arg16 : S259x128.Idx → EReal) := by
  funext x
  have h0 : win0_13.index t 0 = 0 := (whole_facts t).2.2.2.2.2.2.2.2.2.2.1 0
  have h1 : win0_13.index t 1 = 0 := (whole_facts t).2.2.2.2.2.2.2.2.2.2.1 1
  unfold iblk0
  rw [View.read_apply]
  show V c main_arg16 _ = V c main_arg16 x
  refine congrArg (V c main_arg16) ?_
  funext a
  apply Fin.ext
  match a with
  | ⟨0, _⟩ => show win0_13.index t 0 * 259 + 1 * (x 0).val = (x 0).val; rw [h0]; omega
  | ⟨1, _⟩ => show win0_13.index t 1 * 128 + 1 * (x 1).val = (x 1).val; rw [h1]; omega

theorem blk14 (c : Dev nD) (t : Fin cfg0.N) : (iblk0 V c 14 t : Vec Ideal S128x259 .f32) = (V c main_arg17 : S128x259.Idx → EReal) := by
  funext x
  have h0 : win0_14.index t 0 = 0 := (whole_facts t).2.2.2.2.2.2.2.2.2.2.2 0
  have h1 : win0_14.index t 1 = 0 := (whole_facts t).2.2.2.2.2.2.2.2.2.2.2 1
  unfold iblk0
  rw [View.read_apply]
  show V c main_arg17 _ = V c main_arg17 x
  refine congrArg (V c main_arg17) ?_
  funext a
  apply Fin.ext
  match a with
  | ⟨0, _⟩ => show win0_14.index t 0 * 128 + 1 * (x 0).val = (x 0).val; rw [h0]; omega
  | ⟨1, _⟩ => show win0_14.index t 1 * 259 + 1 * (x 1).val = (x 1).val; rw [h1]; omega

/-! ## Row p of a view's block at point t is row 1000 t + p of the view -/

theorem blk0_row (c : Dev nD) (t : Fin cfg0.N) (p : Fin 1000) (k : Fin 1000) (hlt : 1000 * t.val + p.val < 50000) :
    (iblk0 V c 0 t : Vec Ideal S1000x1000 .f32) (ix2 p k) = (V c main_arg0 : S50000x1000.Idx → EReal) (ix2 ⟨1000 * t.val + p.val, hlt⟩ k) := by
  have h0 : win0_0.index t 0 = t.val := (moving_facts t).1
  have h1 : win0_0.index t 1 = 0 := (moving_facts t).2.1
  unfold iblk0
  rw [View.read_apply]
  show V c main_arg0 _ = V c main_arg0 _
  refine congrArg (V c main_arg0) ?_
  funext a
  apply Fin.ext
  match a with
  | ⟨0, _⟩ => show win0_0.index t 0 * 1000 + 1 * p.val = 1000 * t.val + p.val; rw [h0]; omega
  | ⟨1, _⟩ => show win0_0.index t 1 * 1000 + 1 * k.val = k.val; rw [h1]; omega

theorem blk1_row (c : Dev nD) (t : Fin cfg0.N) (p : Fin 1000) (k : Fin 800) (hlt : 1000 * t.val + p.val < 50000) :
    (iblk0 V c 1 t : Vec Ideal S1000x800 .f32) (ix2 p k) = (V c main_arg1 : S50000x800.Idx → EReal) (ix2 ⟨1000 * t.val + p.val, hlt⟩ k) := by
  have h0 : win0_1.index t 0 = t.val := (moving_facts t).2.2.1
  have h1 : win0_1.index t 1 = 0 := (moving_facts t).2.2.2.1
  unfold iblk0
  rw [View.read_apply]
  show V c main_arg1 _ = V c main_arg1 _
  refine congrArg (V c main_arg1) ?_
  funext a
  apply Fin.ext
  match a with
  | ⟨0, _⟩ => show win0_1.index t 0 * 1000 + 1 * p.val = 1000 * t.val + p.val; rw [h0]; omega
  | ⟨1, _⟩ => show win0_1.index t 1 * 800 + 1 * k.val = k.val; rw [h1]; omega

theorem blk2_row (c : Dev nD) (t : Fin cfg0.N) (p : Fin 1000) (k : Fin 600) (hlt : 1000 * t.val + p.val < 50000) :
    (iblk0 V c 2 t : Vec Ideal S1000x600 .f32) (ix2 p k) = (V c main_arg2 : S50000x600.Idx → EReal) (ix2 ⟨1000 * t.val + p.val, hlt⟩ k) := by
  have h0 : win0_2.index t 0 = t.val := (moving_facts t).2.2.2.2.1
  have h1 : win0_2.index t 1 = 0 := (moving_facts t).2.2.2.2.2.1
  unfold iblk0
  rw [View.read_apply]
  show V c main_arg2 _ = V c main_arg2 _
  refine congrArg (V c main_arg2) ?_
  funext a
  apply Fin.ext
  match a with
  | ⟨0, _⟩ => show win0_2.index t 0 * 1000 + 1 * p.val = 1000 * t.val + p.val; rw [h0]; omega
  | ⟨1, _⟩ => show win0_2.index t 1 * 600 + 1 * k.val = k.val; rw [h1]; omega

/-- The weights as the region finds them. -/
def wts (c : Dev nD) : Weights :=
  ⟨V c main_arg3, V c main_arg4, V c main_arg5, V c main_arg6, V c main_arg7, V c main_arg8,
    V c main_arg12, V c main_arg13, V c main_arg14, V c main_arg15, V c main_arg16, V c main_arg17⟩

/-- The whole-array first stage of the arrays the region finds. -/
def G (c : Dev nD) : Buf (Elt Ideal) ((c : Thread nD τ).loc main_v0) :=
  gate (wts V c) (V c main_arg0) (V c main_arg1) (V c main_arg2)

/-- What point t writes back is block t of the whole-array first stage. -/
theorem flushed_eq (c : Dev nD) (t : Fin cfg0.N) :
    (dat0 V c).flushed 15 t = ((cfg0.win 15).blk t).view.read (Elt Ideal) (G V c) := by
  have ht : t.val < 50 := lt_of_lt_of_eq t.isLt N_0
  show (cfg0.win 15).cut (grid0.coords t) ((dat0 V c).after 15 t) = _
  rw [after0_15]
  unfold out0_15
  rw [View.canon_unit_zero hz]
  simp only [View.ld_unit_zero (S := S1000x1000) hz, View.ld_unit_zero (S := S1000x800) hz, View.ld_unit_zero (S := S1000x600) hz, View.ld_unit_zero (S := S1000x256) hz, View.ld_unit_zero (S := S256x256) hz, View.ld_unit_zero (S := S800x256) hz, View.ld_unit_zero (S := S600x256) hz, View.ld_unit_zero (S := S3x1) hz, View.ld_unit_zero (S := S1x3) hz, View.ld_unit_zero (S := S256x16) hz, View.ld_unit_zero (S := S16x256) hz, View.ld_unit_zero (S := S259x128) hz, View.ld_unit_zero (S := S128x259) hz, View.ld_unit_zero (S := S1000x259) hz]
  rw [blk3 V c t, blk4 V c t, blk5 V c t, blk6 V c t, blk7 V c t, blk8 V c t, blk9 V c t, blk10 V c t, blk11 V c t, blk12 V c t, blk13 V c t, blk14 V c t]
  funext y
  obtain ⟨p, q, rfl⟩ : ∃ (p : Fin 1000) (q : Fin 259), y = ix2 p q := ⟨y 0, y 1, eq_ix2 y⟩
  have hlt : 1000 * t.val + p.val < 50000 := by have := p.isLt; omega
  refine (Cert.KernelIdeal.GateBody.body_row (iblk0 V c 0 t) (iblk0 V c 1 t) (iblk0 V c 2 t) (V c main_arg3) (V c main_arg4) (V c main_arg5) (V c main_arg6) (V c main_arg7) (V c main_arg8) (V c main_arg12) (V c main_arg13) (V c main_arg14) (V c main_arg15) (V c main_arg16) (V c main_arg17) p q).trans ?_
  rw [View.read_apply]
  have hE : ((cfg0.win 15).blk t).view.emb (ix2 p q) = ix2 (⟨1000 * t.val + p.val, hlt⟩ : Fin 50000) q := by
    have h0 : win0_15.index t 0 = t.val := (moving_facts t).2.2.2.2.2.2.1
    have h1 : win0_15.index t 1 = 0 := (moving_facts t).2.2.2.2.2.2.2
    funext a
    apply Fin.ext
    match a with
    | ⟨0, _⟩ => show win0_15.index t 0 * 1000 + 1 * p.val = 1000 * t.val + p.val; rw [h0]; omega
    | ⟨1, _⟩ => show win0_15.index t 1 * 259 + 1 * q.val = q.val; rw [h1]; omega
  rw [hE]
  have r0 : row (iblk0 V c 0 t : Vec Ideal S1000x1000 .f32) p = row (V c main_arg0 : S50000x1000.Idx → EReal) ⟨1000 * t.val + p.val, hlt⟩ :=
    funext fun k => blk0_row V c t p k hlt
  have r1 : row (iblk0 V c 1 t : Vec Ideal S1000x800 .f32) p = row (V c main_arg1 : S50000x800.Idx → EReal) ⟨1000 * t.val + p.val, hlt⟩ :=
    funext fun k => blk1_row V c t p k hlt
  have r2 : row (iblk0 V c 2 t : Vec Ideal S1000x600 .f32) p = row (V c main_arg2 : S50000x600.Idx → EReal) ⟨1000 * t.val + p.val, hlt⟩ :=
    funext fun k => blk2_row V c t p k hlt
  rw [r0, r1, r2]
  rfl

/-- An index of the result array is in point t's block iff each coordinate is in the block's range. -/
theorem mem_blk (t : Fin cfg0.N) (i : S50000x259.Idx) :
    i ∈ ((cfg0.win 15).blk t).view.set ↔ ∀ a : Fin 2, win0_15.index t a * S1000x259.size a ≤ (i a).val ∧ (i a).val < win0_15.index t a * S1000x259.size a + S1000x259.size a := by
  show i ∈ ((View.whole main_v0).slice (win0_15.rect t)).set ↔ _
  rw [View.set_slice_whole, Rect.mem_set_unit]
  exact Iff.rfl

/-- Every index of the result array is in the block of the point of its row block. -/
theorem cover (i : S50000x259.Idx) :
    ∃ t : Fin cfg0.N, (cfg0.win 15).flush t = true ∧ i ∈ ((cfg0.win 15).blk t).view.set := by
  have hi0 : (i 0).val < 50000 := (i 0).isLt
  have hi1 : (i 1).val < 259 := (i 1).isLt
  have ht : (i 0).val / 1000 < 50 := by omega
  refine ⟨⟨(i 0).val / 1000, ht⟩, flush0_15 _, ?_⟩
  have h0 : win0_15.index ⟨(i 0).val / 1000, ht⟩ 0 = (i 0).val / 1000 := (moving_facts ⟨(i 0).val / 1000, ht⟩).2.2.2.2.2.2.1
  have h1 : win0_15.index ⟨(i 0).val / 1000, ht⟩ 1 = 0 := (moving_facts ⟨(i 0).val / 1000, ht⟩).2.2.2.2.2.2.2
  rw [mem_blk]
  intro a
  match a with
  | ⟨0, _⟩ =>
    show win0_15.index ⟨(i 0).val / 1000, ht⟩ 0 * 1000 ≤ (i 0).val ∧ (i 0).val < win0_15.index ⟨(i 0).val / 1000, ht⟩ 0 * 1000 + 1000
    rw [h0]; omega
  | ⟨1, _⟩ =>
    show win0_15.index ⟨(i 0).val / 1000, ht⟩ 1 * 259 ≤ (i 1).val ∧ (i 1).val < win0_15.index ⟨(i 0).val / 1000, ht⟩ 1 * 259 + 259
    rw [h1]; omega

/-- The result array after the region, from the arrays the region finds. -/
theorem final_of (c : Dev nD) : (dat0 V c).arrAt 15 cfg0.N = G V c :=
  (dat0 V c).arrAt_eq_of_cover 15 (G V c) (fun t _ => flushed_eq V c t) cover

/-- After the first region the result array is the first stage of the launch's argument arrays. -/
theorem final (m : (ℓ : Loc nD τ sig) → Buf (Elt Ideal) ℓ) (ρ : Dev nD → PrngReg) (c : Dev nD) :
    W1 m ρ c (Proc.devRef .tc main_v0)
      = Cert.Net.gate ⟨m ((c : Thread nD τ).loc main_arg3), m ((c : Thread nD τ).loc main_arg4), m ((c : Thread nD τ).loc main_arg5),
          m ((c : Thread nD τ).loc main_arg6), m ((c : Thread nD τ).loc main_arg7), m ((c : Thread nD τ).loc main_arg8),
          m ((c : Thread nD τ).loc main_arg12), m ((c : Thread nD τ).loc main_arg13), m ((c : Thread nD τ).loc main_arg14),
          m ((c : Thread nD τ).loc main_arg15), m ((c : Thread nD τ).loc main_arg16), m ((c : Thread nD τ).loc main_arg17)⟩
        (m ((c : Thread nD τ).loc main_arg0)) (m ((c : Thread nD τ).loc main_arg1)) (m ((c : Thread nD τ).loc main_arg2)) :=
  (W1_arr m ρ c 15).trans (final_of (V0 m ρ) c)

end Cert.KernelIdeal.Region0

end
-- ==== Proof.lean ====
/-
  A network over 50000 nodes: a first stage that gates three views of each node into one row of 259 features, then
  three rounds of message passing along 800000 weighted edges, each followed by a weight matrix and the hyperbolic
  tangent. The kernel computes the first stage and the three dense layers tile by tile, 1000 nodes at a time, with
  factors rounded to a narrower float format before each product; the reference computes them on whole arrays. Over
  the extended reals the rounding is the identity and a tiled product is the whole product, so both are the same
  function of the arguments once one law is in place: the reference averages the products h · w over an axis on
  which the gate w is constant, the kernel multiplies the average of h by w, and the two agree because a logistic
  gate is a nonnegative real, over which multiplication distributes across any sum of extended reals. The message
  passing is the same sequence of host operations on both sides.
  The kernel's one third is a named constant whose value is the rational 1/3, against the reference's division by 3.
-/
import proofs.«126801_j83811991814568_1_alg».proof.Defs
import proofs.«126801_j83811991814568_1_alg».proof.Proof.Gen.Kernel
import proofs.«126801_j83811991814568_1_alg».proof.Proof.Gen.Kernel.Skeleton
import proofs.«126801_j83811991814568_1_alg».proof.Proof.Gen.Kernel.Launch
import proofs.«126801_j83811991814568_1_alg».proof.Proof.Gen.Kernel.Points
import proofs.«126801_j83811991814568_1_alg».proof.Proof.Gen.Kernel.Frame
import proofs.«126801_j83811991814568_1_alg».proof.Proof.Gen.KernelIdeal
import proofs.«126801_j83811991814568_1_alg».proof.Proof.Gen.KernelIdeal.Skeleton
import proofs.«126801_j83811991814568_1_alg».proof.Proof.Gen.KernelIdeal.Launch
import proofs.«126801_j83811991814568_1_alg».proof.Proof.Gen.KernelIdeal.Points
import proofs.«126801_j83811991814568_1_alg».proof.Proof.Gen.KernelIdeal.Frame
import proofs.«126801_j83811991814568_1_alg».proof.Proof.Gen.ReferenceIdeal
import proofs.«126801_j83811991814568_1_alg».proof.Proof.Gen.Pre_finite_inputs
import proofs.«126801_j83811991814568_1_alg».proof.Proof.Gen.ReferenceIdeal.Run
import proofs.«126801_j83811991814568_1_alg».proof.Proof.Gen.ReferenceIdeal.Read
import Idealize.ShloMosaic.Adequacy
import Idealize.ShloMosaic.Init
import Idealize.ShloMosaic.PureOps.IdealRules
import proofs.«126801_j83811991814568_1_alg».proof.Proof.KRunNet
import proofs.«126801_j83811991814568_1_alg».proof.Proof.NetRef
import proofs.«126801_j83811991814568_1_alg».proof.Proof.RefGateOut
import proofs.«126801_j83811991814568_1_alg».proof.Proof.KRegion0

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the constant one third denotes the rational 1/3. -/
theorem preserves : Cert.preserves_Kernel_KernelIdeal :=
  IdealRules.named_const.statement Cert.KernelIdeal.κ "inv_3" .f32 0x3EAAAAAB#32 ((1 / 3 : ℝ) : EReal) rfl

/-- From memories agreeing on the arguments both idealized programs end with the three layers of the network applied
    to the first stage of the arguments: the kernel by its run, region by region; the reference by its operations read
    one at a time. -/
theorem algebraic : Cert.algebraic_KernelIdeal_ReferenceIdeal := by
  intro m ρ m' ρ' _ hagree
  refine ⟨fun c => Cert.Net.net3 (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      (Cert.Net.gate ⟨m ((c.tc : Thread Cert.KernelIdeal.nD Cert.KernelIdeal.τ).loc Cert.KernelIdeal.main_arg3),
        m ((c.tc : Thread Cert.KernelIdeal.nD Cert.KernelIdeal.τ).loc Cert.KernelIdeal.main_arg4),
        m ((c.tc : Thread Cert.KernelIdeal.nD Cert.KernelIdeal.τ).loc Cert.KernelIdeal.main_arg5),
        m ((c.tc : Thread Cert.KernelIdeal.nD Cert.KernelIdeal.τ).loc Cert.KernelIdeal.main_arg6),
        m ((c.tc : Thread Cert.KernelIdeal.nD Cert.KernelIdeal.τ).loc Cert.KernelIdeal.main_arg7),
        m ((c.tc : Thread Cert.KernelIdeal.nD Cert.KernelIdeal.τ).loc Cert.KernelIdeal.main_arg8),
        m ((c.tc : Thread Cert.KernelIdeal.nD Cert.KernelIdeal.τ).loc Cert.KernelIdeal.main_arg12),
        m ((c.tc : Thread Cert.KernelIdeal.nD Cert.KernelIdeal.τ).loc Cert.KernelIdeal.main_arg13),
        m ((c.tc : Thread Cert.KernelIdeal.nD Cert.KernelIdeal.τ).loc Cert.KernelIdeal.main_arg14),
        m ((c.tc : Thread Cert.KernelIdeal.nD Cert.KernelIdeal.τ).loc Cert.KernelIdeal.main_arg15),
        m ((c.tc : Thread Cert.KernelIdeal.nD Cert.KernelIdeal.τ).loc Cert.KernelIdeal.main_arg16),
        m ((c.tc : Thread Cert.KernelIdeal.nD Cert.KernelIdeal.τ).loc Cert.KernelIdeal.main_arg17)⟩
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))), ?_, ?_⟩
  · exact (θ_run (Cert.KernelIdeal.defs (F := Ideal)) _ _).mono
      (fun r h c => ⟨(h c).1.trans (congrArg (Cert.Net.net3 _ _ _ _ _ _) (Cert.KernelIdeal.Region0.final m ρ c)), (h c).2⟩)
      (Cert.KernelIdeal.NetRun.kernel_run_net m ρ)
  · refine (θ_run (Cert.ReferenceIdeal.defs (F := Ideal)) _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v112_eq, Cert.ReferenceIdeal.NetRef.ref_net, Cert.RefGate.ref_gate,
      h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
